-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x256 .f32) (main_arg6 : FVec F S768 .f32) (main_arg7 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768x256 .f32 := Host.absf main_arg5
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S320000 .f32) (main_arg3 : FVec F S5x256x256 .f32) (main_arg4 : FVec F S768x256 .f32) (main_arg5 : FVec F S768x256 .f32) (main_arg6 : FVec F S768 .f32) (main_arg7 : FVec F S768 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S5x256x256 .f32 := Host.absf main_arg3
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S1x320000 : Shape := ⟨2, ![1, 320000]⟩
abbrev S256x768 : Shape := ⟨2, ![256, 768]⟩
abbrev S1x768 : Shape := ⟨2, ![1, 768]⟩
abbrev S1x256x256 : Shape := ⟨3, ![1, 256, 256]⟩
abbrev S256x256 : Shape := ⟨2, ![256, 256]⟩
abbrev S1000x256 : Shape := ⟨2, ![1000, 256]⟩
abbrev S_ : Shape := ⟨0, ![]⟩
abbrev S320000x1 : Shape := ⟨2, ![320000, 1]⟩
abbrev S320000x256 : Shape := ⟨2, ![320000, 256]⟩
abbrev S1000x768 : Shape := ⟨2, ![1000, 768]⟩

abbrev nBuf : Space → Nat
  | .hbm => 116
  | .vmem => 75
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S5x256x256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S256x768, .f32⟩
  | .hbm, ⟨13, _⟩ => ⟨S256x768, .f32⟩
  | .hbm, ⟨14, _⟩ => ⟨S1x768, .f32⟩
  | .hbm, ⟨15, _⟩ => ⟨S1x768, .f32⟩
  | .hbm, ⟨16, _⟩ => ⟨S1x256x256, .f32⟩
  | .hbm, ⟨17, _⟩ => ⟨S256x256, .f32⟩
  | .hbm, ⟨18, _⟩ => ⟨S10000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x1, .f32⟩
  | .hbm, ⟨29, _⟩ => ⟨S320000x256, .f32⟩
  | .hbm, ⟨30, _⟩ => ⟨S320000x256, .f32⟩
  | .hbm, ⟨31, _⟩ => ⟨S_, .f32⟩
  | .hbm, ⟨32, _⟩ => ⟨S10000x256, .f32⟩
  | .hbm, ⟨33, _⟩ => ⟨S320000x1, .i32⟩
  | .hbm, ⟨34, _⟩ => ⟨S10000x256, .f32⟩
  | .hbm, ⟨35, _⟩ => ⟨S10000x256, .f32⟩
  | .hbm, ⟨36, _⟩ => ⟨S1x256x256, .f32⟩
  | .hbm, ⟨37, _⟩ => ⟨S256x256, .f32⟩
  | .hbm, ⟨38, _⟩ => ⟨S10000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S320000x1, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S10000x256, .f32⟩
  | .hbm, ⟨53, _⟩ => ⟨S320000x1, .i32⟩
  | .hbm, ⟨54, _⟩ => ⟨S10000x256, .f32⟩
  | .hbm, ⟨55, _⟩ => ⟨S10000x256, .f32⟩
  | .hbm, ⟨56, _⟩ => ⟨S1x256x256, .f32⟩
  | .hbm, ⟨57, _⟩ => ⟨S256x256, .f32⟩
  | .hbm, ⟨58, _⟩ => ⟨S10000x256, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .f32⟩
  | .hbm, ⟨68, _⟩ => ⟨S320000x1, .f32⟩
  | .hbm, ⟨69, _⟩ => ⟨S320000x256, .f32⟩
  | .hbm, ⟨70, _⟩ => ⟨S320000x256, .f32⟩
  | .hbm, ⟨71, _⟩ => ⟨S_, .f32⟩
  | .hbm, ⟨72, _⟩ => ⟨S10000x256, .f32⟩
  | .hbm, ⟨73, _⟩ => ⟨S320000x1, .i32⟩
  | .hbm, ⟨74, _⟩ => ⟨S10000x256, .f32⟩
  | .hbm, ⟨75, _⟩ => ⟨S10000x256, .f32⟩
  | .hbm, ⟨76, _⟩ => ⟨S1x256x256, .f32⟩
  | .hbm, ⟨77, _⟩ => ⟨S256x256, .f32⟩
  | .hbm, ⟨78, _⟩ => ⟨S10000x256, .f32⟩
  | .hbm, ⟨79, _⟩ => ⟨S_, .i32⟩
  | .hbm, ⟨80, _⟩ => ⟨S320000, .i32⟩
  | .hbm, ⟨81, _⟩ => ⟨S320000, .i1⟩
  | .hbm, ⟨82, _⟩ => ⟨S_, .i32⟩
  | .hbm, ⟨83, _⟩ => ⟨S320000, .i32⟩
  | .hbm, ⟨84, _⟩ => ⟨S320000, .i32⟩
  | .hbm, ⟨85, _⟩ => ⟨S320000, .i32⟩
  | .hbm, ⟨86, _⟩ => ⟨S320000x1, .i32⟩
  | .hbm, ⟨87, _⟩ => ⟨S320000x256, .f32⟩
  | .hbm, ⟨88, _⟩ => ⟨S320000x1, .f32⟩
  | .hbm, ⟨89, _⟩ => ⟨S320000x256, .f32⟩
  | .hbm, ⟨90, _⟩ => ⟨S320000x256, .f32⟩
  | .hbm, ⟨91, _⟩ => ⟨S_, .f32⟩
  | .hbm, ⟨92, _⟩ => ⟨S10000x256, .f32⟩
  | .hbm, ⟨93, _⟩ => ⟨S320000x1, .i32⟩
  | .hbm, ⟨94, _⟩ => ⟨S10000x256, .f32⟩
  | .hbm, ⟨95, _⟩ => ⟨S10000x256, .f32⟩
  | .hbm, ⟨96, _⟩ => ⟨S1x256x256, .f32⟩
  | .hbm, ⟨97, _⟩ => ⟨S256x256, .f32⟩
  | .hbm, ⟨98, _⟩ => ⟨S10000x256, .f32⟩
  | .hbm, ⟨99, _⟩ => ⟨S_, .i32⟩
  | .hbm, ⟨100, _⟩ => ⟨S320000, .i32⟩
  | .hbm, ⟨101, _⟩ => ⟨S320000, .i1⟩
  | .hbm, ⟨102, _⟩ => ⟨S_, .i32⟩
  | .hbm, ⟨103, _⟩ => ⟨S320000, .i32⟩
  | .hbm, ⟨104, _⟩ => ⟨S320000, .i32⟩
  | .hbm, ⟨105, _⟩ => ⟨S320000, .i32⟩
  | .hbm, ⟨106, _⟩ => ⟨S320000x1, .i32⟩
  | .hbm, ⟨107, _⟩ => ⟨S320000x256, .f32⟩
  | .hbm, ⟨108, _⟩ => ⟨S320000x1, .f32⟩
  | .hbm, ⟨109, _⟩ => ⟨S320000x256, .f32⟩
  | .hbm, ⟨110, _⟩ => ⟨S320000x256, .f32⟩
  | .hbm, ⟨111, _⟩ => ⟨S_, .f32⟩
  | .hbm, ⟨112, _⟩ => ⟨S10000x256, .f32⟩
  | .hbm, ⟨113, _⟩ => ⟨S320000x1, .i32⟩
  | .hbm, ⟨114, _⟩ => ⟨S10000x256, .f32⟩
  | .hbm, ⟨115, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S256x768, .f32⟩
  | .local _ .vmem, ⟨10, _⟩ => ⟨S256x768, .f32⟩
  | .local _ .vmem, ⟨11, _⟩ => ⟨S1x768, .f32⟩
  | .local _ .vmem, ⟨12, _⟩ => ⟨S1x768, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S256x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S256x768, .f32⟩
  | .local _ .vmem, ⟨25, _⟩ => ⟨S256x768, .f32⟩
  | .local _ .vmem, ⟨26, _⟩ => ⟨S1x768, .f32⟩
  | .local _ .vmem, ⟨27, _⟩ => ⟨S1x768, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S256x256, .f32⟩
  | .local _ .vmem, ⟨33, _⟩ => ⟨S1000x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S256x768, .f32⟩
  | .local _ .vmem, ⟨40, _⟩ => ⟨S256x768, .f32⟩
  | .local _ .vmem, ⟨41, _⟩ => ⟨S1x768, .f32⟩
  | .local _ .vmem, ⟨42, _⟩ => ⟨S1x768, .f32⟩
  | .local _ .vmem, ⟨43, _⟩ => ⟨S1000x256, .f32⟩
  | .local _ .vmem, ⟨44, _⟩ => ⟨S1000x256, .f32⟩
  | .local _ .vmem, ⟨45, _⟩ => ⟨S1000x256, .f32⟩
  | .local _ .vmem, ⟨46, _⟩ => ⟨S1000x256, .f32⟩
  | .local _ .vmem, ⟨47, _⟩ => ⟨S256x256, .f32⟩
  | .local _ .vmem, ⟨48, _⟩ => ⟨S1000x256, .f32⟩
  | .local _ .vmem, ⟨49, _⟩ => ⟨S1000x256, .f32⟩
  | .local _ .vmem, ⟨50, _⟩ => ⟨S1000x256, .f32⟩
  | .local _ .vmem, ⟨51, _⟩ => ⟨S1000x256, .f32⟩
  | .local _ .vmem, ⟨52, _⟩ => ⟨S1000x256, .f32⟩
  | .local _ .vmem, ⟨53, _⟩ => ⟨S1000x256, .f32⟩
  | .local _ .vmem, ⟨54, _⟩ => ⟨S256x768, .f32⟩
  | .local _ .vmem, ⟨55, _⟩ => ⟨S256x768, .f32⟩
  | .local _ .vmem, ⟨56, _⟩ => ⟨S1x768, .f32⟩
  | .local _ .vmem, ⟨57, _⟩ => ⟨S1x768, .f32⟩
  | .local _ .vmem, ⟨58, _⟩ => ⟨S1000x256, .f32⟩
  | .local _ .vmem, ⟨59, _⟩ => ⟨S1000x256, .f32⟩
  | .local _ .vmem, ⟨60, _⟩ => ⟨S1000x256, .f32⟩
  | .local _ .vmem, ⟨61, _⟩ => ⟨S1000x256, .f32⟩
  | .local _ .vmem, ⟨62, _⟩ => ⟨S256x256, .f32⟩
  | .local _ .vmem, ⟨63, _⟩ => ⟨S1000x256, .f32⟩
  | .local _ .vmem, ⟨64, _⟩ => ⟨S1000x256, .f32⟩
  | .local _ .vmem, ⟨65, _⟩ => ⟨S1000x256, .f32⟩
  | .local _ .vmem, ⟨66, _⟩ => ⟨S1000x256, .f32⟩
  | .local _ .vmem, ⟨67, _⟩ => ⟨S1000x256, .f32⟩
  | .local _ .vmem, ⟨68, _⟩ => ⟨S1000x256, .f32⟩
  | .local _ .vmem, ⟨69, _⟩ => ⟨S256x768, .f32⟩
  | .local _ .vmem, ⟨70, _⟩ => ⟨S256x768, .f32⟩
  | .local _ .vmem, ⟨71, _⟩ => ⟨S1x768, .f32⟩
  | .local _ .vmem, ⟨72, _⟩ => ⟨S1x768, .f32⟩
  | .local _ .vmem, ⟨73, _⟩ => ⟨S1000x256, .f32⟩
  | .local _ .vmem, ⟨74, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_10 : Ref sig .tc := ⟨.hbm, 99, rfl⟩
abbrev main_v79 : Ref sig .tc := ⟨.hbm, 100, rfl⟩
abbrev main_v80 : Ref sig .tc := ⟨.hbm, 101, rfl⟩
abbrev main_c_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x768 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x768 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x768 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x768 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x768 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x768 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x768 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S1000x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S768x256_S256x768_1_0 : S768x256.Transposes [1, 0] S256x768
  shapeCasts_S768_S1x768 : S768.ShapeCasts S1x768
  slices_S5x256x256_S1x256x256_0_0_0 : S5x256x256.Slices ![0, 0, 0] S1x256x256
  shapeCasts_S1x256x256_S256x256 : S1x256x256.ShapeCasts S256x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  dot_S1000x256_S256x256_S1000x256_1_0_0_1_n_n_wf : DotDims.WF S1000x256 S256x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S10000x256.size a
  hwx1_6 : ∀ i : grid1.Coords, EltTy.bits .f32 = 32 ∨ (Rect.block (s := S10000x256) S1000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .f32 = 32 ∨ (Rect.block (s := S10000x256) S1000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S10000x256.size a
  hwx3_1 : ∀ i : grid3.Coords, EltTy.bits .f32 = 32 ∨ (Rect.block (s := S10000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x768.size a ≤ S256x768.size a
  hwx3_2 : ∀ i : grid3.Coords, EltTy.bits .f32 = 32 ∨ (Rect.block (s := S256x768) S256x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x768.size a ≤ S256x768.size a
  hwx3_3 : ∀ i : grid3.Coords, EltTy.bits .f32 = 32 ∨ (Rect.block (s := S256x768) S256x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x768.size a ≤ S1x768.size a
  hwx3_4 : ∀ i : grid3.Coords, EltTy.bits .f32 = 32 ∨ (Rect.block (s := S1x768) S1x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x768.size a ≤ S1x768.size a
  hwx3_5 : ∀ i : grid3.Coords, EltTy.bits .f32 = 32 ∨ (Rect.block (s := S1x768) S1x768.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x256.size a ≤ S10000x256.size a
  hwx3_6 : ∀ i : grid3.Coords, EltTy.bits .f32 = 32 ∨ (Rect.block (s := S10000x256) S1000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S10000x256.size a
  hwx4_2 : ∀ i : grid4.Coords, EltTy.bits .f32 = 32 ∨ (Rect.block (s := S10000x256) S1000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S10000x256.size a
  hwx5_0 : ∀ i : grid5.Coords, EltTy.bits .f32 = 32 ∨ (Rect.block (s := S10000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S10000x256.size a
  hwx5_1 : ∀ i : grid5.Coords, EltTy.bits .f32 = 32 ∨ (Rect.block (s := S10000x256) S1000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x768.size a ≤ S256x768.size a
  hwx5_2 : ∀ i : grid5.Coords, EltTy.bits .f32 = 32 ∨ (Rect.block (s := S256x768) S256x768.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x768.size a ≤ S256x768.size a
  hwx5_3 : ∀ i : grid5.Coords, EltTy.bits .f32 = 32 ∨ (Rect.block (s := S256x768) S256x768.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x768.size a ≤ S1x768.size a
  hwx5_4 : ∀ i : grid5.Coords, EltTy.bits .f32 = 32 ∨ (Rect.block (s := S1x768) S1x768.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x768.size a ≤ S1x768.size a
  hwx5_5 : ∀ i : grid5.Coords, EltTy.bits .f32 = 32 ∨ (Rect.block (s := S1x768) S1x768.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x256.size a ≤ S10000x256.size a
  hwx5_6 : ∀ i : grid5.Coords, EltTy.bits .f32 = 32 ∨ (Rect.block (s := S10000x256) S1000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S10000x256.size a
  hwx6_0 : ∀ i : grid6.Coords, EltTy.bits .f32 = 32 ∨ (Rect.block (s := S10000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x256.size a ≤ S10000x256.size a
  hwx6_2 : ∀ i : grid6.Coords, EltTy.bits .f32 = 32 ∨ (Rect.block (s := S10000x256) S1000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S10000x256.size a
  hwx7_0 : ∀ i : grid7.Coords, EltTy.bits .f32 = 32 ∨ (Rect.block (s := S10000x256) S1000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x256.size a ≤ S10000x256.size a
  hwx7_1 : ∀ i : grid7.Coords, EltTy.bits .f32 = 32 ∨ (Rect.block (s := S10000x256) S1000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x768.size a ≤ S256x768.size a
  hwx7_2 : ∀ i : grid7.Coords, EltTy.bits .f32 = 32 ∨ (Rect.block (s := S256x768) S256x768.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x768.size a ≤ S256x768.size a
  hwx7_3 : ∀ i : grid7.Coords, EltTy.bits .f32 = 32 ∨ (Rect.block (s := S256x768) S256x768.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x768.size a ≤ S1x768.size a
  hwx7_4 : ∀ i : grid7.Coords, EltTy.bits .f32 = 32 ∨ (Rect.block (s := S1x768) S1x768.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x768.size a ≤ S1x768.size a
  hwx7_5 : ∀ i : grid7.Coords, EltTy.bits .f32 = 32 ∨ (Rect.block (s := S1x768) S1x768.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x256.size a ≤ S10000x256.size a
  hwx7_6 : ∀ i : grid7.Coords, EltTy.bits .f32 = 32 ∨ (Rect.block (s := S10000x256) S1000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S10000x256.size a
  hwx8_0 : ∀ i : grid8.Coords, EltTy.bits .f32 = 32 ∨ (Rect.block (s := S10000x256) S1000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x256.size a ≤ S10000x256.size a
  hwx8_2 : ∀ i : grid8.Coords, EltTy.bits .f32 = 32 ∨ (Rect.block (s := S10000x256) S1000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x256.size a ≤ S10000x256.size a
  hwx9_0 : ∀ i : grid9.Coords, EltTy.bits .f32 = 32 ∨ (Rect.block (s := S10000x256) S1000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x256.size a ≤ S10000x256.size a
  hwx9_1 : ∀ i : grid9.Coords, EltTy.bits .f32 = 32 ∨ (Rect.block (s := S10000x256) S1000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x768.size a ≤ S256x768.size a
  hwx9_2 : ∀ i : grid9.Coords, EltTy.bits .f32 = 32 ∨ (Rect.block (s := S256x768) S256x768.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x768.size a ≤ S256x768.size a
  hwx9_3 : ∀ i : grid9.Coords, EltTy.bits .f32 = 32 ∨ (Rect.block (s := S256x768) S256x768.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x768.size a ≤ S1x768.size a
  hwx9_4 : ∀ i : grid9.Coords, EltTy.bits .f32 = 32 ∨ (Rect.block (s := S1x768) S1x768.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x768.size a ≤ S1x768.size a
  hwx9_5 : ∀ i : grid9.Coords, EltTy.bits .f32 = 32 ∨ (Rect.block (s := S1x768) S1x768.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1000x256.size a ≤ S10000x256.size a
  hwx9_6 : ∀ i : grid9.Coords, EltTy.bits .f32 = 32 ∨ (Rect.block (s := S10000x256) S1000x256.size (cc9_transform_6 i) (hinb9_6 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S256x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S256x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v41) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S256x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S256x768.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x768.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x768.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58) S1000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v58) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58) S1000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S256x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S256x768.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v6) S1x768.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1x768.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v75) S1000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v75) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v77) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v78) S1000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v91) S1000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v75) S1000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S256x768.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v5) S256x768.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v6) S1x768.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v7) S1x768.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v92) S1000x256.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S1x320000 : Shape := ⟨2, ![1, 320000]⟩
abbrev S1x256x256 : Shape := ⟨3, ![1, 256, 256]⟩
abbrev S256x256 : Shape := ⟨2, ![256, 256]⟩
abbrev S_ : Shape := ⟨0, ![]⟩
abbrev S320000x1 : Shape := ⟨2, ![320000, 1]⟩
abbrev S320000x256 : Shape := ⟨2, ![320000, 256]⟩
abbrev S256x768 : Shape := ⟨2, ![256, 768]⟩
abbrev S10000x768 : Shape := ⟨2, ![10000, 768]⟩
abbrev S1x768 : Shape := ⟨2, ![1, 768]⟩

abbrev nBuf : Space → Nat
  | .hbm => 322
  | .vmem => 0
  | .smem => 0
  | _ => 0

abbrev hbmTy0_0 (i : Nat) : BufTy := match i % 128 with
  | 0 => ⟨S10000x256, .f32⟩
  | 1 => ⟨S2x320000, .i32⟩
  | 2 => ⟨S320000, .f32⟩
  | 3 => ⟨S5x256x256, .f32⟩
  | 4 => ⟨S768x256, .f32⟩
  | 5 => ⟨S768x256, .f32⟩
  | 6 => ⟨S768, .f32⟩
  | 7 => ⟨S768, .f32⟩
  | 8 => ⟨S1x320000, .i32⟩
  | 9 => ⟨S320000, .i32⟩
  | 10 => ⟨S1x320000, .i32⟩
  | 11 => ⟨S320000, .i32⟩
  | 12 => ⟨S1x256x256, .f32⟩
  | 13 => ⟨S256x256, .f32⟩
  | 14 => ⟨S10000x256, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000x256, .f32⟩
  | 24 => ⟨S320000x1, .f32⟩
  | 25 => ⟨S320000x256, .f32⟩
  | 26 => ⟨S320000x256, .f32⟩
  | 27 => ⟨S_, .f32⟩
  | 28 => ⟨S10000x256, .f32⟩
  | 29 => ⟨S320000x1, .i32⟩
  | 30 => ⟨S10000x256, .f32⟩
  | 31 => ⟨S256x768, .f32⟩
  | 32 => ⟨S10000x768, .f32⟩
  | 33 => ⟨S1x768, .f32⟩
  | 34 => ⟨S10000x768, .f32⟩
  | 35 => ⟨S10000x768, .f32⟩
  | 36 => ⟨S256x768, .f32⟩
  | 37 => ⟨S10000x768, .f32⟩
  | 38 => ⟨S1x768, .f32⟩
  | 39 => ⟨S10000x768, .f32⟩
  | 40 => ⟨S10000x768, .f32⟩
  | 41 => ⟨S10000x256, .f32⟩
  | 42 => ⟨S10000x256, .f32⟩
  | 43 => ⟨S10000x256, .f32⟩
  | 44 => ⟨S10000x256, .f32⟩
  | 45 => ⟨S10000x256, .f32⟩
  | 46 => ⟨S10000x256, .f32⟩
  | 47 => ⟨S10000x256, .f32⟩
  | 48 => ⟨S10000x256, .f32⟩
  | 49 => ⟨S10000x256, .f32⟩
  | 50 => ⟨S_, .f32⟩
  | 51 => ⟨S10000x256, .f32⟩
  | 52 => ⟨S10000x256, .f32⟩
  | 53 => ⟨S_, .f32⟩
  | 54 => ⟨S10000x256, .f32⟩
  | 55 => ⟨S10000x256, .f32⟩
  | 56 => ⟨S10000x256, .f32⟩
  | 57 => ⟨S10000x256, .f32⟩
  | 58 => ⟨S10000x256, .f32⟩
  | 59 => ⟨S_, .f32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S10000x256, .f32⟩
  | 66 => ⟨S10000x256, .f32⟩
  | 67 => ⟨S10000x256, .f32⟩
  | 68 => ⟨S_, .f32⟩
  | 69 => ⟨S10000x256, .f32⟩
  | 70 => ⟨S10000x256, .f32⟩
  | 71 => ⟨S10000x256, .f32⟩
  | 72 => ⟨S10000x256, .f32⟩
  | 73 => ⟨S10000x256, .f32⟩
  | 74 => ⟨S1x256x256, .f32⟩
  | 75 => ⟨S256x256, .f32⟩
  | 76 => ⟨S10000x256, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x256, .f32⟩
  | 86 => ⟨S320000x1, .f32⟩
  | 87 => ⟨S320000x256, .f32⟩
  | 88 => ⟨S320000x256, .f32⟩
  | 89 => ⟨S_, .f32⟩
  | 90 => ⟨S10000x256, .f32⟩
  | 91 => ⟨S320000x1, .i32⟩
  | 92 => ⟨S10000x256, .f32⟩
  | 93 => ⟨S256x768, .f32⟩
  | 94 => ⟨S10000x768, .f32⟩
  | 95 => ⟨S1x768, .f32⟩
  | 96 => ⟨S10000x768, .f32⟩
  | 97 => ⟨S10000x768, .f32⟩
  | 98 => ⟨S256x768, .f32⟩
  | 99 => ⟨S10000x768, .f32⟩
  | 100 => ⟨S1x768, .f32⟩
  | 101 => ⟨S10000x768, .f32⟩
  | 102 => ⟨S10000x768, .f32⟩
  | 103 => ⟨S10000x256, .f32⟩
  | 104 => ⟨S10000x256, .f32⟩
  | 105 => ⟨S10000x256, .f32⟩
  | 106 => ⟨S10000x256, .f32⟩
  | 107 => ⟨S10000x256, .f32⟩
  | 108 => ⟨S10000x256, .f32⟩
  | 109 => ⟨S10000x256, .f32⟩
  | 110 => ⟨S10000x256, .f32⟩
  | 111 => ⟨S10000x256, .f32⟩
  | 112 => ⟨S_, .f32⟩
  | 113 => ⟨S10000x256, .f32⟩
  | 114 => ⟨S10000x256, .f32⟩
  | 115 => ⟨S_, .f32⟩
  | 116 => ⟨S10000x256, .f32⟩
  | 117 => ⟨S10000x256, .f32⟩
  | 118 => ⟨S10000x256, .f32⟩
  | 119 => ⟨S10000x256, .f32⟩
  | 120 => ⟨S10000x256, .f32⟩
  | 121 => ⟨S_, .f32⟩
  | 122 => ⟨S10000x256, .f32⟩
  | 123 => ⟨S10000x256, .f32⟩
  | 124 => ⟨S_, .f32⟩
  | 125 => ⟨S10000x256, .f32⟩
  | 126 => ⟨S10000x256, .f32⟩
  | 127 => ⟨S10000x256, .f32⟩
  | _ => ⟨S10000x256, .f32⟩

abbrev hbmTy0_1 (i : Nat) : BufTy := match i % 128 with
  | 0 => ⟨S10000x256, .f32⟩
  | 1 => ⟨S10000x256, .f32⟩
  | 2 => ⟨S_, .f32⟩
  | 3 => ⟨S10000x256, .f32⟩
  | 4 => ⟨S10000x256, .f32⟩
  | 5 => ⟨S10000x256, .f32⟩
  | 6 => ⟨S10000x256, .f32⟩
  | 7 => ⟨S10000x256, .f32⟩
  | 8 => ⟨S1x256x256, .f32⟩
  | 9 => ⟨S256x256, .f32⟩
  | 10 => ⟨S10000x256, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x256, .f32⟩
  | 20 => ⟨S320000x1, .f32⟩
  | 21 => ⟨S320000x256, .f32⟩
  | 22 => ⟨S320000x256, .f32⟩
  | 23 => ⟨S_, .f32⟩
  | 24 => ⟨S10000x256, .f32⟩
  | 25 => ⟨S320000x1, .i32⟩
  | 26 => ⟨S10000x256, .f32⟩
  | 27 => ⟨S256x768, .f32⟩
  | 28 => ⟨S10000x768, .f32⟩
  | 29 => ⟨S1x768, .f32⟩
  | 30 => ⟨S10000x768, .f32⟩
  | 31 => ⟨S10000x768, .f32⟩
  | 32 => ⟨S256x768, .f32⟩
  | 33 => ⟨S10000x768, .f32⟩
  | 34 => ⟨S1x768, .f32⟩
  | 35 => ⟨S10000x768, .f32⟩
  | 36 => ⟨S10000x768, .f32⟩
  | 37 => ⟨S10000x256, .f32⟩
  | 38 => ⟨S10000x256, .f32⟩
  | 39 => ⟨S10000x256, .f32⟩
  | 40 => ⟨S10000x256, .f32⟩
  | 41 => ⟨S10000x256, .f32⟩
  | 42 => ⟨S10000x256, .f32⟩
  | 43 => ⟨S10000x256, .f32⟩
  | 44 => ⟨S10000x256, .f32⟩
  | 45 => ⟨S10000x256, .f32⟩
  | 46 => ⟨S_, .f32⟩
  | 47 => ⟨S10000x256, .f32⟩
  | 48 => ⟨S10000x256, .f32⟩
  | 49 => ⟨S_, .f32⟩
  | 50 => ⟨S10000x256, .f32⟩
  | 51 => ⟨S10000x256, .f32⟩
  | 52 => ⟨S10000x256, .f32⟩
  | 53 => ⟨S10000x256, .f32⟩
  | 54 => ⟨S10000x256, .f32⟩
  | 55 => ⟨S_, .f32⟩
  | 56 => ⟨S10000x256, .f32⟩
  | 57 => ⟨S10000x256, .f32⟩
  | 58 => ⟨S_, .f32⟩
  | 59 => ⟨S10000x256, .f32⟩
  | 60 => ⟨S10000x256, .f32⟩
  | 61 => ⟨S10000x256, .f32⟩
  | 62 => ⟨S10000x256, .f32⟩
  | 63 => ⟨S10000x256, .f32⟩
  | 64 => ⟨S_, .f32⟩
  | 65 => ⟨S10000x256, .f32⟩
  | 66 => ⟨S10000x256, .f32⟩
  | 67 => ⟨S10000x256, .f32⟩
  | 68 => ⟨S10000x256, .f32⟩
  | 69 => ⟨S10000x256, .f32⟩
  | 70 => ⟨S1x256x256, .f32⟩
  | 71 => ⟨S256x256, .f32⟩
  | 72 => ⟨S10000x256, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x256, .f32⟩
  | 82 => ⟨S320000x1, .f32⟩
  | 83 => ⟨S320000x256, .f32⟩
  | 84 => ⟨S320000x256, .f32⟩
  | 85 => ⟨S_, .f32⟩
  | 86 => ⟨S10000x256, .f32⟩
  | 87 => ⟨S320000x1, .i32⟩
  | 88 => ⟨S10000x256, .f32⟩
  | 89 => ⟨S256x768, .f32⟩
  | 90 => ⟨S10000x768, .f32⟩
  | 91 => ⟨S1x768, .f32⟩
  | 92 => ⟨S10000x768, .f32⟩
  | 93 => ⟨S10000x768, .f32⟩
  | 94 => ⟨S256x768, .f32⟩
  | 95 => ⟨S10000x768, .f32⟩
  | 96 => ⟨S1x768, .f32⟩
  | 97 => ⟨S10000x768, .f32⟩
  | 98 => ⟨S10000x768, .f32⟩
  | 99 => ⟨S10000x256, .f32⟩
  | 100 => ⟨S10000x256, .f32⟩
  | 101 => ⟨S10000x256, .f32⟩
  | 102 => ⟨S10000x256, .f32⟩
  | 103 => ⟨S10000x256, .f32⟩
  | 104 => ⟨S10000x256, .f32⟩
  | 105 => ⟨S10000x256, .f32⟩
  | 106 => ⟨S10000x256, .f32⟩
  | 107 => ⟨S10000x256, .f32⟩
  | 108 => ⟨S_, .f32⟩
  | 109 => ⟨S10000x256, .f32⟩
  | 110 => ⟨S10000x256, .f32⟩
  | 111 => ⟨S_, .f32⟩
  | 112 => ⟨S10000x256, .f32⟩
  | 113 => ⟨S10000x256, .f32⟩
  | 114 => ⟨S10000x256, .f32⟩
  | 115 => ⟨S10000x256, .f32⟩
  | 116 => ⟨S10000x256, .f32⟩
  | 117 => ⟨S_, .f32⟩
  | 118 => ⟨S10000x256, .f32⟩
  | 119 => ⟨S10000x256, .f32⟩
  | 120 => ⟨S_, .f32⟩
  | 121 => ⟨S10000x256, .f32⟩
  | 122 => ⟨S10000x256, .f32⟩
  | 123 => ⟨S10000x256, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_2 (i : Nat) : BufTy := match i % 128 with
  | 0 => ⟨S10000x256, .f32⟩
  | 1 => ⟨S10000x256, .f32⟩
  | 2 => ⟨S10000x256, .f32⟩
  | 3 => ⟨S10000x256, .f32⟩
  | 4 => ⟨S1x256x256, .f32⟩
  | 5 => ⟨S256x256, .f32⟩
  | 6 => ⟨S10000x256, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x256, .f32⟩
  | 16 => ⟨S320000x1, .f32⟩
  | 17 => ⟨S320000x256, .f32⟩
  | 18 => ⟨S320000x256, .f32⟩
  | 19 => ⟨S_, .f32⟩
  | 20 => ⟨S10000x256, .f32⟩
  | 21 => ⟨S320000x1, .i32⟩
  | 22 => ⟨S10000x256, .f32⟩
  | 23 => ⟨S256x768, .f32⟩
  | 24 => ⟨S10000x768, .f32⟩
  | 25 => ⟨S1x768, .f32⟩
  | 26 => ⟨S10000x768, .f32⟩
  | 27 => ⟨S10000x768, .f32⟩
  | 28 => ⟨S256x768, .f32⟩
  | 29 => ⟨S10000x768, .f32⟩
  | 30 => ⟨S1x768, .f32⟩
  | 31 => ⟨S10000x768, .f32⟩
  | 32 => ⟨S10000x768, .f32⟩
  | 33 => ⟨S10000x256, .f32⟩
  | 34 => ⟨S10000x256, .f32⟩
  | 35 => ⟨S10000x256, .f32⟩
  | 36 => ⟨S10000x256, .f32⟩
  | 37 => ⟨S10000x256, .f32⟩
  | 38 => ⟨S10000x256, .f32⟩
  | 39 => ⟨S10000x256, .f32⟩
  | 40 => ⟨S10000x256, .f32⟩
  | 41 => ⟨S10000x256, .f32⟩
  | 42 => ⟨S_, .f32⟩
  | 43 => ⟨S10000x256, .f32⟩
  | 44 => ⟨S10000x256, .f32⟩
  | 45 => ⟨S_, .f32⟩
  | 46 => ⟨S10000x256, .f32⟩
  | 47 => ⟨S10000x256, .f32⟩
  | 48 => ⟨S10000x256, .f32⟩
  | 49 => ⟨S10000x256, .f32⟩
  | 50 => ⟨S10000x256, .f32⟩
  | 51 => ⟨S_, .f32⟩
  | 52 => ⟨S10000x256, .f32⟩
  | 53 => ⟨S10000x256, .f32⟩
  | 54 => ⟨S_, .f32⟩
  | 55 => ⟨S10000x256, .f32⟩
  | 56 => ⟨S10000x256, .f32⟩
  | 57 => ⟨S10000x256, .f32⟩
  | 58 => ⟨S10000x256, .f32⟩
  | 59 => ⟨S10000x256, .f32⟩
  | 60 => ⟨S_, .f32⟩
  | 61 => ⟨S10000x256, .f32⟩
  | 62 => ⟨S10000x256, .f32⟩
  | 63 => ⟨S10000x256, .f32⟩
  | 64 => ⟨S10000x256, .f32⟩
  | 65 => ⟨S10000x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_6 : Ref sig .tc := ⟨.hbm, 77, rfl⟩
abbrev main_v61 : Ref sig .tc := ⟨.hbm, 78, rfl⟩
abbrev main_v62 : Ref sig .tc := ⟨.hbm, 79, rfl⟩
abbrev main_c_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_9 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_14 : Ref sig .tc := ⟨.hbm, 139, rfl⟩
abbrev main_v115 : Ref sig .tc := ⟨.hbm, 140, rfl⟩
abbrev main_v116 : Ref sig .tc := ⟨.hbm, 141, rfl⟩
abbrev main_c_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_17 : Ref sig .tc := ⟨.hbm, 174, rfl⟩
abbrev main_v147 : Ref sig .tc := ⟨.hbm, 175, rfl⟩
abbrev main_v148 : Ref sig .tc := ⟨.hbm, 176, rfl⟩
abbrev main_cst_18 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_19 : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_21 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_22 : Ref sig .tc := ⟨.hbm, 201, rfl⟩
abbrev main_v169 : Ref sig .tc := ⟨.hbm, 202, rfl⟩
abbrev main_v170 : Ref sig .tc := ⟨.hbm, 203, rfl⟩
abbrev main_c_23 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_24 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_cst_25 : Ref sig .tc := ⟨.hbm, 236, rfl⟩
abbrev main_v201 : Ref sig .tc := ⟨.hbm, 237, rfl⟩
abbrev main_v202 : Ref sig .tc := ⟨.hbm, 238, rfl⟩
abbrev main_cst_26 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_27 : Ref sig .tc := ⟨.hbm, 245, rfl⟩
abbrev main_v208 : Ref sig .tc := ⟨.hbm, 246, rfl⟩
abbrev main_v209 : Ref sig .tc := ⟨.hbm, 247, rfl⟩
abbrev main_cst_28 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_cst_29 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_c_30 : Ref sig .tc := ⟨.hbm, 263, rfl⟩
abbrev main_v223 : Ref sig .tc := ⟨.hbm, 264, rfl⟩
abbrev main_v224 : Ref sig .tc := ⟨.hbm, 265, rfl⟩
abbrev main_c_31 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_32 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_cst_33 : Ref sig .tc := ⟨.hbm, 298, rfl⟩
abbrev main_v255 : Ref sig .tc := ⟨.hbm, 299, rfl⟩
abbrev main_v256 : Ref sig .tc := ⟨.hbm, 300, rfl⟩
abbrev main_cst_34 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_cst_35 : Ref sig .tc := ⟨.hbm, 307, rfl⟩
abbrev main_v262 : Ref sig .tc := ⟨.hbm, 308, rfl⟩
abbrev main_v263 : Ref sig .tc := ⟨.hbm, 309, rfl⟩
abbrev main_cst_36 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_cst_37 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S5x256x256_S1x256x256_0_0_0 : S5x256x256.Slices ![0, 0, 0] S1x256x256
  shapeCasts_S1x256x256_S256x256 : S1x256x256.ShapeCasts S256x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  transposes_S768x256_S256x768_1_0 : S768x256.Transposes [1, 0] S256x768
  bcast_S768_S1x768_1 : S768.BroadcastsInDim S1x768 (![1] : Fin 1 → Fin S1x768.rank)
  bcast_S1x768_S10000x768_0_1 : S1x768.BroadcastsInDim S10000x768 (![0, 1] : Fin 2 → Fin S10000x768.rank)
  slices_S10000x768_S10000x256_0_0 : S10000x768.Slices ![0, 0] S10000x256
  slices_S10000x768_S10000x256_0_256 : S10000x768.Slices ![0, 256] S10000x256
  slices_S10000x768_S10000x256_0_512 : S10000x768.Slices ![0, 512] S10000x256
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x768_S10000x768_1_0_0_1_n_n_wf : DotDims.WF S10000x256 S256x768 S10000x768 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x768_S10000x768_1_0_0_1_n_n : DotDims S10000x256 S256x768 S10000x768 where
  lhsContracting := [1]
  rhsContracting := [0]
  lhsNonContracting := [0]
  rhsNonContracting := [1]
  lhsBatch := []
  rhsBatch := []
  wf := dot_S10000x256_S256x768_S10000x768_1_0_0_1_n_n_wf

class Facts : Prop extends Facts₀ where

variable [Facts]
-- ==== Proof.Keep.lean ====
/-
  What each segment of @main leaves alone.

  A stretch of host operations changes only the buffers its operations write; a kernel launch changes only its one
  output array (its input arrays are read through their windows and end as they were, and no other buffer is touched).
  So a buffer that is written once, before the first launch — the edge endpoints, the transposed gate weights, the bias
  rows — and the argument arrays themselves hold the same contents at every later boundary of the fold.
-/
import proofs.«155903_j60266981097696_1_alg».proof.Proof.Gen.KernelIdeal.Frame
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-! ## A host stretch keeps what it does not write -/

/-- The buffers stretch 0's operations write. -/
abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 0 does not write keeps its contents through it. -/
theorem keepH0 (V : Valuation τ sig (Elt F)) (r : Ref sig .tc) (h : r ∉ hostOps0_W) :
    StableHlo.after hostOps0 V (Proc.devRef .tc r) = V (Proc.devRef .tc r) :=
  after_of_writes_sub hostOps0 V hostOps0_writes h

/-- The buffers stretch 1's operations write. -/
abbrev hostOps1_W : List (Ref sig .tc) := [main_c, main_v11, main_v12, main_c_0, main_v13, main_v14, main_v15, main_v16, main_v17, main_v18, main_v19, main_v20, main_cst, main_v21, main_v22, main_v23]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 1 does not write keeps its contents through it. -/
theorem keepH1 (V : Valuation τ sig (Elt F)) (r : Ref sig .tc) (h : r ∉ hostOps1_W) :
    StableHlo.after hostOps1 V (Proc.devRef .tc r) = V (Proc.devRef .tc r) :=
  after_of_writes_sub hostOps1 V hostOps1_writes h

/-- The buffers stretch 2's operations write. -/
abbrev hostOps2_W : List (Ref sig .tc) := [main_v25, main_v26]
theorem hostOps2_writes : (hostOps2 : List (HloOp τ sig (Elt F))).Forall fun op => op.writes ⊆ (hostOps2_W.map (Proc.devRef (τ := τ) .tc)).toFinset := by
  simp only [List.Forall]
  refine ⟨?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 2 does not write keeps its contents through it. -/
theorem keepH2 (V : Valuation τ sig (Elt F)) (r : Ref sig .tc) (h : r ∉ hostOps2_W) :
    StableHlo.after hostOps2 V (Proc.devRef .tc r) = V (Proc.devRef .tc r) :=
  after_of_writes_sub hostOps2 V hostOps2_writes h

/-- The buffers stretch 3's operations write. -/
abbrev hostOps3_W : List (Ref sig .tc) := [main_c_1, main_v28, main_v29, main_c_2, main_v30, main_v31, main_v32, main_v33, main_v34, main_v35, main_v36, main_v37, main_cst_3, main_v38, main_v39, main_v40]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 3 does not write keeps its contents through it. -/
theorem keepH3 (V : Valuation τ sig (Elt F)) (r : Ref sig .tc) (h : r ∉ hostOps3_W) :
    StableHlo.after hostOps3 V (Proc.devRef .tc r) = V (Proc.devRef .tc r) :=
  after_of_writes_sub hostOps3 V hostOps3_writes h

/-- The buffers stretch 4's operations write. -/
abbrev hostOps4_W : List (Ref sig .tc) := [main_v42, main_v43]
theorem hostOps4_writes : (hostOps4 : List (HloOp τ sig (Elt F))).Forall fun op => op.writes ⊆ (hostOps4_W.map (Proc.devRef (τ := τ) .tc)).toFinset := by
  simp only [List.Forall]
  refine ⟨?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 4 does not write keeps its contents through it. -/
theorem keepH4 (V : Valuation τ sig (Elt F)) (r : Ref sig .tc) (h : r ∉ hostOps4_W) :
    StableHlo.after hostOps4 V (Proc.devRef .tc r) = V (Proc.devRef .tc r) :=
  after_of_writes_sub hostOps4 V hostOps4_writes h

/-- The buffers stretch 5's operations write. -/
abbrev hostOps5_W : List (Ref sig .tc) := [main_c_4, main_v45, main_v46, main_c_5, main_v47, main_v48, main_v49, main_v50, main_v51, main_v52, main_v53, main_v54, main_cst_6, main_v55, main_v56, main_v57]
theorem hostOps5_writes : (hostOps5 : List (HloOp τ sig (Elt F))).Forall fun op => op.writes ⊆ (hostOps5_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 5 does not write keeps its contents through it. -/
theorem keepH5 (V : Valuation τ sig (Elt F)) (r : Ref sig .tc) (h : r ∉ hostOps5_W) :
    StableHlo.after hostOps5 V (Proc.devRef .tc r) = V (Proc.devRef .tc r) :=
  after_of_writes_sub hostOps5 V hostOps5_writes h

/-- The buffers stretch 6's operations write. -/
abbrev hostOps6_W : List (Ref sig .tc) := [main_v59, main_v60]
theorem hostOps6_writes : (hostOps6 : List (HloOp τ sig (Elt F))).Forall fun op => op.writes ⊆ (hostOps6_W.map (Proc.devRef (τ := τ) .tc)).toFinset := by
  simp only [List.Forall]
  refine ⟨?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 6 does not write keeps its contents through it. -/
theorem keepH6 (V : Valuation τ sig (Elt F)) (r : Ref sig .tc) (h : r ∉ hostOps6_W) :
    StableHlo.after hostOps6 V (Proc.devRef .tc r) = V (Proc.devRef .tc r) :=
  after_of_writes_sub hostOps6 V hostOps6_writes h

/-- The buffers stretch 7's operations write. -/
abbrev hostOps7_W : List (Ref sig .tc) := [main_c_7, main_v62, main_v63, main_c_8, main_v64, main_v65, main_v66, main_v67, main_v68, main_v69, main_v70, main_v71, main_cst_9, main_v72, main_v73, main_v74]
theorem hostOps7_writes : (hostOps7 : List (HloOp τ sig (Elt F))).Forall fun op => op.writes ⊆ (hostOps7_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 7 does not write keeps its contents through it. -/
theorem keepH7 (V : Valuation τ sig (Elt F)) (r : Ref sig .tc) (h : r ∉ hostOps7_W) :
    StableHlo.after hostOps7 V (Proc.devRef .tc r) = V (Proc.devRef .tc r) :=
  after_of_writes_sub hostOps7 V hostOps7_writes h

/-- The buffers stretch 8's operations write. -/
abbrev hostOps8_W : List (Ref sig .tc) := [main_v76, main_v77]
theorem hostOps8_writes : (hostOps8 : List (HloOp τ sig (Elt F))).Forall fun op => op.writes ⊆ (hostOps8_W.map (Proc.devRef (τ := τ) .tc)).toFinset := by
  simp only [List.Forall]
  refine ⟨?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 8 does not write keeps its contents through it. -/
theorem keepH8 (V : Valuation τ sig (Elt F)) (r : Ref sig .tc) (h : r ∉ hostOps8_W) :
    StableHlo.after hostOps8 V (Proc.devRef .tc r) = V (Proc.devRef .tc r) :=
  after_of_writes_sub hostOps8 V hostOps8_writes h

/-- The buffers stretch 9's operations write. -/
abbrev hostOps9_W : List (Ref sig .tc) := [main_c_10, main_v79, main_v80, main_c_11, main_v81, main_v82, main_v83, main_v84, main_v85, main_v86, main_v87, main_v88, main_cst_12, main_v89, main_v90, main_v91]
theorem hostOps9_writes : (hostOps9 : List (HloOp τ sig (Elt F))).Forall fun op => op.writes ⊆ (hostOps9_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      Finset.singleton_subset_iff, List.mem_toFinset]; exact List.mem_map_of_mem (by decide))
/-- A buffer stretch 9 does not write keeps its contents through it. -/
theorem keepH9 (V : Valuation τ sig (Elt F)) (r : Ref sig .tc) (h : r ∉ hostOps9_W) :
    StableHlo.after hostOps9 V (Proc.devRef .tc r) = V (Proc.devRef .tc r) :=
  after_of_writes_sub hostOps9 V hostOps9_writes h

/-! ## A launch keeps every buffer but its output array -/

variable (m : (ℓ : Loc nD τ sig) → Buf (Elt F) ℓ) (ρ : Dev nD → PrngReg)

/-- Launch 0 changes only `main_v10`: an input array ends as it was entered, any other buffer is not touched. -/
theorem keepR0 (c : Dev nD) (b : Ref sig .tc) (hb : b ≠ main_v10) :
    W2 m ρ c (Proc.devRef .tc b) = W1 m ρ c (Proc.devRef .tc b) := by
  by_cases h : ∃ w, Pipeline.arrRef spec0 w = b
  · obtain ⟨w, rfl⟩ := h
    match w, hb with
    | 0, _ => exact (W2_arr m ρ c 0).trans (((dat0 (V1 m ρ) c).arrAt_in 0 rfl _).trans (A_eq0 (V1 m ρ) c 0))
    | 1, _ => exact (W2_arr m ρ c 1).trans (((dat0 (V1 m ρ) c).arrAt_in 1 rfl _).trans (A_eq0 (V1 m ρ) c 1))
    | 2, hb => exact absurd rfl hb
    | ⟨_ + 3, h⟩, _ => exact absurd h (Nat.not_lt.2 (Nat.le_add_left _ _))
  · exact W2_of_ne m ρ c b fun w e => h ⟨w, e⟩

/-- Launch 1 changes only `main_v24`: an input array ends as it was entered, any other buffer is not touched. -/
theorem keepR1 (c : Dev nD) (b : Ref sig .tc) (hb : b ≠ main_v24) :
    W4 m ρ c (Proc.devRef .tc b) = W3 m ρ c (Proc.devRef .tc b) := by
  by_cases h : ∃ w, Pipeline.arrRef spec1 w = b
  · obtain ⟨w, rfl⟩ := h
    match w, hb with
    | 0, _ => exact (W4_arr m ρ c 0).trans (((dat1 (V3 m ρ) c).arrAt_in 0 rfl _).trans (A_eq1 (V3 m ρ) c 0))
    | 1, _ => exact (W4_arr m ρ c 1).trans (((dat1 (V3 m ρ) c).arrAt_in 1 rfl _).trans (A_eq1 (V3 m ρ) c 1))
    | 2, _ => exact (W4_arr m ρ c 2).trans (((dat1 (V3 m ρ) c).arrAt_in 2 rfl _).trans (A_eq1 (V3 m ρ) c 2))
    | 3, _ => exact (W4_arr m ρ c 3).trans (((dat1 (V3 m ρ) c).arrAt_in 3 rfl _).trans (A_eq1 (V3 m ρ) c 3))
    | 4, _ => exact (W4_arr m ρ c 4).trans (((dat1 (V3 m ρ) c).arrAt_in 4 rfl _).trans (A_eq1 (V3 m ρ) c 4))
    | 5, _ => exact (W4_arr m ρ c 5).trans (((dat1 (V3 m ρ) c).arrAt_in 5 rfl _).trans (A_eq1 (V3 m ρ) c 5))
    | 6, hb => exact absurd rfl hb
    | ⟨_ + 7, h⟩, _ => exact absurd h (Nat.not_lt.2 (Nat.le_add_left _ _))
  · exact W4_of_ne m ρ c b fun w e => h ⟨w, e⟩

/-- Launch 2 changes only `main_v27`: an input array ends as it was entered, any other buffer is not touched. -/
theorem keepR2 (c : Dev nD) (b : Ref sig .tc) (hb : b ≠ main_v27) :
    W6 m ρ c (Proc.devRef .tc b) = W5 m ρ c (Proc.devRef .tc b) := by
  by_cases h : ∃ w, Pipeline.arrRef spec2 w = b
  · obtain ⟨w, rfl⟩ := h
    match w, hb with
    | 0, _ => exact (W6_arr m ρ c 0).trans (((dat2 (V5 m ρ) c).arrAt_in 0 rfl _).trans (A_eq2 (V5 m ρ) c 0))
    | 1, _ => exact (W6_arr m ρ c 1).trans (((dat2 (V5 m ρ) c).arrAt_in 1 rfl _).trans (A_eq2 (V5 m ρ) c 1))
    | 2, hb => exact absurd rfl hb
    | ⟨_ + 3, h⟩, _ => exact absurd h (Nat.not_lt.2 (Nat.le_add_left _ _))
  · exact W6_of_ne m ρ c b fun w e => h ⟨w, e⟩

/-- Launch 3 changes only `main_v41`: an input array ends as it was entered, any other buffer is not touched. -/
theorem keepR3 (c : Dev nD) (b : Ref sig .tc) (hb : b ≠ main_v41) :
    W8 m ρ c (Proc.devRef .tc b) = W7 m ρ c (Proc.devRef .tc b) := by
  by_cases h : ∃ w, Pipeline.arrRef spec3 w = b
  · obtain ⟨w, rfl⟩ := h
    match w, hb with
    | 0, _ => exact (W8_arr m ρ c 0).trans (((dat3 (V7 m ρ) c).arrAt_in 0 rfl _).trans (A_eq3 (V7 m ρ) c 0))
    | 1, _ => exact (W8_arr m ρ c 1).trans (((dat3 (V7 m ρ) c).arrAt_in 1 rfl _).trans (A_eq3 (V7 m ρ) c 1))
    | 2, _ => exact (W8_arr m ρ c 2).trans (((dat3 (V7 m ρ) c).arrAt_in 2 rfl _).trans (A_eq3 (V7 m ρ) c 2))
    | 3, _ => exact (W8_arr m ρ c 3).trans (((dat3 (V7 m ρ) c).arrAt_in 3 rfl _).trans (A_eq3 (V7 m ρ) c 3))
    | 4, _ => exact (W8_arr m ρ c 4).trans (((dat3 (V7 m ρ) c).arrAt_in 4 rfl _).trans (A_eq3 (V7 m ρ) c 4))
    | 5, _ => exact (W8_arr m ρ c 5).trans (((dat3 (V7 m ρ) c).arrAt_in 5 rfl _).trans (A_eq3 (V7 m ρ) c 5))
    | 6, hb => exact absurd rfl hb
    | ⟨_ + 7, h⟩, _ => exact absurd h (Nat.not_lt.2 (Nat.le_add_left _ _))
  · exact W8_of_ne m ρ c b fun w e => h ⟨w, e⟩

/-- Launch 4 changes only `main_v44`: an input array ends as it was entered, any other buffer is not touched. -/
theorem keepR4 (c : Dev nD) (b : Ref sig .tc) (hb : b ≠ main_v44) :
    W10 m ρ c (Proc.devRef .tc b) = W9 m ρ c (Proc.devRef .tc b) := by
  by_cases h : ∃ w, Pipeline.arrRef spec4 w = b
  · obtain ⟨w, rfl⟩ := h
    match w, hb with
    | 0, _ => exact (W10_arr m ρ c 0).trans (((dat4 (V9 m ρ) c).arrAt_in 0 rfl _).trans (A_eq4 (V9 m ρ) c 0))
    | 1, _ => exact (W10_arr m ρ c 1).trans (((dat4 (V9 m ρ) c).arrAt_in 1 rfl _).trans (A_eq4 (V9 m ρ) c 1))
    | 2, hb => exact absurd rfl hb
    | ⟨_ + 3, h⟩, _ => exact absurd h (Nat.not_lt.2 (Nat.le_add_left _ _))
  · exact W10_of_ne m ρ c b fun w e => h ⟨w, e⟩

/-- Launch 5 changes only `main_v58`: an input array ends as it was entered, any other buffer is not touched. -/
theorem keepR5 (c : Dev nD) (b : Ref sig .tc) (hb : b ≠ main_v58) :
    W12 m ρ c (Proc.devRef .tc b) = W11 m ρ c (Proc.devRef .tc b) := by
  by_cases h : ∃ w, Pipeline.arrRef spec5 w = b
  · obtain ⟨w, rfl⟩ := h
    match w, hb with
    | 0, _ => exact (W12_arr m ρ c 0).trans (((dat5 (V11 m ρ) c).arrAt_in 0 rfl _).trans (A_eq5 (V11 m ρ) c 0))
    | 1, _ => exact (W12_arr m ρ c 1).trans (((dat5 (V11 m ρ) c).arrAt_in 1 rfl _).trans (A_eq5 (V11 m ρ) c 1))
    | 2, _ => exact (W12_arr m ρ c 2).trans (((dat5 (V11 m ρ) c).arrAt_in 2 rfl _).trans (A_eq5 (V11 m ρ) c 2))
    | 3, _ => exact (W12_arr m ρ c 3).trans (((dat5 (V11 m ρ) c).arrAt_in 3 rfl _).trans (A_eq5 (V11 m ρ) c 3))
    | 4, _ => exact (W12_arr m ρ c 4).trans (((dat5 (V11 m ρ) c).arrAt_in 4 rfl _).trans (A_eq5 (V11 m ρ) c 4))
    | 5, _ => exact (W12_arr m ρ c 5).trans (((dat5 (V11 m ρ) c).arrAt_in 5 rfl _).trans (A_eq5 (V11 m ρ) c 5))
    | 6, hb => exact absurd rfl hb
    | ⟨_ + 7, h⟩, _ => exact absurd h (Nat.not_lt.2 (Nat.le_add_left _ _))
  · exact W12_of_ne m ρ c b fun w e => h ⟨w, e⟩

/-- Launch 6 changes only `main_v61`: an input array ends as it was entered, any other buffer is not touched. -/
theorem keepR6 (c : Dev nD) (b : Ref sig .tc) (hb : b ≠ main_v61) :
    W14 m ρ c (Proc.devRef .tc b) = W13 m ρ c (Proc.devRef .tc b) := by
  by_cases h : ∃ w, Pipeline.arrRef spec6 w = b
  · obtain ⟨w, rfl⟩ := h
    match w, hb with
    | 0, _ => exact (W14_arr m ρ c 0).trans (((dat6 (V13 m ρ) c).arrAt_in 0 rfl _).trans (A_eq6 (V13 m ρ) c 0))
    | 1, _ => exact (W14_arr m ρ c 1).trans (((dat6 (V13 m ρ) c).arrAt_in 1 rfl _).trans (A_eq6 (V13 m ρ) c 1))
    | 2, hb => exact absurd rfl hb
    | ⟨_ + 3, h⟩, _ => exact absurd h (Nat.not_lt.2 (Nat.le_add_left _ _))
  · exact W14_of_ne m ρ c b fun w e => h ⟨w, e⟩

/-- Launch 7 changes only `main_v75`: an input array ends as it was entered, any other buffer is not touched. -/
theorem keepR7 (c : Dev nD) (b : Ref sig .tc) (hb : b ≠ main_v75) :
    W16 m ρ c (Proc.devRef .tc b) = W15 m ρ c (Proc.devRef .tc b) := by
  by_cases h : ∃ w, Pipeline.arrRef spec7 w = b
  · obtain ⟨w, rfl⟩ := h
    match w, hb with
    | 0, _ => exact (W16_arr m ρ c 0).trans (((dat7 (V15 m ρ) c).arrAt_in 0 rfl _).trans (A_eq7 (V15 m ρ) c 0))
    | 1, _ => exact (W16_arr m ρ c 1).trans (((dat7 (V15 m ρ) c).arrAt_in 1 rfl _).trans (A_eq7 (V15 m ρ) c 1))
    | 2, _ => exact (W16_arr m ρ c 2).trans (((dat7 (V15 m ρ) c).arrAt_in 2 rfl _).trans (A_eq7 (V15 m ρ) c 2))
    | 3, _ => exact (W16_arr m ρ c 3).trans (((dat7 (V15 m ρ) c).arrAt_in 3 rfl _).trans (A_eq7 (V15 m ρ) c 3))
    | 4, _ => exact (W16_arr m ρ c 4).trans (((dat7 (V15 m ρ) c).arrAt_in 4 rfl _).trans (A_eq7 (V15 m ρ) c 4))
    | 5, _ => exact (W16_arr m ρ c 5).trans (((dat7 (V15 m ρ) c).arrAt_in 5 rfl _).trans (A_eq7 (V15 m ρ) c 5))
    | 6, hb => exact absurd rfl hb
    | ⟨_ + 7, h⟩, _ => exact absurd h (Nat.not_lt.2 (Nat.le_add_left _ _))
  · exact W16_of_ne m ρ c b fun w e => h ⟨w, e⟩

/-- Launch 8 changes only `main_v78`: an input array ends as it was entered, any other buffer is not touched. -/
theorem keepR8 (c : Dev nD) (b : Ref sig .tc) (hb : b ≠ main_v78) :
    W18 m ρ c (Proc.devRef .tc b) = W17 m ρ c (Proc.devRef .tc b) := by
  by_cases h : ∃ w, Pipeline.arrRef spec8 w = b
  · obtain ⟨w, rfl⟩ := h
    match w, hb with
    | 0, _ => exact (W18_arr m ρ c 0).trans (((dat8 (V17 m ρ) c).arrAt_in 0 rfl _).trans (A_eq8 (V17 m ρ) c 0))
    | 1, _ => exact (W18_arr m ρ c 1).trans (((dat8 (V17 m ρ) c).arrAt_in 1 rfl _).trans (A_eq8 (V17 m ρ) c 1))
    | 2, hb => exact absurd rfl hb
    | ⟨_ + 3, h⟩, _ => exact absurd h (Nat.not_lt.2 (Nat.le_add_left _ _))
  · exact W18_of_ne m ρ c b fun w e => h ⟨w, e⟩

/-- Launch 9 changes only `main_v92`: an input array ends as it was entered, any other buffer is not touched. -/
theorem keepR9 (c : Dev nD) (b : Ref sig .tc) (hb : b ≠ main_v92) :
    W20 m ρ c (Proc.devRef .tc b) = W19 m ρ c (Proc.devRef .tc b) := by
  by_cases h : ∃ w, Pipeline.arrRef spec9 w = b
  · obtain ⟨w, rfl⟩ := h
    match w, hb with
    | 0, _ => exact (W20_arr m ρ c 0).trans (((dat9 (V19 m ρ) c).arrAt_in 0 rfl _).trans (A_eq9 (V19 m ρ) c 0))
    | 1, _ => exact (W20_arr m ρ c 1).trans (((dat9 (V19 m ρ) c).arrAt_in 1 rfl _).trans (A_eq9 (V19 m ρ) c 1))
    | 2, _ => exact (W20_arr m ρ c 2).trans (((dat9 (V19 m ρ) c).arrAt_in 2 rfl _).trans (A_eq9 (V19 m ρ) c 2))
    | 3, _ => exact (W20_arr m ρ c 3).trans (((dat9 (V19 m ρ) c).arrAt_in 3 rfl _).trans (A_eq9 (V19 m ρ) c 3))
    | 4, _ => exact (W20_arr m ρ c 4).trans (((dat9 (V19 m ρ) c).arrAt_in 4 rfl _).trans (A_eq9 (V19 m ρ) c 4))
    | 5, _ => exact (W20_arr m ρ c 5).trans (((dat9 (V19 m ρ) c).arrAt_in 5 rfl _).trans (A_eq9 (V19 m ρ) c 5))
    | 6, hb => exact absurd rfl hb
    | ⟨_ + 7, h⟩, _ => exact absurd h (Nat.not_lt.2 (Nat.le_add_left _ _))
  · exact W20_of_ne m ρ c b fun w e => h ⟨w, e⟩

/-! ## The buffers fixed before the first launch -/

/-- The argument arrays the layers read and the buffers the first stretch computes for all of them: the node states'
    first value, the edge weights, the stacked layer weights, the two edge endpoint vectors, the two transposed gate
    weights and the two bias rows. -/
abbrev fixedRefs : List (Ref sig .tc) := [main_arg0, main_arg2, main_arg3, main_v1, main_v3, main_v4, main_v5, main_v6, main_v7]
theorem fixed_notin_H1 : ∀ b ∈ fixedRefs, b ∉ hostOps1_W := by decide
theorem fixed_notin_H2 : ∀ b ∈ fixedRefs, b ∉ hostOps2_W := by decide
theorem fixed_notin_H3 : ∀ b ∈ fixedRefs, b ∉ hostOps3_W := by decide
theorem fixed_notin_H4 : ∀ b ∈ fixedRefs, b ∉ hostOps4_W := by decide
theorem fixed_notin_H5 : ∀ b ∈ fixedRefs, b ∉ hostOps5_W := by decide
theorem fixed_notin_H6 : ∀ b ∈ fixedRefs, b ∉ hostOps6_W := by decide
theorem fixed_notin_H7 : ∀ b ∈ fixedRefs, b ∉ hostOps7_W := by decide
theorem fixed_notin_H8 : ∀ b ∈ fixedRefs, b ∉ hostOps8_W := by decide
theorem fixed_notin_H9 : ∀ b ∈ fixedRefs, b ∉ hostOps9_W := by decide
theorem fixed_ne_out0 : ∀ b ∈ fixedRefs, b ≠ main_v10 := by decide
theorem fixed_ne_out1 : ∀ b ∈ fixedRefs, b ≠ main_v24 := by decide
theorem fixed_ne_out2 : ∀ b ∈ fixedRefs, b ≠ main_v27 := by decide
theorem fixed_ne_out3 : ∀ b ∈ fixedRefs, b ≠ main_v41 := by decide
theorem fixed_ne_out4 : ∀ b ∈ fixedRefs, b ≠ main_v44 := by decide
theorem fixed_ne_out5 : ∀ b ∈ fixedRefs, b ≠ main_v58 := by decide
theorem fixed_ne_out6 : ∀ b ∈ fixedRefs, b ≠ main_v61 := by decide
theorem fixed_ne_out7 : ∀ b ∈ fixedRefs, b ≠ main_v75 := by decide
theorem fixed_ne_out8 : ∀ b ∈ fixedRefs, b ≠ main_v78 := by decide
theorem fixed_ne_out9 : ∀ b ∈ fixedRefs, b ≠ main_v92 := by decide

/-- At every boundary after the first stretch the fixed buffers hold what they held right after it. -/
theorem fixed1 (c : Dev nD) : ∀ b ∈ fixedRefs, W1 m ρ c (Proc.devRef .tc b) = W1 m ρ c (Proc.devRef .tc b) := fun _ _ => rfl
theorem fixed2 (c : Dev nD) : ∀ b ∈ fixedRefs, W2 m ρ c (Proc.devRef .tc b) = W1 m ρ c (Proc.devRef .tc b) := fun b hb =>
  (keepR0 m ρ c b (fixed_ne_out0 b hb)).trans (fixed1 m ρ c b hb)
theorem fixed3 (c : Dev nD) : ∀ b ∈ fixedRefs, W3 m ρ c (Proc.devRef .tc b) = W1 m ρ c (Proc.devRef .tc b) := fun b hb =>
  (keepH1 (W2 m ρ c) b (fixed_notin_H1 b hb)).trans (fixed2 m ρ c b hb)
theorem fixed4 (c : Dev nD) : ∀ b ∈ fixedRefs, W4 m ρ c (Proc.devRef .tc b) = W1 m ρ c (Proc.devRef .tc b) := fun b hb =>
  (keepR1 m ρ c b (fixed_ne_out1 b hb)).trans (fixed3 m ρ c b hb)
theorem fixed5 (c : Dev nD) : ∀ b ∈ fixedRefs, W5 m ρ c (Proc.devRef .tc b) = W1 m ρ c (Proc.devRef .tc b) := fun b hb =>
  (keepH2 (W4 m ρ c) b (fixed_notin_H2 b hb)).trans (fixed4 m ρ c b hb)
theorem fixed6 (c : Dev nD) : ∀ b ∈ fixedRefs, W6 m ρ c (Proc.devRef .tc b) = W1 m ρ c (Proc.devRef .tc b) := fun b hb =>
  (keepR2 m ρ c b (fixed_ne_out2 b hb)).trans (fixed5 m ρ c b hb)
theorem fixed7 (c : Dev nD) : ∀ b ∈ fixedRefs, W7 m ρ c (Proc.devRef .tc b) = W1 m ρ c (Proc.devRef .tc b) := fun b hb =>
  (keepH3 (W6 m ρ c) b (fixed_notin_H3 b hb)).trans (fixed6 m ρ c b hb)
theorem fixed8 (c : Dev nD) : ∀ b ∈ fixedRefs, W8 m ρ c (Proc.devRef .tc b) = W1 m ρ c (Proc.devRef .tc b) := fun b hb =>
  (keepR3 m ρ c b (fixed_ne_out3 b hb)).trans (fixed7 m ρ c b hb)
theorem fixed9 (c : Dev nD) : ∀ b ∈ fixedRefs, W9 m ρ c (Proc.devRef .tc b) = W1 m ρ c (Proc.devRef .tc b) := fun b hb =>
  (keepH4 (W8 m ρ c) b (fixed_notin_H4 b hb)).trans (fixed8 m ρ c b hb)
theorem fixed10 (c : Dev nD) : ∀ b ∈ fixedRefs, W10 m ρ c (Proc.devRef .tc b) = W1 m ρ c (Proc.devRef .tc b) := fun b hb =>
  (keepR4 m ρ c b (fixed_ne_out4 b hb)).trans (fixed9 m ρ c b hb)
theorem fixed11 (c : Dev nD) : ∀ b ∈ fixedRefs, W11 m ρ c (Proc.devRef .tc b) = W1 m ρ c (Proc.devRef .tc b) := fun b hb =>
  (keepH5 (W10 m ρ c) b (fixed_notin_H5 b hb)).trans (fixed10 m ρ c b hb)
theorem fixed12 (c : Dev nD) : ∀ b ∈ fixedRefs, W12 m ρ c (Proc.devRef .tc b) = W1 m ρ c (Proc.devRef .tc b) := fun b hb =>
  (keepR5 m ρ c b (fixed_ne_out5 b hb)).trans (fixed11 m ρ c b hb)
theorem fixed13 (c : Dev nD) : ∀ b ∈ fixedRefs, W13 m ρ c (Proc.devRef .tc b) = W1 m ρ c (Proc.devRef .tc b) := fun b hb =>
  (keepH6 (W12 m ρ c) b (fixed_notin_H6 b hb)).trans (fixed12 m ρ c b hb)
theorem fixed14 (c : Dev nD) : ∀ b ∈ fixedRefs, W14 m ρ c (Proc.devRef .tc b) = W1 m ρ c (Proc.devRef .tc b) := fun b hb =>
  (keepR6 m ρ c b (fixed_ne_out6 b hb)).trans (fixed13 m ρ c b hb)
theorem fixed15 (c : Dev nD) : ∀ b ∈ fixedRefs, W15 m ρ c (Proc.devRef .tc b) = W1 m ρ c (Proc.devRef .tc b) := fun b hb =>
  (keepH7 (W14 m ρ c) b (fixed_notin_H7 b hb)).trans (fixed14 m ρ c b hb)
theorem fixed16 (c : Dev nD) : ∀ b ∈ fixedRefs, W16 m ρ c (Proc.devRef .tc b) = W1 m ρ c (Proc.devRef .tc b) := fun b hb =>
  (keepR7 m ρ c b (fixed_ne_out7 b hb)).trans (fixed15 m ρ c b hb)
theorem fixed17 (c : Dev nD) : ∀ b ∈ fixedRefs, W17 m ρ c (Proc.devRef .tc b) = W1 m ρ c (Proc.devRef .tc b) := fun b hb =>
  (keepH8 (W16 m ρ c) b (fixed_notin_H8 b hb)).trans (fixed16 m ρ c b hb)
theorem fixed18 (c : Dev nD) : ∀ b ∈ fixedRefs, W18 m ρ c (Proc.devRef .tc b) = W1 m ρ c (Proc.devRef .tc b) := fun b hb =>
  (keepR8 m ρ c b (fixed_ne_out8 b hb)).trans (fixed17 m ρ c b hb)
theorem fixed19 (c : Dev nD) : ∀ b ∈ fixedRefs, W19 m ρ c (Proc.devRef .tc b) = W1 m ρ c (Proc.devRef .tc b) := fun b hb =>
  (keepH9 (W18 m ρ c) b (fixed_notin_H9 b hb)).trans (fixed18 m ρ c b hb)
theorem fixed20 (c : Dev nD) : ∀ b ∈ fixedRefs, W20 m ρ c (Proc.devRef .tc b) = W1 m ρ c (Proc.devRef .tc b) := fun b hb =>
  (keepR9 m ρ c b (fixed_ne_out9 b hb)).trans (fixed19 m ρ c b hb)

end Cert.KernelIdeal.Val

end
-- ==== Proof.HostReads.lean ====
/-
  What the host stretches between the kernel launches compute, as pure terms of the buffers they read.

  The first stretch cuts the two rows of edge endpoints out of the edge index array, transposes the two gate weight
  matrices, lays each gate bias out as a single row, and cuts the first layer's weight out of the weight stack.  Before
  each later linear launch a stretch cuts that layer's weight out of the stack.  Between a layer's two launches a stretch
  aggregates the messages: every edge takes the row of the transformed states at its source (the index taken modulo the
  node count when negative), scales it by the edge's weight, and the rows are summed into their destination's row,
  starting from zero.
-/
import proofs.«155903_j60266981097696_1_alg».proof.Proof.Gen.KernelIdeal.Frame
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- Row 0 of the edge index array: every edge's source node. -/
def srcK (ei : (⟨S2x320000, .i32⟩ : BufTy).Contents (Elt F)) : (⟨S320000, .i32⟩ : BufTy).Contents (Elt F) :=
  shapeCast _ (extractStridedSlice S1x320000 ![0, 0] ei slices_S2x320000_S1x320000_0_0) shapeCasts_S1x320000_S320000

/-- Row 1 of the edge index array: every edge's destination node. -/
def dstK (ei : (⟨S2x320000, .i32⟩ : BufTy).Contents (Elt F)) : (⟨S320000, .i32⟩ : BufTy).Contents (Elt F) :=
  shapeCast _ (extractStridedSlice S1x320000 ![1, 0] ei slices_S2x320000_S1x320000_1_0) shapeCasts_S1x320000_S320000

/-- A 768×256 gate weight transposed to 256×768. -/
def wTK (w : (⟨S768x256, .f32⟩ : BufTy).Contents (Elt F)) : (⟨S256x768, .f32⟩ : BufTy).Contents (Elt F) :=
  transpose S256x768 [1, 0] w transposes_S768x256_S256x768_1_0

/-- A gate bias laid out as one row of 768. -/
def bRowK (b : (⟨S768, .f32⟩ : BufTy).Contents (Elt F)) : (⟨S1x768, .f32⟩ : BufTy).Contents (Elt F) :=
  shapeCast _ b shapeCasts_S768_S1x768

/-- Layer 0's weight: matrix 0 of the stack. -/
def wOfK0 (w : (⟨S5x256x256, .f32⟩ : BufTy).Contents (Elt F)) : (⟨S256x256, .f32⟩ : BufTy).Contents (Elt F) :=
  shapeCast _ (extractStridedSlice S1x256x256 ![0, 0, 0] w slices_S5x256x256_S1x256x256_0_0_0) shapeCasts_S1x256x256_S256x256

/-- Layer 1's weight: matrix 1 of the stack. -/
def wOfK1 (w : (⟨S5x256x256, .f32⟩ : BufTy).Contents (Elt F)) : (⟨S256x256, .f32⟩ : BufTy).Contents (Elt F) :=
  shapeCast _ (extractStridedSlice S1x256x256 ![1, 0, 0] w slices_S5x256x256_S1x256x256_1_0_0) shapeCasts_S1x256x256_S256x256

/-- Layer 2's weight: matrix 2 of the stack. -/
def wOfK2 (w : (⟨S5x256x256, .f32⟩ : BufTy).Contents (Elt F)) : (⟨S256x256, .f32⟩ : BufTy).Contents (Elt F) :=
  shapeCast _ (extractStridedSlice S1x256x256 ![2, 0, 0] w slices_S5x256x256_S1x256x256_2_0_0) shapeCasts_S1x256x256_S256x256

/-- Layer 3's weight: matrix 3 of the stack. -/
def wOfK3 (w : (⟨S5x256x256, .f32⟩ : BufTy).Contents (Elt F)) : (⟨S256x256, .f32⟩ : BufTy).Contents (Elt F) :=
  shapeCast _ (extractStridedSlice S1x256x256 ![3, 0, 0] w slices_S5x256x256_S1x256x256_3_0_0) shapeCasts_S1x256x256_S256x256

/-- Layer 4's weight: matrix 4 of the stack. -/
def wOfK4 (w : (⟨S5x256x256, .f32⟩ : BufTy).Contents (Elt F)) : (⟨S256x256, .f32⟩ : BufTy).Contents (Elt F) :=
  shapeCast _ (extractStridedSlice S1x256x256 ![4, 0, 0] w slices_S5x256x256_S1x256x256_4_0_0) shapeCasts_S1x256x256_S256x256

/-- The aggregated messages: the rows of `M` gathered at the edges' sources, scaled by the edges' weights, summed
    into the rows of their destinations. -/
def aggOfK (src dst : (⟨S320000, .i32⟩ : BufTy).Contents (Elt F)) (ea : (⟨S320000, .f32⟩ : BufTy).Contents (Elt F))
    (M : (⟨S10000x256, .f32⟩ : BufTy).Contents (Elt F)) : (⟨S10000x256, .f32⟩ : BufTy).Contents (Elt F) :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 dst)
    (mulf (Host.gather gather_S10000x256_S320000x1_S320000x256_1_0_n_n_0_1_1256 M
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src)))
      (broadcastInDim S320000x256 ![0, 1] bcast_S320000x1_S320000x256_0_1 (broadcastInDim S320000x1 ![0] bcast_S320000_S320000x1_0 ea)))

/-! ## The first stretch -/

variable (V : Valuation τ sig (Elt F))

theorem read_v1 : StableHlo.after hostOps0 V (Proc.devRef .tc main_v1) = srcK (V (Proc.devRef .tc main_arg1)) := by
  after_results; rfl
theorem read_v3 : StableHlo.after hostOps0 V (Proc.devRef .tc main_v3) = dstK (V (Proc.devRef .tc main_arg1)) := by
  after_results; rfl
theorem read_v4 : StableHlo.after hostOps0 V (Proc.devRef .tc main_v4) = wTK (V (Proc.devRef .tc main_arg4)) := by
  after_results; rfl
theorem read_v5 : StableHlo.after hostOps0 V (Proc.devRef .tc main_v5) = wTK (V (Proc.devRef .tc main_arg5)) := by
  after_results; rfl
theorem read_v6 : StableHlo.after hostOps0 V (Proc.devRef .tc main_v6) = bRowK (V (Proc.devRef .tc main_arg6)) := by
  after_results; rfl
theorem read_v7 : StableHlo.after hostOps0 V (Proc.devRef .tc main_v7) = bRowK (V (Proc.devRef .tc main_arg7)) := by
  after_results; rfl
theorem read_v9 : StableHlo.after hostOps0 V (Proc.devRef .tc main_v9) = wOfK0 (V (Proc.devRef .tc main_arg3)) := by
  after_results; rfl

/-! ## The later layers' weights -/

theorem read_v26 : StableHlo.after hostOps2 V (Proc.devRef .tc main_v26) = wOfK1 (V (Proc.devRef .tc main_arg3)) := by
  after_results; rfl

theorem read_v43 : StableHlo.after hostOps4 V (Proc.devRef .tc main_v43) = wOfK2 (V (Proc.devRef .tc main_arg3)) := by
  after_results; rfl

theorem read_v60 : StableHlo.after hostOps6 V (Proc.devRef .tc main_v60) = wOfK3 (V (Proc.devRef .tc main_arg3)) := by
  after_results; rfl

theorem read_v77 : StableHlo.after hostOps8 V (Proc.devRef .tc main_v77) = wOfK4 (V (Proc.devRef .tc main_arg3)) := by
  after_results; rfl

/-! ## The aggregation stretches -/

set_option maxHeartbeats 2000000 in
theorem read_v23 : StableHlo.after hostOps1 V (Proc.devRef .tc main_v23)
    = aggOfK (V (Proc.devRef .tc main_v1)) (V (Proc.devRef .tc main_v3)) (V (Proc.devRef .tc main_arg2)) (V (Proc.devRef .tc main_v10)) := by
  simp only [hostOps1]
  after_results_simp
  rfl

set_option maxHeartbeats 2000000 in
theorem read_v40 : StableHlo.after hostOps3 V (Proc.devRef .tc main_v40)
    = aggOfK (V (Proc.devRef .tc main_v1)) (V (Proc.devRef .tc main_v3)) (V (Proc.devRef .tc main_arg2)) (V (Proc.devRef .tc main_v27)) := by
  simp only [hostOps3]
  after_results_simp
  rfl

set_option maxHeartbeats 2000000 in
theorem read_v57 : StableHlo.after hostOps5 V (Proc.devRef .tc main_v57)
    = aggOfK (V (Proc.devRef .tc main_v1)) (V (Proc.devRef .tc main_v3)) (V (Proc.devRef .tc main_arg2)) (V (Proc.devRef .tc main_v44)) := by
  simp only [hostOps5]
  after_results_simp
  rfl

set_option maxHeartbeats 2000000 in
theorem read_v74 : StableHlo.after hostOps7 V (Proc.devRef .tc main_v74)
    = aggOfK (V (Proc.devRef .tc main_v1)) (V (Proc.devRef .tc main_v3)) (V (Proc.devRef .tc main_arg2)) (V (Proc.devRef .tc main_v61)) := by
  simp only [hostOps7]
  after_results_simp
  rfl

set_option maxHeartbeats 2000000 in
theorem read_v91 : StableHlo.after hostOps9 V (Proc.devRef .tc main_v91)
    = aggOfK (V (Proc.devRef .tc main_v1)) (V (Proc.devRef .tc main_v3)) (V (Proc.devRef .tc main_arg2)) (V (Proc.devRef .tc main_v78)) := by
  simp only [hostOps9]
  after_results_simp
  rfl

end Cert.KernelIdeal.Val

end
-- ==== Proof.Spec.lean ====
/-
  The mathematics of one message-passing layer, entry by entry, over the extended reals.

  A layer takes the node states h (10000 nodes, 256 features), a 256×256 weight W, an aggregation A of a node array
  into a node array (the edge gather, scale and segment sum, kept abstract here), the two gate weights already
  transposed (256×768), and the two gate biases as single rows (1×768):

      m    = h · W                                         m[p, n]  = Σ_k h[p, k] · W[k, n]
      a    = A m
      gi   = a · WiT + bi,   gh = h · WhT + bh              gi[p, j] = Σ_k a[p, k] · WiT[k, j] + bi[0, j]
      r    = σ(gi[p, q] + gh[p, q])
      z    = σ(gi[p, 256 + q] + gh[p, 256 + q])
      n    = tanh(gi[p, 512 + q] + r · gh[p, 512 + q])
      h'   = (1 − z) · n + z · h[p, q]

  with σ x = 1 / (1 + e^(−x)).  Nothing here depends on a program: both the kernel's blocks and the reference's host
  operations are shown elsewhere to compute these functions.
-/
import Idealize.ShloMosaic.PureOps.Ideal.Laws
import Idealize.ShloMosaic.Lib.ValueIdx

noncomputable section

namespace Cert.Spec

open Idealize.ShloMosaic Idealize.ShloMosaic.ValueIdx

/-- The linear message transform at entry `(p, n)`: row `p` of `h` against column `n` of `w`. -/
def linAt (h : FVec Ideal ⟨2, ![10000, 256]⟩ .f32) (w : FVec Ideal ⟨2, ![256, 256]⟩ .f32) (p : Fin 10000) (n : Fin 256) : EReal :=
  ∑ k : Fin 256, h (ix2 p k) * w (ix2 k n)

/-- The linear message transform as an array. -/
def linG (h : FVec Ideal ⟨2, ![10000, 256]⟩ .f32) (w : FVec Ideal ⟨2, ![256, 256]⟩ .f32) : FVec Ideal ⟨2, ![10000, 256]⟩ .f32 :=
  fun i => linAt h w (i 0) (i 1)

theorem linG_ix2 (h : FVec Ideal ⟨2, ![10000, 256]⟩ .f32) (w : FVec Ideal ⟨2, ![256, 256]⟩ .f32) (p : Fin 10000) (n : Fin 256) :
    linG h w (ix2 p n) = linAt h w p n := rfl

/-- A gate pre-activation at `(p, j)`: row `p` of `x` against column `j` of the transposed weight, plus the bias row at `j`. -/
def pre (x : FVec Ideal ⟨2, ![10000, 256]⟩ .f32) (wT : FVec Ideal ⟨2, ![256, 768]⟩ .f32) (b : FVec Ideal ⟨2, ![1, 768]⟩ .f32)
    (p : Fin 10000) (j : Fin 768) : EReal :=
  (∑ k : Fin 256, x (ix2 p k) * wT (ix2 k j)) + b (ix2 (0 : Fin 1) j)

/-- Column `o + q` of the 768 gate columns, for the gate that starts at column `o`. -/
def gateCol (o : Nat) (ho : o + 256 ≤ 768) (q : Fin 256) : Fin 768 := ⟨o + q.val, by have := q.isLt; omega⟩

theorem gateCol_val (o : Nat) (ho : o + 256 ≤ 768) (q : Fin 256) : (gateCol o ho q).val = o + q.val := rfl

/-- The gated update of one entry from its six pre-activations and the old state. -/
def cell (ir hr iz hz inn hn hv : EReal) : EReal :=
  (1 - Ideal.logistic (iz + hz)) * Ideal.tanh (inn + Ideal.logistic (ir + hr) * hn) + Ideal.logistic (iz + hz) * hv

/-- The gated recurrent update at entry `(p, q)`. -/
def gruAt (a h : FVec Ideal ⟨2, ![10000, 256]⟩ .f32) (wiT whT : FVec Ideal ⟨2, ![256, 768]⟩ .f32)
    (bi bh : FVec Ideal ⟨2, ![1, 768]⟩ .f32) (p : Fin 10000) (q : Fin 256) : EReal :=
  cell (pre a wiT bi p (gateCol 0 (by omega) q)) (pre h whT bh p (gateCol 0 (by omega) q))
    (pre a wiT bi p (gateCol 256 (by omega) q)) (pre h whT bh p (gateCol 256 (by omega) q))
    (pre a wiT bi p (gateCol 512 (by omega) q)) (pre h whT bh p (gateCol 512 (by omega) q))
    (h (ix2 p q))

/-- The gated recurrent update as an array. -/
def gruG (a h : FVec Ideal ⟨2, ![10000, 256]⟩ .f32) (wiT whT : FVec Ideal ⟨2, ![256, 768]⟩ .f32)
    (bi bh : FVec Ideal ⟨2, ![1, 768]⟩ .f32) : FVec Ideal ⟨2, ![10000, 256]⟩ .f32 :=
  fun i => gruAt a h wiT whT bi bh (i 0) (i 1)

theorem gruG_ix2 (a h : FVec Ideal ⟨2, ![10000, 256]⟩ .f32) (wiT whT : FVec Ideal ⟨2, ![256, 768]⟩ .f32)
    (bi bh : FVec Ideal ⟨2, ![1, 768]⟩ .f32) (p : Fin 10000) (q : Fin 256) :
    gruG a h wiT whT bi bh (ix2 p q) = gruAt a h wiT whT bi bh p q := rfl

/-- One whole layer: transform, aggregate by `A`, update. -/
def layerG (A : FVec Ideal ⟨2, ![10000, 256]⟩ .f32 → FVec Ideal ⟨2, ![10000, 256]⟩ .f32)
    (h : FVec Ideal ⟨2, ![10000, 256]⟩ .f32) (w : FVec Ideal ⟨2, ![256, 256]⟩ .f32)
    (wiT whT : FVec Ideal ⟨2, ![256, 768]⟩ .f32) (bi bh : FVec Ideal ⟨2, ![1, 768]⟩ .f32) : FVec Ideal ⟨2, ![10000, 256]⟩ .f32 :=
  gruG (A (linG h w)) h wiT whT bi bh

/-- Two arrays that agree at every pair of coordinates are one array. -/
theorem ext2 {n0 n1 : Nat} {α : Type} (f g : (⟨2, ![n0, n1]⟩ : Shape).Idx → α) (hfg : ∀ (p : Fin n0) (q : Fin n1), f (ix2 p q) = g (ix2 p q)) : f = g :=
  funext fun i => by rw [eq_ix2 i]; exact hfg _ _

end Cert.Spec

end
-- ==== Proof.KerTerm.lean ====
/-
  The idealized kernel's result as a term: five layers of the specification over what the host stretches compute.

  A layer of the kernel's program transforms the old states by the layer's weight, aggregates over the edges (gather
  at the sources, scale by the edge weights, sum into the destinations), and updates through the gates with the
  transposed gate weights and the bias rows.
-/
import proofs.«155903_j60266981097696_1_alg».proof.Proof.HostReads
import proofs.«155903_j60266981097696_1_alg».proof.Proof.Spec

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- One layer as the kernel's program computes it, from the argument arrays and the old states. -/
def kerLayer (ei : (⟨S2x320000, .i32⟩ : BufTy).Contents (Elt Ideal)) (ea : (⟨S320000, .f32⟩ : BufTy).Contents (Elt Ideal))
    (wl : (⟨S256x256, .f32⟩ : BufTy).Contents (Elt Ideal)) (wih whh : (⟨S768x256, .f32⟩ : BufTy).Contents (Elt Ideal))
    (bih bhh : (⟨S768, .f32⟩ : BufTy).Contents (Elt Ideal)) (H : (⟨S10000x256, .f32⟩ : BufTy).Contents (Elt Ideal)) :
    (⟨S10000x256, .f32⟩ : BufTy).Contents (Elt Ideal) :=
  Cert.Spec.layerG (aggOfK (srcK ei) (dstK ei) ea) H wl (wTK wih) (wTK whh) (bRowK bih) (bRowK bhh)

/-- The five layers in turn. -/
def kerOut (x : (⟨S10000x256, .f32⟩ : BufTy).Contents (Elt Ideal)) (ei : (⟨S2x320000, .i32⟩ : BufTy).Contents (Elt Ideal))
    (ea : (⟨S320000, .f32⟩ : BufTy).Contents (Elt Ideal)) (w : (⟨S5x256x256, .f32⟩ : BufTy).Contents (Elt Ideal))
    (wih whh : (⟨S768x256, .f32⟩ : BufTy).Contents (Elt Ideal)) (bih bhh : (⟨S768, .f32⟩ : BufTy).Contents (Elt Ideal)) :
    (⟨S10000x256, .f32⟩ : BufTy).Contents (Elt Ideal) :=
  kerLayer ei ea (wOfK4 w) wih whh bih bhh (kerLayer ei ea (wOfK3 w) wih whh bih bhh (kerLayer ei ea (wOfK2 w) wih whh bih bhh
    (kerLayer ei ea (wOfK1 w) wih whh bih bhh (kerLayer ei ea (wOfK0 w) wih whh bih bhh x))))

theorem aggOfK_congr {s s' d d' : (⟨S320000, .i32⟩ : BufTy).Contents (Elt Ideal)} {e e' : (⟨S320000, .f32⟩ : BufTy).Contents (Elt Ideal)}
    {M M' : (⟨S10000x256, .f32⟩ : BufTy).Contents (Elt Ideal)} (hs : s = s') (hd : d = d') (he : e = e') (hM : M = M') :
    aggOfK s d e M = aggOfK s' d' e' M' := by subst hs hd he hM; rfl

theorem gruG_congr {a a' h h' : FVec Ideal ⟨2, ![10000, 256]⟩ .f32} {wi wi' wh wh' : FVec Ideal ⟨2, ![256, 768]⟩ .f32}
    {bi bi' bh bh' : FVec Ideal ⟨2, ![1, 768]⟩ .f32} (ha : a = a') (hh : h = h') (hwi : wi = wi') (hwh : wh = wh')
    (hbi : bi = bi') (hbh : bh = bh') : Cert.Spec.gruG a h wi wh bi bh = Cert.Spec.gruG a' h' wi' wh' bi' bh' := by
  subst ha hh hwi hwh hbi hbh; rfl

end Cert.KernelIdeal.Val

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.KLin.lean ====
/-
  The five linear transforms of the network, each as one array.

  A linear transform takes the node states h (10000 rows of 256 features) and a 256×256 weight W and produces
  m = h · W, that is m[p, n] = Σ_k h[p, k] · W[k, n].  The rows are cut into 10 blocks of 1000: point t of the grid
  reads rows 1000·t … 1000·t + 999 of h (all 256 columns) and the whole of W, multiplies the 1000×256 block by W over the
  extended reals (a change of float format is the identity there, and the product is accumulated into zero), and
  writes the 1000×256 result back as rows 1000·t … 1000·t + 999 of the output.

  So entry (p, n) of the output depends on row p of h alone and on column n of W: it is written by the one point
  t = p / 1000, at row p − 1000·t of that point's block, and its value there is Σ_k h[p, k] · W[k, n] — the
  specification's `linG h W` at (p, n).  The 10 blocks tile the 10000 rows, so the output array after the last point
  is `linG h W` everywhere, whatever it held before.

  Per transform: the body's product read at an entry of the block; the index maps decided over the 10 points (the row
  block index is t, every other block index is 0); a block of h read at (r, k) is h at (1000·t + r, k), the weight's one
  block is the weight; what point t writes back is block t of `linG`; every row lies in the block of the point p / 1000;
  hence the final array.  The five transforms differ only in which arrays they read and write.
-/
import proofs.«155903_j60266981097696_1_alg».proof.Proof.Gen.KernelIdeal.Frame
import proofs.«155903_j60266981097696_1_alg».proof.Proof.Spec
import proofs.«155903_j60266981097696_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Idealize.SL.Sem Cert.KernelIdeal Cert.KernelIdeal.Gen
open Idealize.ShloMosaic.Pipeline (Dat)

namespace Cert.KernelIdeal.Val

variable (V : (c : Dev nD) → (b : Ref sig .tc) → Buf (Elt Ideal) ((c : Thread nD τ).loc b)) (c : Dev nD)

/-- The zero offsets of a whole-block access, as a constant function. -/
theorem hzLin : (![0, 0] : Fin 2 → Nat) = fun _ => 0 := funext fun a => by fin_cases a <;> rfl

/-! ## Linear transform of region 0: `main_arg0` times `main_v9` -/

/-- The body's value at entry `(p, n)` of the block: row `p` of the block of rows against column `n` of the weight. -/
theorem pay_lin0 (x0 : Vec Ideal S1000x256 .f32) (x1 : Vec Ideal S256x256 .f32) (p : Fin 1000) (n : Fin 256) :
    k0_pay1 (F := Ideal) x0 x1 (ix2 p n) = ∑ k : Fin 256, x0 (ix2 p k) * x1 (ix2 k n) := by
  unfold k0_pay1
  simp only [shapeCast_self]
  exact Cert.LibMatmulNN.matmul_zero_apply _ rfl none _ _ p n

/-- The index maps over the 10 points: the row-block index of the input rows and of the output rows is the point's
    number, every column-block index and both block indices of the weight are 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of input rows at point `t`, read at `(r, k)`, is the input array at row `1000·t + r`, column `k`. -/
theorem blk0_0 (t : Fin cfg0.N) (r : Fin 1000) (k : Fin 256) (i : Fin 10000) (hi : i.val = 1000 * t.val + r.val) :
    (iblk0 V c 0 t : Vec Ideal S1000x256 .f32) (ix2 r k) = (V c main_arg0 : FVec Ideal ⟨2, ![10000, 256]⟩ .f32) (ix2 i k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 1000 + 1 * r.val = i.val; rw [e0, hi]; omega
  | ⟨1, _⟩ => show win0_0.index t 1 * 256 + 1 * k.val = k.val; rw [e1]; omega

/-- The weight's one block is the weight. -/
theorem blk0_1 (t : Fin cfg0.N) (k : Fin 256) (n : Fin 256) :
    (iblk0 V c 1 t : Vec Ideal S256x256 .f32) (ix2 k n) = (V c main_v9 : FVec Ideal ⟨2, ![256, 256]⟩ .f32) (ix2 k n) := by
  obtain ⟨-, -, e2, e3, -⟩ := idx0 t
  unfold iblk0
  rw [View.read_apply]
  show V c main_v9 _ = V c main_v9 _
  congr 1
  funext a
  apply Fin.ext
  match a with
  | ⟨0, _⟩ => show win0_1.index t 0 * 256 + 1 * k.val = k.val; rw [e2]; omega
  | ⟨1, _⟩ => show win0_1.index t 1 * 256 + 1 * n.val = n.val; rw [e3]; omega

/-- What point `t` writes back is block `t` of the product array: at `(r, n)` of the block, the sum over `k` of the input
    at `(1000·t + r, k)` times the weight at `(k, n)`. -/
theorem flushed0_eq (t : Fin cfg0.N) :
    (dat0 (F := Ideal) V c).flushed 2 t
      = ((cfg0.win 2).blk t).view.read (Elt Ideal) (Cert.Spec.linG (V c main_arg0) (V c main_v9)) := by
  show (cfg0.win 2).cut (grid0.coords t) ((dat0 V c).after 2 t) = _
  rw [after0_2]
  unfold out0_2
  rw [View.canon_unit_zero hzLin]
  simp only [View.ld_unit_zero (S := S1000x256) hzLin, View.ld_unit_zero (S := S256x256) hzLin]
  refine Cert.Spec.ext2 (n0 := 1000) (n1 := 256) (α := EReal) _ _ fun p q => ?_
  obtain ⟨-, -, -, -, e4, e5⟩ := idx0 t
  have hN : cfg0.N = 10 := N_0
  have ht : t.val < 10 := hN ▸ t.isLt
  have hx : (cfg0.win 2).xinj (grid0.coords t) (ix2 p q) = ix2 p q :=
    funext fun a => by match a with | ⟨0, _⟩ => rfl | ⟨1, _⟩ => rfl
  have he : ((cfg0.win 2).blk t).view.emb (ix2 p q) = ix2 (⟨1000 * t.val + p.val, by omega⟩ : Fin 10000) q := by
    funext a
    apply Fin.ext
    match a with
    | ⟨0, _⟩ => show win0_2.index t 0 * 1000 + 1 * p.val = 1000 * t.val + p.val; rw [e4]; omega
    | ⟨1, _⟩ => show win0_2.index t 1 * 256 + 1 * q.val = q.val; rw [e5]; omega
  show k0_pay1 (F := Ideal) (iblk0 V c 0 t) (iblk0 V c 1 t) ((cfg0.win 2).xinj (grid0.coords t) (ix2 p q))
    = Cert.Spec.linG (V c main_arg0) (V c main_v9) (((cfg0.win 2).blk t).view.emb (ix2 p q))
  rw [hx, he]
  refine (pay_lin0 _ _ p q).trans ?_
  rw [Cert.Spec.linG_ix2]
  unfold Cert.Spec.linAt
  refine Finset.sum_congr rfl fun k _ => ?_
  rw [blk0_0 V c t p k ⟨1000 * t.val + p.val, by omega⟩ rfl, blk0_1 V c t k q]

/-- An entry of the output lies in point `t`'s block iff each coordinate lies in the block's range on its axis. -/
theorem mem_blk0 (t : Fin cfg0.N) (i : (⟨2, ![10000, 256]⟩ : Shape).Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v10).slice (win0_2.rect t)).set ↔ _
  rw [View.set_slice_whole, Rect.mem_set_unit]
  exact Iff.rfl

/-- Every entry `(p, n)` of the output lies in the block of the point `p / 1000`. -/
theorem cover0 (i : (⟨2, ![10000, 256]⟩ : Shape).Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 10 := N_0
  refine ⟨⟨(i 0).val / 1000, by rw [hN]; omega⟩, flush0_2 _, ?_⟩
  rw [mem_blk0]
  obtain ⟨-, -, -, -, e4, e5⟩ := idx0 ⟨(i 0).val / 1000, by rw [hN]; omega⟩
  intro a
  match a with
  | ⟨0, _⟩ => show win0_2.index _ (0 : Fin 2) * 1000 ≤ (i 0).val ∧ (i 0).val < win0_2.index _ (0 : Fin 2) * 1000 + 1000; rw [e4]; show (i 0).val / 1000 * 1000 ≤ _ ∧ _ < (i 0).val / 1000 * 1000 + 1000; omega
  | ⟨1, _⟩ => show win0_2.index _ (1 : Fin 2) * 256 ≤ (i 1).val ∧ (i 1).val < win0_2.index _ (1 : Fin 2) * 256 + 256; rw [e5]; omega

/-- The output array after the last point is the product array. -/
theorem lin0_final : (Gen.dat0 (F := Ideal) V c).arrAt 2 cfg0.N = Cert.Spec.linG (V c main_arg0) (V c main_v9) :=
  (dat0 (F := Ideal) V c).arrAt_eq_of_cover 2 (Cert.Spec.linG (V c main_arg0) (V c main_v9))
    (fun t _ => flushed0_eq V c t) (cover0)

/-! ## Linear transform of region 2: `main_v24` times `main_v26` -/

/-- The body's value at entry `(p, n)` of the block: row `p` of the block of rows against column `n` of the weight. -/
theorem pay_lin2 (x0 : Vec Ideal S1000x256 .f32) (x1 : Vec Ideal S256x256 .f32) (p : Fin 1000) (n : Fin 256) :
    k2_pay1 (F := Ideal) x0 x1 (ix2 p n) = ∑ k : Fin 256, x0 (ix2 p k) * x1 (ix2 k n) := by
  unfold k2_pay1
  simp only [shapeCast_self]
  exact Cert.LibMatmulNN.matmul_zero_apply _ rfl none _ _ p n

/-- The index maps over the 10 points: the row-block index of the input rows and of the output rows is the point's
    number, every column-block index and both block indices of the weight are 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of input rows at point `t`, read at `(r, k)`, is the input array at row `1000·t + r`, column `k`. -/
theorem blk2_0 (t : Fin cfg2.N) (r : Fin 1000) (k : Fin 256) (i : Fin 10000) (hi : i.val = 1000 * t.val + r.val) :
    (iblk2 V c 0 t : Vec Ideal S1000x256 .f32) (ix2 r k) = (V c main_v24 : FVec Ideal ⟨2, ![10000, 256]⟩ .f32) (ix2 i k) := by
  obtain ⟨e0, e1, -⟩ := idx2 t
  unfold iblk2
  rw [View.read_apply]
  show V c main_v24 _ = V c main_v24 _
  congr 1
  funext a
  apply Fin.ext
  match a with
  | ⟨0, _⟩ => show win2_0.index t 0 * 1000 + 1 * r.val = i.val; rw [e0, hi]; omega
  | ⟨1, _⟩ => show win2_0.index t 1 * 256 + 1 * k.val = k.val; rw [e1]; omega

/-- The weight's one block is the weight. -/
theorem blk2_1 (t : Fin cfg2.N) (k : Fin 256) (n : Fin 256) :
    (iblk2 V c 1 t : Vec Ideal S256x256 .f32) (ix2 k n) = (V c main_v26 : FVec Ideal ⟨2, ![256, 256]⟩ .f32) (ix2 k n) := by
  obtain ⟨-, -, e2, e3, -⟩ := idx2 t
  unfold iblk2
  rw [View.read_apply]
  show V c main_v26 _ = V c main_v26 _
  congr 1
  funext a
  apply Fin.ext
  match a with
  | ⟨0, _⟩ => show win2_1.index t 0 * 256 + 1 * k.val = k.val; rw [e2]; omega
  | ⟨1, _⟩ => show win2_1.index t 1 * 256 + 1 * n.val = n.val; rw [e3]; omega

/-- What point `t` writes back is block `t` of the product array: at `(r, n)` of the block, the sum over `k` of the input
    at `(1000·t + r, k)` times the weight at `(k, n)`. -/
theorem flushed2_eq (t : Fin cfg2.N) :
    (dat2 (F := Ideal) V c).flushed 2 t
      = ((cfg2.win 2).blk t).view.read (Elt Ideal) (Cert.Spec.linG (V c main_v24) (V c main_v26)) := by
  show (cfg2.win 2).cut (grid2.coords t) ((dat2 V c).after 2 t) = _
  rw [after2_2]
  unfold out2_2
  rw [View.canon_unit_zero hzLin]
  simp only [View.ld_unit_zero (S := S1000x256) hzLin, View.ld_unit_zero (S := S256x256) hzLin]
  refine Cert.Spec.ext2 (n0 := 1000) (n1 := 256) (α := EReal) _ _ fun p q => ?_
  obtain ⟨-, -, -, -, e4, e5⟩ := idx2 t
  have hN : cfg2.N = 10 := N_2
  have ht : t.val < 10 := hN ▸ t.isLt
  have hx : (cfg2.win 2).xinj (grid2.coords t) (ix2 p q) = ix2 p q :=
    funext fun a => by match a with | ⟨0, _⟩ => rfl | ⟨1, _⟩ => rfl
  have he : ((cfg2.win 2).blk t).view.emb (ix2 p q) = ix2 (⟨1000 * t.val + p.val, by omega⟩ : Fin 10000) q := by
    funext a
    apply Fin.ext
    match a with
    | ⟨0, _⟩ => show win2_2.index t 0 * 1000 + 1 * p.val = 1000 * t.val + p.val; rw [e4]; omega
    | ⟨1, _⟩ => show win2_2.index t 1 * 256 + 1 * q.val = q.val; rw [e5]; omega
  show k2_pay1 (F := Ideal) (iblk2 V c 0 t) (iblk2 V c 1 t) ((cfg2.win 2).xinj (grid2.coords t) (ix2 p q))
    = Cert.Spec.linG (V c main_v24) (V c main_v26) (((cfg2.win 2).blk t).view.emb (ix2 p q))
  rw [hx, he]
  refine (pay_lin2 _ _ p q).trans ?_
  rw [Cert.Spec.linG_ix2]
  unfold Cert.Spec.linAt
  refine Finset.sum_congr rfl fun k _ => ?_
  rw [blk2_0 V c t p k ⟨1000 * t.val + p.val, by omega⟩ rfl, blk2_1 V c t k q]

/-- An entry of the output lies in point `t`'s block iff each coordinate lies in the block's range on its axis. -/
theorem mem_blk2 (t : Fin cfg2.N) (i : (⟨2, ![10000, 256]⟩ : Shape).Idx) :
    i ∈ ((cfg2.win 2).blk t).view.set ↔ ∀ a : Fin 2, win2_2.index t a * S1000x256.size a ≤ (i a).val ∧ (i a).val < win2_2.index t a * S1000x256.size a + S1000x256.size a := by
  show i ∈ ((View.whole main_v27).slice (win2_2.rect t)).set ↔ _
  rw [View.set_slice_whole, Rect.mem_set_unit]
  exact Iff.rfl

/-- Every entry `(p, n)` of the output lies in the block of the point `p / 1000`. -/
theorem cover2 (i : (⟨2, ![10000, 256]⟩ : Shape).Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have hN : cfg2.N = 10 := N_2
  refine ⟨⟨(i 0).val / 1000, by rw [hN]; omega⟩, flush2_2 _, ?_⟩
  rw [mem_blk2]
  obtain ⟨-, -, -, -, e4, e5⟩ := idx2 ⟨(i 0).val / 1000, by rw [hN]; omega⟩
  intro a
  match a with
  | ⟨0, _⟩ => show win2_2.index _ (0 : Fin 2) * 1000 ≤ (i 0).val ∧ (i 0).val < win2_2.index _ (0 : Fin 2) * 1000 + 1000; rw [e4]; show (i 0).val / 1000 * 1000 ≤ _ ∧ _ < (i 0).val / 1000 * 1000 + 1000; omega
  | ⟨1, _⟩ => show win2_2.index _ (1 : Fin 2) * 256 ≤ (i 1).val ∧ (i 1).val < win2_2.index _ (1 : Fin 2) * 256 + 256; rw [e5]; omega

/-- The output array after the last point is the product array. -/
theorem lin2_final : (Gen.dat2 (F := Ideal) V c).arrAt 2 cfg2.N = Cert.Spec.linG (V c main_v24) (V c main_v26) :=
  (dat2 (F := Ideal) V c).arrAt_eq_of_cover 2 (Cert.Spec.linG (V c main_v24) (V c main_v26))
    (fun t _ => flushed2_eq V c t) (cover2)

/-! ## Linear transform of region 4: `main_v41` times `main_v43` -/

/-- The body's value at entry `(p, n)` of the block: row `p` of the block of rows against column `n` of the weight. -/
theorem pay_lin4 (x0 : Vec Ideal S1000x256 .f32) (x1 : Vec Ideal S256x256 .f32) (p : Fin 1000) (n : Fin 256) :
    k4_pay1 (F := Ideal) x0 x1 (ix2 p n) = ∑ k : Fin 256, x0 (ix2 p k) * x1 (ix2 k n) := by
  unfold k4_pay1
  simp only [shapeCast_self]
  exact Cert.LibMatmulNN.matmul_zero_apply _ rfl none _ _ p n

/-- The index maps over the 10 points: the row-block index of the input rows and of the output rows is the point's
    number, every column-block index and both block indices of the weight are 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block of input rows at point `t`, read at `(r, k)`, is the input array at row `1000·t + r`, column `k`. -/
theorem blk4_0 (t : Fin cfg4.N) (r : Fin 1000) (k : Fin 256) (i : Fin 10000) (hi : i.val = 1000 * t.val + r.val) :
    (iblk4 V c 0 t : Vec Ideal S1000x256 .f32) (ix2 r k) = (V c main_v41 : FVec Ideal ⟨2, ![10000, 256]⟩ .f32) (ix2 i k) := by
  obtain ⟨e0, e1, -⟩ := idx4 t
  unfold iblk4
  rw [View.read_apply]
  show V c main_v41 _ = V c main_v41 _
  congr 1
  funext a
  apply Fin.ext
  match a with
  | ⟨0, _⟩ => show win4_0.index t 0 * 1000 + 1 * r.val = i.val; rw [e0, hi]; omega
  | ⟨1, _⟩ => show win4_0.index t 1 * 256 + 1 * k.val = k.val; rw [e1]; omega

/-- The weight's one block is the weight. -/
theorem blk4_1 (t : Fin cfg4.N) (k : Fin 256) (n : Fin 256) :
    (iblk4 V c 1 t : Vec Ideal S256x256 .f32) (ix2 k n) = (V c main_v43 : FVec Ideal ⟨2, ![256, 256]⟩ .f32) (ix2 k n) := by
  obtain ⟨-, -, e2, e3, -⟩ := idx4 t
  unfold iblk4
  rw [View.read_apply]
  show V c main_v43 _ = V c main_v43 _
  congr 1
  funext a
  apply Fin.ext
  match a with
  | ⟨0, _⟩ => show win4_1.index t 0 * 256 + 1 * k.val = k.val; rw [e2]; omega
  | ⟨1, _⟩ => show win4_1.index t 1 * 256 + 1 * n.val = n.val; rw [e3]; omega

/-- What point `t` writes back is block `t` of the product array: at `(r, n)` of the block, the sum over `k` of the input
    at `(1000·t + r, k)` times the weight at `(k, n)`. -/
theorem flushed4_eq (t : Fin cfg4.N) :
    (dat4 (F := Ideal) V c).flushed 2 t
      = ((cfg4.win 2).blk t).view.read (Elt Ideal) (Cert.Spec.linG (V c main_v41) (V c main_v43)) := by
  show (cfg4.win 2).cut (grid4.coords t) ((dat4 V c).after 2 t) = _
  rw [after4_2]
  unfold out4_2
  rw [View.canon_unit_zero hzLin]
  simp only [View.ld_unit_zero (S := S1000x256) hzLin, View.ld_unit_zero (S := S256x256) hzLin]
  refine Cert.Spec.ext2 (n0 := 1000) (n1 := 256) (α := EReal) _ _ fun p q => ?_
  obtain ⟨-, -, -, -, e4, e5⟩ := idx4 t
  have hN : cfg4.N = 10 := N_4
  have ht : t.val < 10 := hN ▸ t.isLt
  have hx : (cfg4.win 2).xinj (grid4.coords t) (ix2 p q) = ix2 p q :=
    funext fun a => by match a with | ⟨0, _⟩ => rfl | ⟨1, _⟩ => rfl
  have he : ((cfg4.win 2).blk t).view.emb (ix2 p q) = ix2 (⟨1000 * t.val + p.val, by omega⟩ : Fin 10000) q := by
    funext a
    apply Fin.ext
    match a with
    | ⟨0, _⟩ => show win4_2.index t 0 * 1000 + 1 * p.val = 1000 * t.val + p.val; rw [e4]; omega
    | ⟨1, _⟩ => show win4_2.index t 1 * 256 + 1 * q.val = q.val; rw [e5]; omega
  show k4_pay1 (F := Ideal) (iblk4 V c 0 t) (iblk4 V c 1 t) ((cfg4.win 2).xinj (grid4.coords t) (ix2 p q))
    = Cert.Spec.linG (V c main_v41) (V c main_v43) (((cfg4.win 2).blk t).view.emb (ix2 p q))
  rw [hx, he]
  refine (pay_lin4 _ _ p q).trans ?_
  rw [Cert.Spec.linG_ix2]
  unfold Cert.Spec.linAt
  refine Finset.sum_congr rfl fun k _ => ?_
  rw [blk4_0 V c t p k ⟨1000 * t.val + p.val, by omega⟩ rfl, blk4_1 V c t k q]

/-- An entry of the output lies in point `t`'s block iff each coordinate lies in the block's range on its axis. -/
theorem mem_blk4 (t : Fin cfg4.N) (i : (⟨2, ![10000, 256]⟩ : Shape).Idx) :
    i ∈ ((cfg4.win 2).blk t).view.set ↔ ∀ a : Fin 2, win4_2.index t a * S1000x256.size a ≤ (i a).val ∧ (i a).val < win4_2.index t a * S1000x256.size a + S1000x256.size a := by
  show i ∈ ((View.whole main_v44).slice (win4_2.rect t)).set ↔ _
  rw [View.set_slice_whole, Rect.mem_set_unit]
  exact Iff.rfl

/-- Every entry `(p, n)` of the output lies in the block of the point `p / 1000`. -/
theorem cover4 (i : (⟨2, ![10000, 256]⟩ : Shape).Idx) :
    ∃ t : Fin cfg4.N, (cfg4.win 2).flush t = true ∧ i ∈ ((cfg4.win 2).blk t).view.set := by
  have hi0 : (i 0).val < 10000 := (i 0).isLt
  have hi1 : (i 1).val < 256 := (i 1).isLt
  have hN : cfg4.N = 10 := N_4
  refine ⟨⟨(i 0).val / 1000, by rw [hN]; omega⟩, flush4_2 _, ?_⟩
  rw [mem_blk4]
  obtain ⟨-, -, -, -, e4, e5⟩ := idx4 ⟨(i 0).val / 1000, by rw [hN]; omega⟩
  intro a
  match a with
  | ⟨0, _⟩ => show win4_2.index _ (0 : Fin 2) * 1000 ≤ (i 0).val ∧ (i 0).val < win4_2.index _ (0 : Fin 2) * 1000 + 1000; rw [e4]; show (i 0).val / 1000 * 1000 ≤ _ ∧ _ < (i 0).val / 1000 * 1000 + 1000; omega
  | ⟨1, _⟩ => show win4_2.index _ (1 : Fin 2) * 256 ≤ (i 1).val ∧ (i 1).val < win4_2.index _ (1 : Fin 2) * 256 + 256; rw [e5]; omega

/-- The output array after the last point is the product array. -/
theorem lin4_final : (Gen.dat4 (F := Ideal) V c).arrAt 2 cfg4.N = Cert.Spec.linG (V c main_v41) (V c main_v43) :=
  (dat4 (F := Ideal) V c).arrAt_eq_of_cover 2 (Cert.Spec.linG (V c main_v41) (V c main_v43))
    (fun t _ => flushed4_eq V c t) (cover4)

/-! ## Linear transform of region 6: `main_v58` times `main_v60` -/

/-- The body's value at entry `(p, n)` of the block: row `p` of the block of rows against column `n` of the weight. -/
theorem pay_lin6 (x0 : Vec Ideal S1000x256 .f32) (x1 : Vec Ideal S256x256 .f32) (p : Fin 1000) (n : Fin 256) :
    k6_pay1 (F := Ideal) x0 x1 (ix2 p n) = ∑ k : Fin 256, x0 (ix2 p k) * x1 (ix2 k n) := by
  unfold k6_pay1
  simp only [shapeCast_self]
  exact Cert.LibMatmulNN.matmul_zero_apply _ rfl none _ _ p n

/-- The index maps over the 10 points: the row-block index of the input rows and of the output rows is the point's
    number, every column-block index and both block indices of the weight are 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The block of input rows at point `t`, read at `(r, k)`, is the input array at row `1000·t + r`, column `k`. -/
theorem blk6_0 (t : Fin cfg6.N) (r : Fin 1000) (k : Fin 256) (i : Fin 10000) (hi : i.val = 1000 * t.val + r.val) :
    (iblk6 V c 0 t : Vec Ideal S1000x256 .f32) (ix2 r k) = (V c main_v58 : FVec Ideal ⟨2, ![10000, 256]⟩ .f32) (ix2 i k) := by
  obtain ⟨e0, e1, -⟩ := idx6 t
  unfold iblk6
  rw [View.read_apply]
  show V c main_v58 _ = V c main_v58 _
  congr 1
  funext a
  apply Fin.ext
  match a with
  | ⟨0, _⟩ => show win6_0.index t 0 * 1000 + 1 * r.val = i.val; rw [e0, hi]; omega
  | ⟨1, _⟩ => show win6_0.index t 1 * 256 + 1 * k.val = k.val; rw [e1]; omega

/-- The weight's one block is the weight. -/
theorem blk6_1 (t : Fin cfg6.N) (k : Fin 256) (n : Fin 256) :
    (iblk6 V c 1 t : Vec Ideal S256x256 .f32) (ix2 k n) = (V c main_v60 : FVec Ideal ⟨2, ![256, 256]⟩ .f32) (ix2 k n) := by
  obtain ⟨-, -, e2, e3, -⟩ := idx6 t
  unfold iblk6
  rw [View.read_apply]
  show V c main_v60 _ = V c main_v60 _
  congr 1
  funext a
  apply Fin.ext
  match a with
  | ⟨0, _⟩ => show win6_1.index t 0 * 256 + 1 * k.val = k.val; rw [e2]; omega
  | ⟨1, _⟩ => show win6_1.index t 1 * 256 + 1 * n.val = n.val; rw [e3]; omega

/-- What point `t` writes back is block `t` of the product array: at `(r, n)` of the block, the sum over `k` of the input
    at `(1000·t + r, k)` times the weight at `(k, n)`. -/
theorem flushed6_eq (t : Fin cfg6.N) :
    (dat6 (F := Ideal) V c).flushed 2 t
      = ((cfg6.win 2).blk t).view.read (Elt Ideal) (Cert.Spec.linG (V c main_v58) (V c main_v60)) := by
  show (cfg6.win 2).cut (grid6.coords t) ((dat6 V c).after 2 t) = _
  rw [after6_2]
  unfold out6_2
  rw [View.canon_unit_zero hzLin]
  simp only [View.ld_unit_zero (S := S1000x256) hzLin, View.ld_unit_zero (S := S256x256) hzLin]
  refine Cert.Spec.ext2 (n0 := 1000) (n1 := 256) (α := EReal) _ _ fun p q => ?_
  obtain ⟨-, -, -, -, e4, e5⟩ := idx6 t
  have hN : cfg6.N = 10 := N_6
  have ht : t.val < 10 := hN ▸ t.isLt
  have hx : (cfg6.win 2).xinj (grid6.coords t) (ix2 p q) = ix2 p q :=
    funext fun a => by match a with | ⟨0, _⟩ => rfl | ⟨1, _⟩ => rfl
  have he : ((cfg6.win 2).blk t).view.emb (ix2 p q) = ix2 (⟨1000 * t.val + p.val, by omega⟩ : Fin 10000) q := by
    funext a
    apply Fin.ext
    match a with
    | ⟨0, _⟩ => show win6_2.index t 0 * 1000 + 1 * p.val = 1000 * t.val + p.val; rw [e4]; omega
    | ⟨1, _⟩ => show win6_2.index t 1 * 256 + 1 * q.val = q.val; rw [e5]; omega
  show k6_pay1 (F := Ideal) (iblk6 V c 0 t) (iblk6 V c 1 t) ((cfg6.win 2).xinj (grid6.coords t) (ix2 p q))
    = Cert.Spec.linG (V c main_v58) (V c main_v60) (((cfg6.win 2).blk t).view.emb (ix2 p q))
  rw [hx, he]
  refine (pay_lin6 _ _ p q).trans ?_
  rw [Cert.Spec.linG_ix2]
  unfold Cert.Spec.linAt
  refine Finset.sum_congr rfl fun k _ => ?_
  rw [blk6_0 V c t p k ⟨1000 * t.val + p.val, by omega⟩ rfl, blk6_1 V c t k q]

/-- An entry of the output lies in point `t`'s block iff each coordinate lies in the block's range on its axis. -/
theorem mem_blk6 (t : Fin cfg6.N) (i : (⟨2, ![10000, 256]⟩ : Shape).Idx) :
    i ∈ ((cfg6.win 2).blk t).view.set ↔ ∀ a : Fin 2, win6_2.index t a * S1000x256.size a ≤ (i a).val ∧ (i a).val < win6_2.index t a * S1000x256.size a + S1000x256.size a := by
  show i ∈ ((View.whole main_v61).slice (win6_2.rect t)).set ↔ _
  rw [View.set_slice_whole, Rect.mem_set_unit]
  exact Iff.rfl

/-- Every entry `(p, n)` of the output lies in the block of the point `p / 1000`. -/
theorem cover6 (i : (⟨2, ![10000, 256]⟩ : Shape).Idx) :
    ∃ t : Fin cfg6.N, (cfg6.win 2).flush t = true ∧ i ∈ ((cfg6.win 2).blk t).view.set := by
  have hi0 : (i 0).val < 10000 := (i 0).isLt
  have hi1 : (i 1).val < 256 := (i 1).isLt
  have hN : cfg6.N = 10 := N_6
  refine ⟨⟨(i 0).val / 1000, by rw [hN]; omega⟩, flush6_2 _, ?_⟩
  rw [mem_blk6]
  obtain ⟨-, -, -, -, e4, e5⟩ := idx6 ⟨(i 0).val / 1000, by rw [hN]; omega⟩
  intro a
  match a with
  | ⟨0, _⟩ => show win6_2.index _ (0 : Fin 2) * 1000 ≤ (i 0).val ∧ (i 0).val < win6_2.index _ (0 : Fin 2) * 1000 + 1000; rw [e4]; show (i 0).val / 1000 * 1000 ≤ _ ∧ _ < (i 0).val / 1000 * 1000 + 1000; omega
  | ⟨1, _⟩ => show win6_2.index _ (1 : Fin 2) * 256 ≤ (i 1).val ∧ (i 1).val < win6_2.index _ (1 : Fin 2) * 256 + 256; rw [e5]; omega

/-- The output array after the last point is the product array. -/
theorem lin6_final : (Gen.dat6 (F := Ideal) V c).arrAt 2 cfg6.N = Cert.Spec.linG (V c main_v58) (V c main_v60) :=
  (dat6 (F := Ideal) V c).arrAt_eq_of_cover 2 (Cert.Spec.linG (V c main_v58) (V c main_v60))
    (fun t _ => flushed6_eq V c t) (cover6)

/-! ## Linear transform of region 8: `main_v75` times `main_v77` -/

/-- The body's value at entry `(p, n)` of the block: row `p` of the block of rows against column `n` of the weight. -/
theorem pay_lin8 (x0 : Vec Ideal S1000x256 .f32) (x1 : Vec Ideal S256x256 .f32) (p : Fin 1000) (n : Fin 256) :
    k8_pay1 (F := Ideal) x0 x1 (ix2 p n) = ∑ k : Fin 256, x0 (ix2 p k) * x1 (ix2 k n) := by
  unfold k8_pay1
  simp only [shapeCast_self]
  exact Cert.LibMatmulNN.matmul_zero_apply _ rfl none _ _ p n

/-- The index maps over the 10 points: the row-block index of the input rows and of the output rows is the point's
    number, every column-block index and both block indices of the weight are 0. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The block of input rows at point `t`, read at `(r, k)`, is the input array at row `1000·t + r`, column `k`. -/
theorem blk8_0 (t : Fin cfg8.N) (r : Fin 1000) (k : Fin 256) (i : Fin 10000) (hi : i.val = 1000 * t.val + r.val) :
    (iblk8 V c 0 t : Vec Ideal S1000x256 .f32) (ix2 r k) = (V c main_v75 : FVec Ideal ⟨2, ![10000, 256]⟩ .f32) (ix2 i k) := by
  obtain ⟨e0, e1, -⟩ := idx8 t
  unfold iblk8
  rw [View.read_apply]
  show V c main_v75 _ = V c main_v75 _
  congr 1
  funext a
  apply Fin.ext
  match a with
  | ⟨0, _⟩ => show win8_0.index t 0 * 1000 + 1 * r.val = i.val; rw [e0, hi]; omega
  | ⟨1, _⟩ => show win8_0.index t 1 * 256 + 1 * k.val = k.val; rw [e1]; omega

/-- The weight's one block is the weight. -/
theorem blk8_1 (t : Fin cfg8.N) (k : Fin 256) (n : Fin 256) :
    (iblk8 V c 1 t : Vec Ideal S256x256 .f32) (ix2 k n) = (V c main_v77 : FVec Ideal ⟨2, ![256, 256]⟩ .f32) (ix2 k n) := by
  obtain ⟨-, -, e2, e3, -⟩ := idx8 t
  unfold iblk8
  rw [View.read_apply]
  show V c main_v77 _ = V c main_v77 _
  congr 1
  funext a
  apply Fin.ext
  match a with
  | ⟨0, _⟩ => show win8_1.index t 0 * 256 + 1 * k.val = k.val; rw [e2]; omega
  | ⟨1, _⟩ => show win8_1.index t 1 * 256 + 1 * n.val = n.val; rw [e3]; omega

/-- What point `t` writes back is block `t` of the product array: at `(r, n)` of the block, the sum over `k` of the input
    at `(1000·t + r, k)` times the weight at `(k, n)`. -/
theorem flushed8_eq (t : Fin cfg8.N) :
    (dat8 (F := Ideal) V c).flushed 2 t
      = ((cfg8.win 2).blk t).view.read (Elt Ideal) (Cert.Spec.linG (V c main_v75) (V c main_v77)) := by
  show (cfg8.win 2).cut (grid8.coords t) ((dat8 V c).after 2 t) = _
  rw [after8_2]
  unfold out8_2
  rw [View.canon_unit_zero hzLin]
  simp only [View.ld_unit_zero (S := S1000x256) hzLin, View.ld_unit_zero (S := S256x256) hzLin]
  refine Cert.Spec.ext2 (n0 := 1000) (n1 := 256) (α := EReal) _ _ fun p q => ?_
  obtain ⟨-, -, -, -, e4, e5⟩ := idx8 t
  have hN : cfg8.N = 10 := N_8
  have ht : t.val < 10 := hN ▸ t.isLt
  have hx : (cfg8.win 2).xinj (grid8.coords t) (ix2 p q) = ix2 p q :=
    funext fun a => by match a with | ⟨0, _⟩ => rfl | ⟨1, _⟩ => rfl
  have he : ((cfg8.win 2).blk t).view.emb (ix2 p q) = ix2 (⟨1000 * t.val + p.val, by omega⟩ : Fin 10000) q := by
    funext a
    apply Fin.ext
    match a with
    | ⟨0, _⟩ => show win8_2.index t 0 * 1000 + 1 * p.val = 1000 * t.val + p.val; rw [e4]; omega
    | ⟨1, _⟩ => show win8_2.index t 1 * 256 + 1 * q.val = q.val; rw [e5]; omega
  show k8_pay1 (F := Ideal) (iblk8 V c 0 t) (iblk8 V c 1 t) ((cfg8.win 2).xinj (grid8.coords t) (ix2 p q))
    = Cert.Spec.linG (V c main_v75) (V c main_v77) (((cfg8.win 2).blk t).view.emb (ix2 p q))
  rw [hx, he]
  refine (pay_lin8 _ _ p q).trans ?_
  rw [Cert.Spec.linG_ix2]
  unfold Cert.Spec.linAt
  refine Finset.sum_congr rfl fun k _ => ?_
  rw [blk8_0 V c t p k ⟨1000 * t.val + p.val, by omega⟩ rfl, blk8_1 V c t k q]

/-- An entry of the output lies in point `t`'s block iff each coordinate lies in the block's range on its axis. -/
theorem mem_blk8 (t : Fin cfg8.N) (i : (⟨2, ![10000, 256]⟩ : Shape).Idx) :
    i ∈ ((cfg8.win 2).blk t).view.set ↔ ∀ a : Fin 2, win8_2.index t a * S1000x256.size a ≤ (i a).val ∧ (i a).val < win8_2.index t a * S1000x256.size a + S1000x256.size a := by
  show i ∈ ((View.whole main_v78).slice (win8_2.rect t)).set ↔ _
  rw [View.set_slice_whole, Rect.mem_set_unit]
  exact Iff.rfl

/-- Every entry `(p, n)` of the output lies in the block of the point `p / 1000`. -/
theorem cover8 (i : (⟨2, ![10000, 256]⟩ : Shape).Idx) :
    ∃ t : Fin cfg8.N, (cfg8.win 2).flush t = true ∧ i ∈ ((cfg8.win 2).blk t).view.set := by
  have hi0 : (i 0).val < 10000 := (i 0).isLt
  have hi1 : (i 1).val < 256 := (i 1).isLt
  have hN : cfg8.N = 10 := N_8
  refine ⟨⟨(i 0).val / 1000, by rw [hN]; omega⟩, flush8_2 _, ?_⟩
  rw [mem_blk8]
  obtain ⟨-, -, -, -, e4, e5⟩ := idx8 ⟨(i 0).val / 1000, by rw [hN]; omega⟩
  intro a
  match a with
  | ⟨0, _⟩ => show win8_2.index _ (0 : Fin 2) * 1000 ≤ (i 0).val ∧ (i 0).val < win8_2.index _ (0 : Fin 2) * 1000 + 1000; rw [e4]; show (i 0).val / 1000 * 1000 ≤ _ ∧ _ < (i 0).val / 1000 * 1000 + 1000; omega
  | ⟨1, _⟩ => show win8_2.index _ (1 : Fin 2) * 256 ≤ (i 1).val ∧ (i 1).val < win8_2.index _ (1 : Fin 2) * 256 + 256; rw [e5]; omega

/-- The output array after the last point is the product array. -/
theorem lin8_final : (Gen.dat8 (F := Ideal) V c).arrAt 2 cfg8.N = Cert.Spec.linG (V c main_v75) (V c main_v77) :=
  (dat8 (F := Ideal) V c).arrAt_eq_of_cover 2 (Cert.Spec.linG (V c main_v75) (V c main_v77))
    (fun t _ => flushed8_eq V c t) (cover8)

end Cert.KernelIdeal.Val
end
-- ==== Proof.KGru.lean ====
/-
  The five gated updates of the network, each as one array.

  A gated update takes the aggregated messages a and the node states h (each 10000 rows of 256 features), the two gate
  weights already transposed, WiT and WhT (256×768), and the two gate biases bi and bh as single rows (1×768), and
  produces the new states h'.  With gi = a · WiT + bi and gh = h · WhT + bh (10000×768, the three gates in columns
  0…255, 256…511 and 512…767) and σ x = 1 / (1 + e^(−x)):

      r = σ(gi[p, q] + gh[p, q]),   z = σ(gi[p, 256 + q] + gh[p, 256 + q]),
      n = tanh(gi[p, 512 + q] + r · gh[p, 512 + q]),   h'[p, q] = (1 − z) · n + z · h[p, q].

  The rows are cut into 10 blocks of 1000: point t of the grid reads rows 1000·t … 1000·t + 999 of a and of h (all 256
  columns) and the whole of the two weights and the two bias rows, forms the two 1000×768 products over the extended
  reals (a change of float format is the identity there, and each product is accumulated into zero), adds the bias row
  to every row, cuts the three gates out at columns 0, 256 and 512, applies the formulas above entry by entry, and
  writes the 1000×256 result back as rows 1000·t … 1000·t + 999 of the output.

  So entry (p, q) of the output depends on row p of a and of h alone, on columns q, 256 + q and 512 + q of the weights
  and of the biases: it is written by the one point t = p / 1000, at row p − 1000·t of that point's block, and its
  value there is the specification's `gruG a h WiT WhT bi bh` at (p, q).  The 10 blocks tile the 10000 rows, so the
  output array after the last point is `gruG …` everywhere, whatever it held before.

  First, for any block: the 768 pre-activations of a block at an entry, a gate cut out of them at an entry, and the body's
  value at an entry as the gated update of six pre-activations of the block.  Then per update: the index maps decided
  over the 10 points (the row block index is t, every other block index is 0); a block of rows read at (r, k) is the
  array at (1000·t + r, k), a weight's or a bias's one block is the whole of it; a block's pre-activation is the
  array's at row 1000·t + r; what point t writes back is block t of `gruG`; every row lies in the block of the point
  p / 1000; hence the final array.  The five updates differ only in which arrays they read and write.
-/
import proofs.«155903_j60266981097696_1_alg».proof.Proof.Gen.KernelIdeal.Frame
import proofs.«155903_j60266981097696_1_alg».proof.Proof.Spec
import proofs.«155903_j60266981097696_1_alg».proof.Proof.LibMatmulNN
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open Idealize.ShloMosaic Idealize.ShloMosaic.TcCoe Idealize.ShloMosaic.ValueIdx Idealize.SL.Sem Cert.KernelIdeal Cert.KernelIdeal.Gen
open Idealize.ShloMosaic.Pipeline (Dat)

namespace Cert.KernelIdeal.Val

variable (V : (c : Dev nD) → (b : Ref sig .tc) → Buf (Elt Ideal) ((c : Thread nD τ).loc b)) (c : Dev nD)

/-- The zero offsets of a whole-block access, as a constant function. -/
theorem hzGru : (![0, 0] : Fin 2 → Nat) = fun _ => 0 := funext fun a => by fin_cases a <;> rfl

/-- The 768 gate pre-activations of a block of 1000 rows: the rows times the transposed gate weight, plus the bias row. -/
def gates (x : Vec Ideal S1000x256 .f32) (w : Vec Ideal S256x768 .f32) (b : Vec Ideal S1x768 .f32) : FVec Ideal S1000x768 .f32 :=
  addf (matmul (F := Ideal) dot_S1000x256_S256x768_S1000x768_1_0_0_1_n_n none (truncf .bf16 x bitsLt_bf16_f32) (truncf .bf16 w bitsLt_bf16_f32) (constant (F := Ideal) S1000x768 .f32 0x00000000#32))
    (broadcastTo S1000x768 b broadcasts_S1x768_S1000x768)

/-- A gate pre-activation of a block at `(p, j)`: row `p` of the block against column `j` of the weight, plus the bias at `j`. -/
def bpre (x : Vec Ideal S1000x256 .f32) (w : Vec Ideal S256x768 .f32) (b : Vec Ideal S1x768 .f32) (p : Fin 1000) (j : Fin 768) : EReal :=
  (∑ k : Fin 256, x (ix2 p k) * w (ix2 k j)) + b (ix2 (0 : Fin 1) j)

/-- The pre-activations of a block at `(p, j)`: the product's entry there plus the one bias row at `j`. -/
theorem gates_apply (x : Vec Ideal S1000x256 .f32) (w : Vec Ideal S256x768 .f32) (b : Vec Ideal S1x768 .f32) (p : Fin 1000) (j : Fin 768) :
    gates x w b (ix2 p j) = bpre x w b p j := by
  show matmul (F := Ideal) _ none _ _ _ (ix2 p j) + broadcastTo S1000x768 b broadcasts_S1x768_S1000x768 (ix2 p j) = _
  rw [broadcastTo_1b_ab_apply]
  exact congrArg (· + b (ix2 (0 : Fin 1) j)) (Cert.LibMatmulNN.matmul_zero_apply _ rfl none _ _ p j)

/-- The gate that starts at column `o`, cut out of the 768 pre-activations, at `(p, q)` is the pre-activation at column `o + q`. -/
theorem slice_gates (o : Nat) (ho : o + 256 ≤ 768) (x : Vec Ideal S1000x256 .f32) (w : Vec Ideal S256x768 .f32) (b : Vec Ideal S1x768 .f32)
    (h : S1000x768.Slices ![0, o] S1000x256) (p : Fin 1000) (q : Fin 256) :
    extractStridedSlice S1000x256 ![0, o] (gates x w b) h (ix2 p q) = bpre x w b p (Cert.Spec.gateCol o ho q) :=
  (slice2_axis1_apply o (gates x w b) h p q (Cert.Spec.gateCol o ho q) rfl).trans (gates_apply x w b p _)

/-- The gated update of a block at `(p, q)` from its six gate pre-activations and the old state there. -/
theorem cell_block (x0 x1 : Vec Ideal S1000x256 .f32) (x2 x3 : Vec Ideal S256x768 .f32) (x4 x5 : Vec Ideal S1x768 .f32)
    (x6 : Vec Ideal S1000x256 .f32) (p : Fin 1000) (q : Fin 256) :
    (Ideal.ofBits .f32 0x3F800000#32
        - Ideal.logistic (extractStridedSlice S1000x256 ![0, 256] (gates x0 x2 x4) slices_S1000x768_o0_256_S1000x256 (ix2 p q)
            + extractStridedSlice S1000x256 ![0, 256] (gates x1 x3 x5) slices_S1000x768_o0_256_S1000x256 (ix2 p q)))
      * Ideal.tanh (extractStridedSlice S1000x256 ![0, 512] (gates x0 x2 x4) slices_S1000x768_o0_512_S1000x256 (ix2 p q)
          + Ideal.logistic (extractStridedSlice S1000x256 ![0, 0] (gates x0 x2 x4) slices_S1000x768_o0_0_S1000x256 (ix2 p q)
              + extractStridedSlice S1000x256 ![0, 0] (gates x1 x3 x5) slices_S1000x768_o0_0_S1000x256 (ix2 p q))
            * extractStridedSlice S1000x256 ![0, 512] (gates x1 x3 x5) slices_S1000x768_o0_512_S1000x256 (ix2 p q))
      + Ideal.logistic (extractStridedSlice S1000x256 ![0, 256] (gates x0 x2 x4) slices_S1000x768_o0_256_S1000x256 (ix2 p q)
            + extractStridedSlice S1000x256 ![0, 256] (gates x1 x3 x5) slices_S1000x768_o0_256_S1000x256 (ix2 p q))
        * x6 (ix2 p q)
    = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  rw [Ideal.ofBits_one_f32, slice_gates 0 (by omega), slice_gates 0 (by omega), slice_gates 256 (by omega), slice_gates 256 (by omega),
    slice_gates 512 (by omega), slice_gates 512 (by omega)]
  rfl

/-! ## Gated update of region 1: aggregated `main_v23`, state `main_arg0` -/

/-- The body's value at entry `(p, q)` of the block: the gated update from the six gate pre-activations of the block's rows. -/
theorem pay_gru1 (x0 x1 : Vec Ideal S1000x256 .f32) (x2 x3 : Vec Ideal S256x768 .f32) (x4 x5 : Vec Ideal S1x768 .f32)
    (x6 : Vec Ideal S1000x256 .f32) (p : Fin 1000) (q : Fin 256) :
    k1_pay1 (F := Ideal) x0 x1 x2 x3 x4 x5 x6 (ix2 p q)
      = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  unfold k1_pay1
  simp only [shapeCast_self]
  exact cell_block x0 x1 x2 x3 x4 x5 x6 p q

/-- The index maps over the 10 points: the row-block index of the two row inputs and of the output is the point's number,
    every column-block index and every block index of the two weights and the two bias rows is 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of aggregated rows at point `t`, read at `(r, k)`, is the aggregated array at row `1000·t + r`, column `k`. -/
theorem blk1_0 (t : Fin cfg1.N) (r : Fin 1000) (k : Fin 256) (i : Fin 10000) (hi : i.val = 1000 * t.val + r.val) :
    (iblk1 V c 0 t : Vec Ideal S1000x256 .f32) (ix2 r k) = (V c main_v23 : FVec Ideal ⟨2, ![10000, 256]⟩ .f32) (ix2 i k) := by
  obtain ⟨e0, e1, -⟩ := idx1 t
  unfold iblk1
  rw [View.read_apply]
  show V c main_v23 _ = V c main_v23 _
  congr 1
  funext a
  apply Fin.ext
  match a with
  | ⟨0, _⟩ => show win1_0.index t 0 * 1000 + 1 * r.val = i.val; rw [e0, hi]; omega
  | ⟨1, _⟩ => show win1_0.index t 1 * 256 + 1 * k.val = k.val; rw [e1]; omega

/-- The block of state rows at point `t`, read at `(r, k)`, is the state array at row `1000·t + r`, column `k`. -/
theorem blk1_1 (t : Fin cfg1.N) (r : Fin 1000) (k : Fin 256) (i : Fin 10000) (hi : i.val = 1000 * t.val + r.val) :
    (iblk1 V c 1 t : Vec Ideal S1000x256 .f32) (ix2 r k) = (V c main_arg0 : FVec Ideal ⟨2, ![10000, 256]⟩ .f32) (ix2 i k) := by
  obtain ⟨-, -, e0, e1, -⟩ := idx1 t
  unfold iblk1
  rw [View.read_apply]
  show V c main_arg0 _ = V c main_arg0 _
  congr 1
  funext a
  apply Fin.ext
  match a with
  | ⟨0, _⟩ => show win1_1.index t 0 * 1000 + 1 * r.val = i.val; rw [e0, hi]; omega
  | ⟨1, _⟩ => show win1_1.index t 1 * 256 + 1 * k.val = k.val; rw [e1]; omega

/-- The input gate weight's one block is the weight. -/
theorem blk1_2 (t : Fin cfg1.N) (k : Fin 256) (j : Fin 768) :
    (iblk1 V c 2 t : Vec Ideal S256x768 .f32) (ix2 k j) = (V c main_v4 : FVec Ideal ⟨2, ![256, 768]⟩ .f32) (ix2 k j) := by
  obtain ⟨-, -, -, -, e0, e1, -⟩ := idx1 t
  unfold iblk1
  rw [View.read_apply]
  show V c main_v4 _ = V c main_v4 _
  congr 1
  funext a
  apply Fin.ext
  match a with
  | ⟨0, _⟩ => show win1_2.index t 0 * 256 + 1 * k.val = k.val; rw [e0]; omega
  | ⟨1, _⟩ => show win1_2.index t 1 * 768 + 1 * j.val = j.val; rw [e1]; omega

/-- The state gate weight's one block is the weight. -/
theorem blk1_3 (t : Fin cfg1.N) (k : Fin 256) (j : Fin 768) :
    (iblk1 V c 3 t : Vec Ideal S256x768 .f32) (ix2 k j) = (V c main_v5 : FVec Ideal ⟨2, ![256, 768]⟩ .f32) (ix2 k j) := by
  obtain ⟨-, -, -, -, -, -, e0, e1, -⟩ := idx1 t
  unfold iblk1
  rw [View.read_apply]
  show V c main_v5 _ = V c main_v5 _
  congr 1
  funext a
  apply Fin.ext
  match a with
  | ⟨0, _⟩ => show win1_3.index t 0 * 256 + 1 * k.val = k.val; rw [e0]; omega
  | ⟨1, _⟩ => show win1_3.index t 1 * 768 + 1 * j.val = j.val; rw [e1]; omega

/-- The input gate bias's one block is the bias row. -/
theorem blk1_4 (t : Fin cfg1.N) (z : Fin 1) (j : Fin 768) :
    (iblk1 V c 4 t : Vec Ideal S1x768 .f32) (ix2 z j) = (V c main_v6 : FVec Ideal ⟨2, ![1, 768]⟩ .f32) (ix2 z j) := by
  obtain ⟨-, -, -, -, -, -, -, -, e0, e1, -⟩ := idx1 t
  unfold iblk1
  rw [View.read_apply]
  show V c main_v6 _ = V c main_v6 _
  congr 1
  funext a
  apply Fin.ext
  match a with
  | ⟨0, _⟩ => show win1_4.index t 0 * 1 + 1 * z.val = z.val; rw [e0]; omega
  | ⟨1, _⟩ => show win1_4.index t 1 * 768 + 1 * j.val = j.val; rw [e1]; omega

/-- The state gate bias's one block is the bias row. -/
theorem blk1_5 (t : Fin cfg1.N) (z : Fin 1) (j : Fin 768) :
    (iblk1 V c 5 t : Vec Ideal S1x768 .f32) (ix2 z j) = (V c main_v7 : FVec Ideal ⟨2, ![1, 768]⟩ .f32) (ix2 z j) := by
  obtain ⟨-, -, -, -, -, -, -, -, -, -, e0, e1, -⟩ := idx1 t
  unfold iblk1
  rw [View.read_apply]
  show V c main_v7 _ = V c main_v7 _
  congr 1
  funext a
  apply Fin.ext
  match a with
  | ⟨0, _⟩ => show win1_5.index t 0 * 1 + 1 * z.val = z.val; rw [e0]; omega
  | ⟨1, _⟩ => show win1_5.index t 1 * 768 + 1 * j.val = j.val; rw [e1]; omega

/-- A gate pre-activation of the aggregated block at point `t` is the array's pre-activation at row `1000·t + p`. -/
theorem bpre1_i (t : Fin cfg1.N) (p : Fin 1000) (j : Fin 768) (i : Fin 10000) (hi : i.val = 1000 * t.val + p.val) :
    bpre (iblk1 V c 0 t) (iblk1 V c 2 t) (iblk1 V c 4 t) p j = Cert.Spec.pre (V c main_v23) (V c main_v4) (V c main_v6) i j := by
  unfold bpre Cert.Spec.pre
  rw [blk1_4 V c t 0 j]
  refine congrArg (· + (V c main_v6 : FVec Ideal ⟨2, ![1, 768]⟩ .f32) (ix2 (0 : Fin 1) j)) (Finset.sum_congr rfl fun k _ => ?_)
  rw [blk1_0 V c t p k i hi, blk1_2 V c t k j]

/-- A gate pre-activation of the state block at point `t` is the array's pre-activation at row `1000·t + p`. -/
theorem bpre1_h (t : Fin cfg1.N) (p : Fin 1000) (j : Fin 768) (i : Fin 10000) (hi : i.val = 1000 * t.val + p.val) :
    bpre (iblk1 V c 1 t) (iblk1 V c 3 t) (iblk1 V c 5 t) p j = Cert.Spec.pre (V c main_arg0) (V c main_v5) (V c main_v7) i j := by
  unfold bpre Cert.Spec.pre
  rw [blk1_5 V c t 0 j]
  refine congrArg (· + (V c main_v7 : FVec Ideal ⟨2, ![1, 768]⟩ .f32) (ix2 (0 : Fin 1) j)) (Finset.sum_congr rfl fun k _ => ?_)
  rw [blk1_1 V c t p k i hi, blk1_3 V c t k j]

/-- What point `t` writes back is block `t` of the updated state array: at `(r, q)` of the block, the gated update of row
    `1000·t + r`, feature `q`. -/
theorem flushed1_eq (t : Fin cfg1.N) :
    (dat1 (F := Ideal) V c).flushed 6 t
      = ((cfg1.win 6).blk t).view.read (Elt Ideal)
          (Cert.Spec.gruG (V c main_v23) (V c main_arg0) (V c main_v4) (V c main_v5) (V c main_v6) (V c main_v7)) := by
  show (cfg1.win 6).cut (grid1.coords t) ((dat1 V c).after 6 t) = _
  rw [after1_6]
  unfold out1_6
  rw [View.canon_unit_zero hzGru]
  simp only [View.ld_unit_zero (S := S1000x256) hzGru, View.ld_unit_zero (S := S256x768) hzGru, View.ld_unit_zero (S := S1x768) hzGru]
  refine Cert.Spec.ext2 (n0 := 1000) (n1 := 256) (α := EReal) _ _ fun p q => ?_
  obtain ⟨-, -, -, -, -, -, -, -, -, -, -, -, e4, e5⟩ := idx1 t
  have hN : cfg1.N = 10 := N_1
  have ht : t.val < 10 := hN ▸ t.isLt
  have hx : (cfg1.win 6).xinj (grid1.coords t) (ix2 p q) = ix2 p q :=
    funext fun a => by match a with | ⟨0, _⟩ => rfl | ⟨1, _⟩ => rfl
  have he : ((cfg1.win 6).blk t).view.emb (ix2 p q) = ix2 (⟨1000 * t.val + p.val, by omega⟩ : Fin 10000) q := by
    funext a
    apply Fin.ext
    match a with
    | ⟨0, _⟩ => show win1_6.index t 0 * 1000 + 1 * p.val = 1000 * t.val + p.val; rw [e4]; omega
    | ⟨1, _⟩ => show win1_6.index t 1 * 256 + 1 * q.val = q.val; rw [e5]; omega
  show k1_pay1 (F := Ideal) (iblk1 V c 0 t) (iblk1 V c 1 t) (iblk1 V c 2 t) (iblk1 V c 3 t) (iblk1 V c 4 t) (iblk1 V c 5 t) (iblk1 V c 1 t)
      ((cfg1.win 6).xinj (grid1.coords t) (ix2 p q))
    = Cert.Spec.gruG (V c main_v23) (V c main_arg0) (V c main_v4) (V c main_v5) (V c main_v6) (V c main_v7) (((cfg1.win 6).blk t).view.emb (ix2 p q))
  rw [hx, he]
  refine (pay_gru1 _ _ _ _ _ _ _ p q).trans ?_
  rw [Cert.Spec.gruG_ix2]
  unfold Cert.Spec.gruAt
  rw [bpre1_i V c t p _ ⟨1000 * t.val + p.val, by omega⟩ rfl, bpre1_i V c t p _ ⟨1000 * t.val + p.val, by omega⟩ rfl,
    bpre1_i V c t p _ ⟨1000 * t.val + p.val, by omega⟩ rfl, bpre1_h V c t p _ ⟨1000 * t.val + p.val, by omega⟩ rfl,
    bpre1_h V c t p _ ⟨1000 * t.val + p.val, by omega⟩ rfl, bpre1_h V c t p _ ⟨1000 * t.val + p.val, by omega⟩ rfl,
    blk1_1 V c t p q ⟨1000 * t.val + p.val, by omega⟩ rfl]

/-- An entry of the output lies in point `t`'s block iff each coordinate lies in the block's range on its axis. -/
theorem mem_blk1 (t : Fin cfg1.N) (i : (⟨2, ![10000, 256]⟩ : Shape).Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_v24).slice (win1_6.rect t)).set ↔ _
  rw [View.set_slice_whole, Rect.mem_set_unit]
  exact Iff.rfl

/-- Every entry `(p, q)` of the output lies in the block of the point `p / 1000`. -/
theorem cover1 (i : (⟨2, ![10000, 256]⟩ : Shape).Idx) :
    ∃ t : Fin cfg1.N, (cfg1.win 6).flush t = true ∧ i ∈ ((cfg1.win 6).blk t).view.set := by
  have hi0 : (i 0).val < 10000 := (i 0).isLt
  have hi1 : (i 1).val < 256 := (i 1).isLt
  have hN : cfg1.N = 10 := N_1
  refine ⟨⟨(i 0).val / 1000, by rw [hN]; omega⟩, flush1_6 _, ?_⟩
  rw [mem_blk1]
  obtain ⟨-, -, -, -, -, -, -, -, -, -, -, -, e4, e5⟩ := idx1 ⟨(i 0).val / 1000, by rw [hN]; omega⟩
  intro a
  match a with
  | ⟨0, _⟩ => show win1_6.index _ (0 : Fin 2) * 1000 ≤ (i 0).val ∧ (i 0).val < win1_6.index _ (0 : Fin 2) * 1000 + 1000; rw [e4]; show (i 0).val / 1000 * 1000 ≤ _ ∧ _ < (i 0).val / 1000 * 1000 + 1000; omega
  | ⟨1, _⟩ => show win1_6.index _ (1 : Fin 2) * 256 ≤ (i 1).val ∧ (i 1).val < win1_6.index _ (1 : Fin 2) * 256 + 256; rw [e5]; omega

/-- The output array after the last point is the updated state array. -/
theorem gru1_final : (Gen.dat1 (F := Ideal) V c).arrAt 6 cfg1.N
    = Cert.Spec.gruG (V c main_v23) (V c main_arg0) (V c main_v4) (V c main_v5) (V c main_v6) (V c main_v7) :=
  (dat1 (F := Ideal) V c).arrAt_eq_of_cover 6
    (Cert.Spec.gruG (V c main_v23) (V c main_arg0) (V c main_v4) (V c main_v5) (V c main_v6) (V c main_v7))
    (fun t _ => flushed1_eq V c t) (cover1)

/-! ## Gated update of region 3: aggregated `main_v40`, state `main_v24` -/

/-- The body's value at entry `(p, q)` of the block: the gated update from the six gate pre-activations of the block's rows. -/
theorem pay_gru3 (x0 x1 : Vec Ideal S1000x256 .f32) (x2 x3 : Vec Ideal S256x768 .f32) (x4 x5 : Vec Ideal S1x768 .f32)
    (x6 : Vec Ideal S1000x256 .f32) (p : Fin 1000) (q : Fin 256) :
    k3_pay1 (F := Ideal) x0 x1 x2 x3 x4 x5 x6 (ix2 p q)
      = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  unfold k3_pay1
  simp only [shapeCast_self]
  exact cell_block x0 x1 x2 x3 x4 x5 x6 p q

/-- The index maps over the 10 points: the row-block index of the two row inputs and of the output is the point's number,
    every column-block index and every block index of the two weights and the two bias rows is 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The block of aggregated rows at point `t`, read at `(r, k)`, is the aggregated array at row `1000·t + r`, column `k`. -/
theorem blk3_0 (t : Fin cfg3.N) (r : Fin 1000) (k : Fin 256) (i : Fin 10000) (hi : i.val = 1000 * t.val + r.val) :
    (iblk3 V c 0 t : Vec Ideal S1000x256 .f32) (ix2 r k) = (V c main_v40 : FVec Ideal ⟨2, ![10000, 256]⟩ .f32) (ix2 i k) := by
  obtain ⟨e0, e1, -⟩ := idx3 t
  unfold iblk3
  rw [View.read_apply]
  show V c main_v40 _ = V c main_v40 _
  congr 1
  funext a
  apply Fin.ext
  match a with
  | ⟨0, _⟩ => show win3_0.index t 0 * 1000 + 1 * r.val = i.val; rw [e0, hi]; omega
  | ⟨1, _⟩ => show win3_0.index t 1 * 256 + 1 * k.val = k.val; rw [e1]; omega

/-- The block of state rows at point `t`, read at `(r, k)`, is the state array at row `1000·t + r`, column `k`. -/
theorem blk3_1 (t : Fin cfg3.N) (r : Fin 1000) (k : Fin 256) (i : Fin 10000) (hi : i.val = 1000 * t.val + r.val) :
    (iblk3 V c 1 t : Vec Ideal S1000x256 .f32) (ix2 r k) = (V c main_v24 : FVec Ideal ⟨2, ![10000, 256]⟩ .f32) (ix2 i k) := by
  obtain ⟨-, -, e0, e1, -⟩ := idx3 t
  unfold iblk3
  rw [View.read_apply]
  show V c main_v24 _ = V c main_v24 _
  congr 1
  funext a
  apply Fin.ext
  match a with
  | ⟨0, _⟩ => show win3_1.index t 0 * 1000 + 1 * r.val = i.val; rw [e0, hi]; omega
  | ⟨1, _⟩ => show win3_1.index t 1 * 256 + 1 * k.val = k.val; rw [e1]; omega

/-- The input gate weight's one block is the weight. -/
theorem blk3_2 (t : Fin cfg3.N) (k : Fin 256) (j : Fin 768) :
    (iblk3 V c 2 t : Vec Ideal S256x768 .f32) (ix2 k j) = (V c main_v4 : FVec Ideal ⟨2, ![256, 768]⟩ .f32) (ix2 k j) := by
  obtain ⟨-, -, -, -, e0, e1, -⟩ := idx3 t
  unfold iblk3
  rw [View.read_apply]
  show V c main_v4 _ = V c main_v4 _
  congr 1
  funext a
  apply Fin.ext
  match a with
  | ⟨0, _⟩ => show win3_2.index t 0 * 256 + 1 * k.val = k.val; rw [e0]; omega
  | ⟨1, _⟩ => show win3_2.index t 1 * 768 + 1 * j.val = j.val; rw [e1]; omega

/-- The state gate weight's one block is the weight. -/
theorem blk3_3 (t : Fin cfg3.N) (k : Fin 256) (j : Fin 768) :
    (iblk3 V c 3 t : Vec Ideal S256x768 .f32) (ix2 k j) = (V c main_v5 : FVec Ideal ⟨2, ![256, 768]⟩ .f32) (ix2 k j) := by
  obtain ⟨-, -, -, -, -, -, e0, e1, -⟩ := idx3 t
  unfold iblk3
  rw [View.read_apply]
  show V c main_v5 _ = V c main_v5 _
  congr 1
  funext a
  apply Fin.ext
  match a with
  | ⟨0, _⟩ => show win3_3.index t 0 * 256 + 1 * k.val = k.val; rw [e0]; omega
  | ⟨1, _⟩ => show win3_3.index t 1 * 768 + 1 * j.val = j.val; rw [e1]; omega

/-- The input gate bias's one block is the bias row. -/
theorem blk3_4 (t : Fin cfg3.N) (z : Fin 1) (j : Fin 768) :
    (iblk3 V c 4 t : Vec Ideal S1x768 .f32) (ix2 z j) = (V c main_v6 : FVec Ideal ⟨2, ![1, 768]⟩ .f32) (ix2 z j) := by
  obtain ⟨-, -, -, -, -, -, -, -, e0, e1, -⟩ := idx3 t
  unfold iblk3
  rw [View.read_apply]
  show V c main_v6 _ = V c main_v6 _
  congr 1
  funext a
  apply Fin.ext
  match a with
  | ⟨0, _⟩ => show win3_4.index t 0 * 1 + 1 * z.val = z.val; rw [e0]; omega
  | ⟨1, _⟩ => show win3_4.index t 1 * 768 + 1 * j.val = j.val; rw [e1]; omega

/-- The state gate bias's one block is the bias row. -/
theorem blk3_5 (t : Fin cfg3.N) (z : Fin 1) (j : Fin 768) :
    (iblk3 V c 5 t : Vec Ideal S1x768 .f32) (ix2 z j) = (V c main_v7 : FVec Ideal ⟨2, ![1, 768]⟩ .f32) (ix2 z j) := by
  obtain ⟨-, -, -, -, -, -, -, -, -, -, e0, e1, -⟩ := idx3 t
  unfold iblk3
  rw [View.read_apply]
  show V c main_v7 _ = V c main_v7 _
  congr 1
  funext a
  apply Fin.ext
  match a with
  | ⟨0, _⟩ => show win3_5.index t 0 * 1 + 1 * z.val = z.val; rw [e0]; omega
  | ⟨1, _⟩ => show win3_5.index t 1 * 768 + 1 * j.val = j.val; rw [e1]; omega

/-- A gate pre-activation of the aggregated block at point `t` is the array's pre-activation at row `1000·t + p`. -/
theorem bpre3_i (t : Fin cfg3.N) (p : Fin 1000) (j : Fin 768) (i : Fin 10000) (hi : i.val = 1000 * t.val + p.val) :
    bpre (iblk3 V c 0 t) (iblk3 V c 2 t) (iblk3 V c 4 t) p j = Cert.Spec.pre (V c main_v40) (V c main_v4) (V c main_v6) i j := by
  unfold bpre Cert.Spec.pre
  rw [blk3_4 V c t 0 j]
  refine congrArg (· + (V c main_v6 : FVec Ideal ⟨2, ![1, 768]⟩ .f32) (ix2 (0 : Fin 1) j)) (Finset.sum_congr rfl fun k _ => ?_)
  rw [blk3_0 V c t p k i hi, blk3_2 V c t k j]

/-- A gate pre-activation of the state block at point `t` is the array's pre-activation at row `1000·t + p`. -/
theorem bpre3_h (t : Fin cfg3.N) (p : Fin 1000) (j : Fin 768) (i : Fin 10000) (hi : i.val = 1000 * t.val + p.val) :
    bpre (iblk3 V c 1 t) (iblk3 V c 3 t) (iblk3 V c 5 t) p j = Cert.Spec.pre (V c main_v24) (V c main_v5) (V c main_v7) i j := by
  unfold bpre Cert.Spec.pre
  rw [blk3_5 V c t 0 j]
  refine congrArg (· + (V c main_v7 : FVec Ideal ⟨2, ![1, 768]⟩ .f32) (ix2 (0 : Fin 1) j)) (Finset.sum_congr rfl fun k _ => ?_)
  rw [blk3_1 V c t p k i hi, blk3_3 V c t k j]

/-- What point `t` writes back is block `t` of the updated state array: at `(r, q)` of the block, the gated update of row
    `1000·t + r`, feature `q`. -/
theorem flushed3_eq (t : Fin cfg3.N) :
    (dat3 (F := Ideal) V c).flushed 6 t
      = ((cfg3.win 6).blk t).view.read (Elt Ideal)
          (Cert.Spec.gruG (V c main_v40) (V c main_v24) (V c main_v4) (V c main_v5) (V c main_v6) (V c main_v7)) := by
  show (cfg3.win 6).cut (grid3.coords t) ((dat3 V c).after 6 t) = _
  rw [after3_6]
  unfold out3_6
  rw [View.canon_unit_zero hzGru]
  simp only [View.ld_unit_zero (S := S1000x256) hzGru, View.ld_unit_zero (S := S256x768) hzGru, View.ld_unit_zero (S := S1x768) hzGru]
  refine Cert.Spec.ext2 (n0 := 1000) (n1 := 256) (α := EReal) _ _ fun p q => ?_
  obtain ⟨-, -, -, -, -, -, -, -, -, -, -, -, e4, e5⟩ := idx3 t
  have hN : cfg3.N = 10 := N_3
  have ht : t.val < 10 := hN ▸ t.isLt
  have hx : (cfg3.win 6).xinj (grid3.coords t) (ix2 p q) = ix2 p q :=
    funext fun a => by match a with | ⟨0, _⟩ => rfl | ⟨1, _⟩ => rfl
  have he : ((cfg3.win 6).blk t).view.emb (ix2 p q) = ix2 (⟨1000 * t.val + p.val, by omega⟩ : Fin 10000) q := by
    funext a
    apply Fin.ext
    match a with
    | ⟨0, _⟩ => show win3_6.index t 0 * 1000 + 1 * p.val = 1000 * t.val + p.val; rw [e4]; omega
    | ⟨1, _⟩ => show win3_6.index t 1 * 256 + 1 * q.val = q.val; rw [e5]; omega
  show k3_pay1 (F := Ideal) (iblk3 V c 0 t) (iblk3 V c 1 t) (iblk3 V c 2 t) (iblk3 V c 3 t) (iblk3 V c 4 t) (iblk3 V c 5 t) (iblk3 V c 1 t)
      ((cfg3.win 6).xinj (grid3.coords t) (ix2 p q))
    = Cert.Spec.gruG (V c main_v40) (V c main_v24) (V c main_v4) (V c main_v5) (V c main_v6) (V c main_v7) (((cfg3.win 6).blk t).view.emb (ix2 p q))
  rw [hx, he]
  refine (pay_gru3 _ _ _ _ _ _ _ p q).trans ?_
  rw [Cert.Spec.gruG_ix2]
  unfold Cert.Spec.gruAt
  rw [bpre3_i V c t p _ ⟨1000 * t.val + p.val, by omega⟩ rfl, bpre3_i V c t p _ ⟨1000 * t.val + p.val, by omega⟩ rfl,
    bpre3_i V c t p _ ⟨1000 * t.val + p.val, by omega⟩ rfl, bpre3_h V c t p _ ⟨1000 * t.val + p.val, by omega⟩ rfl,
    bpre3_h V c t p _ ⟨1000 * t.val + p.val, by omega⟩ rfl, bpre3_h V c t p _ ⟨1000 * t.val + p.val, by omega⟩ rfl,
    blk3_1 V c t p q ⟨1000 * t.val + p.val, by omega⟩ rfl]

/-- An entry of the output lies in point `t`'s block iff each coordinate lies in the block's range on its axis. -/
theorem mem_blk3 (t : Fin cfg3.N) (i : (⟨2, ![10000, 256]⟩ : Shape).Idx) :
    i ∈ ((cfg3.win 6).blk t).view.set ↔ ∀ a : Fin 2, win3_6.index t a * S1000x256.size a ≤ (i a).val ∧ (i a).val < win3_6.index t a * S1000x256.size a + S1000x256.size a := by
  show i ∈ ((View.whole main_v41).slice (win3_6.rect t)).set ↔ _
  rw [View.set_slice_whole, Rect.mem_set_unit]
  exact Iff.rfl

/-- Every entry `(p, q)` of the output lies in the block of the point `p / 1000`. -/
theorem cover3 (i : (⟨2, ![10000, 256]⟩ : Shape).Idx) :
    ∃ t : Fin cfg3.N, (cfg3.win 6).flush t = true ∧ i ∈ ((cfg3.win 6).blk t).view.set := by
  have hi0 : (i 0).val < 10000 := (i 0).isLt
  have hi1 : (i 1).val < 256 := (i 1).isLt
  have hN : cfg3.N = 10 := N_3
  refine ⟨⟨(i 0).val / 1000, by rw [hN]; omega⟩, flush3_6 _, ?_⟩
  rw [mem_blk3]
  obtain ⟨-, -, -, -, -, -, -, -, -, -, -, -, e4, e5⟩ := idx3 ⟨(i 0).val / 1000, by rw [hN]; omega⟩
  intro a
  match a with
  | ⟨0, _⟩ => show win3_6.index _ (0 : Fin 2) * 1000 ≤ (i 0).val ∧ (i 0).val < win3_6.index _ (0 : Fin 2) * 1000 + 1000; rw [e4]; show (i 0).val / 1000 * 1000 ≤ _ ∧ _ < (i 0).val / 1000 * 1000 + 1000; omega
  | ⟨1, _⟩ => show win3_6.index _ (1 : Fin 2) * 256 ≤ (i 1).val ∧ (i 1).val < win3_6.index _ (1 : Fin 2) * 256 + 256; rw [e5]; omega

/-- The output array after the last point is the updated state array. -/
theorem gru3_final : (Gen.dat3 (F := Ideal) V c).arrAt 6 cfg3.N
    = Cert.Spec.gruG (V c main_v40) (V c main_v24) (V c main_v4) (V c main_v5) (V c main_v6) (V c main_v7) :=
  (dat3 (F := Ideal) V c).arrAt_eq_of_cover 6
    (Cert.Spec.gruG (V c main_v40) (V c main_v24) (V c main_v4) (V c main_v5) (V c main_v6) (V c main_v7))
    (fun t _ => flushed3_eq V c t) (cover3)

/-! ## Gated update of region 5: aggregated `main_v57`, state `main_v41` -/

/-- The body's value at entry `(p, q)` of the block: the gated update from the six gate pre-activations of the block's rows. -/
theorem pay_gru5 (x0 x1 : Vec Ideal S1000x256 .f32) (x2 x3 : Vec Ideal S256x768 .f32) (x4 x5 : Vec Ideal S1x768 .f32)
    (x6 : Vec Ideal S1000x256 .f32) (p : Fin 1000) (q : Fin 256) :
    k5_pay1 (F := Ideal) x0 x1 x2 x3 x4 x5 x6 (ix2 p q)
      = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  unfold k5_pay1
  simp only [shapeCast_self]
  exact cell_block x0 x1 x2 x3 x4 x5 x6 p q

/-- The index maps over the 10 points: the row-block index of the two row inputs and of the output is the point's number,
    every column-block index and every block index of the two weights and the two bias rows is 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The block of aggregated rows at point `t`, read at `(r, k)`, is the aggregated array at row `1000·t + r`, column `k`. -/
theorem blk5_0 (t : Fin cfg5.N) (r : Fin 1000) (k : Fin 256) (i : Fin 10000) (hi : i.val = 1000 * t.val + r.val) :
    (iblk5 V c 0 t : Vec Ideal S1000x256 .f32) (ix2 r k) = (V c main_v57 : FVec Ideal ⟨2, ![10000, 256]⟩ .f32) (ix2 i k) := by
  obtain ⟨e0, e1, -⟩ := idx5 t
  unfold iblk5
  rw [View.read_apply]
  show V c main_v57 _ = V c main_v57 _
  congr 1
  funext a
  apply Fin.ext
  match a with
  | ⟨0, _⟩ => show win5_0.index t 0 * 1000 + 1 * r.val = i.val; rw [e0, hi]; omega
  | ⟨1, _⟩ => show win5_0.index t 1 * 256 + 1 * k.val = k.val; rw [e1]; omega

/-- The block of state rows at point `t`, read at `(r, k)`, is the state array at row `1000·t + r`, column `k`. -/
theorem blk5_1 (t : Fin cfg5.N) (r : Fin 1000) (k : Fin 256) (i : Fin 10000) (hi : i.val = 1000 * t.val + r.val) :
    (iblk5 V c 1 t : Vec Ideal S1000x256 .f32) (ix2 r k) = (V c main_v41 : FVec Ideal ⟨2, ![10000, 256]⟩ .f32) (ix2 i k) := by
  obtain ⟨-, -, e0, e1, -⟩ := idx5 t
  unfold iblk5
  rw [View.read_apply]
  show V c main_v41 _ = V c main_v41 _
  congr 1
  funext a
  apply Fin.ext
  match a with
  | ⟨0, _⟩ => show win5_1.index t 0 * 1000 + 1 * r.val = i.val; rw [e0, hi]; omega
  | ⟨1, _⟩ => show win5_1.index t 1 * 256 + 1 * k.val = k.val; rw [e1]; omega

/-- The input gate weight's one block is the weight. -/
theorem blk5_2 (t : Fin cfg5.N) (k : Fin 256) (j : Fin 768) :
    (iblk5 V c 2 t : Vec Ideal S256x768 .f32) (ix2 k j) = (V c main_v4 : FVec Ideal ⟨2, ![256, 768]⟩ .f32) (ix2 k j) := by
  obtain ⟨-, -, -, -, e0, e1, -⟩ := idx5 t
  unfold iblk5
  rw [View.read_apply]
  show V c main_v4 _ = V c main_v4 _
  congr 1
  funext a
  apply Fin.ext
  match a with
  | ⟨0, _⟩ => show win5_2.index t 0 * 256 + 1 * k.val = k.val; rw [e0]; omega
  | ⟨1, _⟩ => show win5_2.index t 1 * 768 + 1 * j.val = j.val; rw [e1]; omega

/-- The state gate weight's one block is the weight. -/
theorem blk5_3 (t : Fin cfg5.N) (k : Fin 256) (j : Fin 768) :
    (iblk5 V c 3 t : Vec Ideal S256x768 .f32) (ix2 k j) = (V c main_v5 : FVec Ideal ⟨2, ![256, 768]⟩ .f32) (ix2 k j) := by
  obtain ⟨-, -, -, -, -, -, e0, e1, -⟩ := idx5 t
  unfold iblk5
  rw [View.read_apply]
  show V c main_v5 _ = V c main_v5 _
  congr 1
  funext a
  apply Fin.ext
  match a with
  | ⟨0, _⟩ => show win5_3.index t 0 * 256 + 1 * k.val = k.val; rw [e0]; omega
  | ⟨1, _⟩ => show win5_3.index t 1 * 768 + 1 * j.val = j.val; rw [e1]; omega

/-- The input gate bias's one block is the bias row. -/
theorem blk5_4 (t : Fin cfg5.N) (z : Fin 1) (j : Fin 768) :
    (iblk5 V c 4 t : Vec Ideal S1x768 .f32) (ix2 z j) = (V c main_v6 : FVec Ideal ⟨2, ![1, 768]⟩ .f32) (ix2 z j) := by
  obtain ⟨-, -, -, -, -, -, -, -, e0, e1, -⟩ := idx5 t
  unfold iblk5
  rw [View.read_apply]
  show V c main_v6 _ = V c main_v6 _
  congr 1
  funext a
  apply Fin.ext
  match a with
  | ⟨0, _⟩ => show win5_4.index t 0 * 1 + 1 * z.val = z.val; rw [e0]; omega
  | ⟨1, _⟩ => show win5_4.index t 1 * 768 + 1 * j.val = j.val; rw [e1]; omega

/-- The state gate bias's one block is the bias row. -/
theorem blk5_5 (t : Fin cfg5.N) (z : Fin 1) (j : Fin 768) :
    (iblk5 V c 5 t : Vec Ideal S1x768 .f32) (ix2 z j) = (V c main_v7 : FVec Ideal ⟨2, ![1, 768]⟩ .f32) (ix2 z j) := by
  obtain ⟨-, -, -, -, -, -, -, -, -, -, e0, e1, -⟩ := idx5 t
  unfold iblk5
  rw [View.read_apply]
  show V c main_v7 _ = V c main_v7 _
  congr 1
  funext a
  apply Fin.ext
  match a with
  | ⟨0, _⟩ => show win5_5.index t 0 * 1 + 1 * z.val = z.val; rw [e0]; omega
  | ⟨1, _⟩ => show win5_5.index t 1 * 768 + 1 * j.val = j.val; rw [e1]; omega

/-- A gate pre-activation of the aggregated block at point `t` is the array's pre-activation at row `1000·t + p`. -/
theorem bpre5_i (t : Fin cfg5.N) (p : Fin 1000) (j : Fin 768) (i : Fin 10000) (hi : i.val = 1000 * t.val + p.val) :
    bpre (iblk5 V c 0 t) (iblk5 V c 2 t) (iblk5 V c 4 t) p j = Cert.Spec.pre (V c main_v57) (V c main_v4) (V c main_v6) i j := by
  unfold bpre Cert.Spec.pre
  rw [blk5_4 V c t 0 j]
  refine congrArg (· + (V c main_v6 : FVec Ideal ⟨2, ![1, 768]⟩ .f32) (ix2 (0 : Fin 1) j)) (Finset.sum_congr rfl fun k _ => ?_)
  rw [blk5_0 V c t p k i hi, blk5_2 V c t k j]

/-- A gate pre-activation of the state block at point `t` is the array's pre-activation at row `1000·t + p`. -/
theorem bpre5_h (t : Fin cfg5.N) (p : Fin 1000) (j : Fin 768) (i : Fin 10000) (hi : i.val = 1000 * t.val + p.val) :
    bpre (iblk5 V c 1 t) (iblk5 V c 3 t) (iblk5 V c 5 t) p j = Cert.Spec.pre (V c main_v41) (V c main_v5) (V c main_v7) i j := by
  unfold bpre Cert.Spec.pre
  rw [blk5_5 V c t 0 j]
  refine congrArg (· + (V c main_v7 : FVec Ideal ⟨2, ![1, 768]⟩ .f32) (ix2 (0 : Fin 1) j)) (Finset.sum_congr rfl fun k _ => ?_)
  rw [blk5_1 V c t p k i hi, blk5_3 V c t k j]

/-- What point `t` writes back is block `t` of the updated state array: at `(r, q)` of the block, the gated update of row
    `1000·t + r`, feature `q`. -/
theorem flushed5_eq (t : Fin cfg5.N) :
    (dat5 (F := Ideal) V c).flushed 6 t
      = ((cfg5.win 6).blk t).view.read (Elt Ideal)
          (Cert.Spec.gruG (V c main_v57) (V c main_v41) (V c main_v4) (V c main_v5) (V c main_v6) (V c main_v7)) := by
  show (cfg5.win 6).cut (grid5.coords t) ((dat5 V c).after 6 t) = _
  rw [after5_6]
  unfold out5_6
  rw [View.canon_unit_zero hzGru]
  simp only [View.ld_unit_zero (S := S1000x256) hzGru, View.ld_unit_zero (S := S256x768) hzGru, View.ld_unit_zero (S := S1x768) hzGru]
  refine Cert.Spec.ext2 (n0 := 1000) (n1 := 256) (α := EReal) _ _ fun p q => ?_
  obtain ⟨-, -, -, -, -, -, -, -, -, -, -, -, e4, e5⟩ := idx5 t
  have hN : cfg5.N = 10 := N_5
  have ht : t.val < 10 := hN ▸ t.isLt
  have hx : (cfg5.win 6).xinj (grid5.coords t) (ix2 p q) = ix2 p q :=
    funext fun a => by match a with | ⟨0, _⟩ => rfl | ⟨1, _⟩ => rfl
  have he : ((cfg5.win 6).blk t).view.emb (ix2 p q) = ix2 (⟨1000 * t.val + p.val, by omega⟩ : Fin 10000) q := by
    funext a
    apply Fin.ext
    match a with
    | ⟨0, _⟩ => show win5_6.index t 0 * 1000 + 1 * p.val = 1000 * t.val + p.val; rw [e4]; omega
    | ⟨1, _⟩ => show win5_6.index t 1 * 256 + 1 * q.val = q.val; rw [e5]; omega
  show k5_pay1 (F := Ideal) (iblk5 V c 0 t) (iblk5 V c 1 t) (iblk5 V c 2 t) (iblk5 V c 3 t) (iblk5 V c 4 t) (iblk5 V c 5 t) (iblk5 V c 1 t)
      ((cfg5.win 6).xinj (grid5.coords t) (ix2 p q))
    = Cert.Spec.gruG (V c main_v57) (V c main_v41) (V c main_v4) (V c main_v5) (V c main_v6) (V c main_v7) (((cfg5.win 6).blk t).view.emb (ix2 p q))
  rw [hx, he]
  refine (pay_gru5 _ _ _ _ _ _ _ p q).trans ?_
  rw [Cert.Spec.gruG_ix2]
  unfold Cert.Spec.gruAt
  rw [bpre5_i V c t p _ ⟨1000 * t.val + p.val, by omega⟩ rfl, bpre5_i V c t p _ ⟨1000 * t.val + p.val, by omega⟩ rfl,
    bpre5_i V c t p _ ⟨1000 * t.val + p.val, by omega⟩ rfl, bpre5_h V c t p _ ⟨1000 * t.val + p.val, by omega⟩ rfl,
    bpre5_h V c t p _ ⟨1000 * t.val + p.val, by omega⟩ rfl, bpre5_h V c t p _ ⟨1000 * t.val + p.val, by omega⟩ rfl,
    blk5_1 V c t p q ⟨1000 * t.val + p.val, by omega⟩ rfl]

/-- An entry of the output lies in point `t`'s block iff each coordinate lies in the block's range on its axis. -/
theorem mem_blk5 (t : Fin cfg5.N) (i : (⟨2, ![10000, 256]⟩ : Shape).Idx) :
    i ∈ ((cfg5.win 6).blk t).view.set ↔ ∀ a : Fin 2, win5_6.index t a * S1000x256.size a ≤ (i a).val ∧ (i a).val < win5_6.index t a * S1000x256.size a + S1000x256.size a := by
  show i ∈ ((View.whole main_v58).slice (win5_6.rect t)).set ↔ _
  rw [View.set_slice_whole, Rect.mem_set_unit]
  exact Iff.rfl

/-- Every entry `(p, q)` of the output lies in the block of the point `p / 1000`. -/
theorem cover5 (i : (⟨2, ![10000, 256]⟩ : Shape).Idx) :
    ∃ t : Fin cfg5.N, (cfg5.win 6).flush t = true ∧ i ∈ ((cfg5.win 6).blk t).view.set := by
  have hi0 : (i 0).val < 10000 := (i 0).isLt
  have hi1 : (i 1).val < 256 := (i 1).isLt
  have hN : cfg5.N = 10 := N_5
  refine ⟨⟨(i 0).val / 1000, by rw [hN]; omega⟩, flush5_6 _, ?_⟩
  rw [mem_blk5]
  obtain ⟨-, -, -, -, -, -, -, -, -, -, -, -, e4, e5⟩ := idx5 ⟨(i 0).val / 1000, by rw [hN]; omega⟩
  intro a
  match a with
  | ⟨0, _⟩ => show win5_6.index _ (0 : Fin 2) * 1000 ≤ (i 0).val ∧ (i 0).val < win5_6.index _ (0 : Fin 2) * 1000 + 1000; rw [e4]; show (i 0).val / 1000 * 1000 ≤ _ ∧ _ < (i 0).val / 1000 * 1000 + 1000; omega
  | ⟨1, _⟩ => show win5_6.index _ (1 : Fin 2) * 256 ≤ (i 1).val ∧ (i 1).val < win5_6.index _ (1 : Fin 2) * 256 + 256; rw [e5]; omega

/-- The output array after the last point is the updated state array. -/
theorem gru5_final : (Gen.dat5 (F := Ideal) V c).arrAt 6 cfg5.N
    = Cert.Spec.gruG (V c main_v57) (V c main_v41) (V c main_v4) (V c main_v5) (V c main_v6) (V c main_v7) :=
  (dat5 (F := Ideal) V c).arrAt_eq_of_cover 6
    (Cert.Spec.gruG (V c main_v57) (V c main_v41) (V c main_v4) (V c main_v5) (V c main_v6) (V c main_v7))
    (fun t _ => flushed5_eq V c t) (cover5)

/-! ## Gated update of region 7: aggregated `main_v74`, state `main_v58` -/

/-- The body's value at entry `(p, q)` of the block: the gated update from the six gate pre-activations of the block's rows. -/
theorem pay_gru7 (x0 x1 : Vec Ideal S1000x256 .f32) (x2 x3 : Vec Ideal S256x768 .f32) (x4 x5 : Vec Ideal S1x768 .f32)
    (x6 : Vec Ideal S1000x256 .f32) (p : Fin 1000) (q : Fin 256) :
    k7_pay1 (F := Ideal) x0 x1 x2 x3 x4 x5 x6 (ix2 p q)
      = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  unfold k7_pay1
  simp only [shapeCast_self]
  exact cell_block x0 x1 x2 x3 x4 x5 x6 p q

/-- The index maps over the 10 points: the row-block index of the two row inputs and of the output is the point's number,
    every column-block index and every block index of the two weights and the two bias rows is 0. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- The block of aggregated rows at point `t`, read at `(r, k)`, is the aggregated array at row `1000·t + r`, column `k`. -/
theorem blk7_0 (t : Fin cfg7.N) (r : Fin 1000) (k : Fin 256) (i : Fin 10000) (hi : i.val = 1000 * t.val + r.val) :
    (iblk7 V c 0 t : Vec Ideal S1000x256 .f32) (ix2 r k) = (V c main_v74 : FVec Ideal ⟨2, ![10000, 256]⟩ .f32) (ix2 i k) := by
  obtain ⟨e0, e1, -⟩ := idx7 t
  unfold iblk7
  rw [View.read_apply]
  show V c main_v74 _ = V c main_v74 _
  congr 1
  funext a
  apply Fin.ext
  match a with
  | ⟨0, _⟩ => show win7_0.index t 0 * 1000 + 1 * r.val = i.val; rw [e0, hi]; omega
  | ⟨1, _⟩ => show win7_0.index t 1 * 256 + 1 * k.val = k.val; rw [e1]; omega

/-- The block of state rows at point `t`, read at `(r, k)`, is the state array at row `1000·t + r`, column `k`. -/
theorem blk7_1 (t : Fin cfg7.N) (r : Fin 1000) (k : Fin 256) (i : Fin 10000) (hi : i.val = 1000 * t.val + r.val) :
    (iblk7 V c 1 t : Vec Ideal S1000x256 .f32) (ix2 r k) = (V c main_v58 : FVec Ideal ⟨2, ![10000, 256]⟩ .f32) (ix2 i k) := by
  obtain ⟨-, -, e0, e1, -⟩ := idx7 t
  unfold iblk7
  rw [View.read_apply]
  show V c main_v58 _ = V c main_v58 _
  congr 1
  funext a
  apply Fin.ext
  match a with
  | ⟨0, _⟩ => show win7_1.index t 0 * 1000 + 1 * r.val = i.val; rw [e0, hi]; omega
  | ⟨1, _⟩ => show win7_1.index t 1 * 256 + 1 * k.val = k.val; rw [e1]; omega

/-- The input gate weight's one block is the weight. -/
theorem blk7_2 (t : Fin cfg7.N) (k : Fin 256) (j : Fin 768) :
    (iblk7 V c 2 t : Vec Ideal S256x768 .f32) (ix2 k j) = (V c main_v4 : FVec Ideal ⟨2, ![256, 768]⟩ .f32) (ix2 k j) := by
  obtain ⟨-, -, -, -, e0, e1, -⟩ := idx7 t
  unfold iblk7
  rw [View.read_apply]
  show V c main_v4 _ = V c main_v4 _
  congr 1
  funext a
  apply Fin.ext
  match a with
  | ⟨0, _⟩ => show win7_2.index t 0 * 256 + 1 * k.val = k.val; rw [e0]; omega
  | ⟨1, _⟩ => show win7_2.index t 1 * 768 + 1 * j.val = j.val; rw [e1]; omega

/-- The state gate weight's one block is the weight. -/
theorem blk7_3 (t : Fin cfg7.N) (k : Fin 256) (j : Fin 768) :
    (iblk7 V c 3 t : Vec Ideal S256x768 .f32) (ix2 k j) = (V c main_v5 : FVec Ideal ⟨2, ![256, 768]⟩ .f32) (ix2 k j) := by
  obtain ⟨-, -, -, -, -, -, e0, e1, -⟩ := idx7 t
  unfold iblk7
  rw [View.read_apply]
  show V c main_v5 _ = V c main_v5 _
  congr 1
  funext a
  apply Fin.ext
  match a with
  | ⟨0, _⟩ => show win7_3.index t 0 * 256 + 1 * k.val = k.val; rw [e0]; omega
  | ⟨1, _⟩ => show win7_3.index t 1 * 768 + 1 * j.val = j.val; rw [e1]; omega

/-- The input gate bias's one block is the bias row. -/
theorem blk7_4 (t : Fin cfg7.N) (z : Fin 1) (j : Fin 768) :
    (iblk7 V c 4 t : Vec Ideal S1x768 .f32) (ix2 z j) = (V c main_v6 : FVec Ideal ⟨2, ![1, 768]⟩ .f32) (ix2 z j) := by
  obtain ⟨-, -, -, -, -, -, -, -, e0, e1, -⟩ := idx7 t
  unfold iblk7
  rw [View.read_apply]
  show V c main_v6 _ = V c main_v6 _
  congr 1
  funext a
  apply Fin.ext
  match a with
  | ⟨0, _⟩ => show win7_4.index t 0 * 1 + 1 * z.val = z.val; rw [e0]; omega
  | ⟨1, _⟩ => show win7_4.index t 1 * 768 + 1 * j.val = j.val; rw [e1]; omega

/-- The state gate bias's one block is the bias row. -/
theorem blk7_5 (t : Fin cfg7.N) (z : Fin 1) (j : Fin 768) :
    (iblk7 V c 5 t : Vec Ideal S1x768 .f32) (ix2 z j) = (V c main_v7 : FVec Ideal ⟨2, ![1, 768]⟩ .f32) (ix2 z j) := by
  obtain ⟨-, -, -, -, -, -, -, -, -, -, e0, e1, -⟩ := idx7 t
  unfold iblk7
  rw [View.read_apply]
  show V c main_v7 _ = V c main_v7 _
  congr 1
  funext a
  apply Fin.ext
  match a with
  | ⟨0, _⟩ => show win7_5.index t 0 * 1 + 1 * z.val = z.val; rw [e0]; omega
  | ⟨1, _⟩ => show win7_5.index t 1 * 768 + 1 * j.val = j.val; rw [e1]; omega

/-- A gate pre-activation of the aggregated block at point `t` is the array's pre-activation at row `1000·t + p`. -/
theorem bpre7_i (t : Fin cfg7.N) (p : Fin 1000) (j : Fin 768) (i : Fin 10000) (hi : i.val = 1000 * t.val + p.val) :
    bpre (iblk7 V c 0 t) (iblk7 V c 2 t) (iblk7 V c 4 t) p j = Cert.Spec.pre (V c main_v74) (V c main_v4) (V c main_v6) i j := by
  unfold bpre Cert.Spec.pre
  rw [blk7_4 V c t 0 j]
  refine congrArg (· + (V c main_v6 : FVec Ideal ⟨2, ![1, 768]⟩ .f32) (ix2 (0 : Fin 1) j)) (Finset.sum_congr rfl fun k _ => ?_)
  rw [blk7_0 V c t p k i hi, blk7_2 V c t k j]

/-- A gate pre-activation of the state block at point `t` is the array's pre-activation at row `1000·t + p`. -/
theorem bpre7_h (t : Fin cfg7.N) (p : Fin 1000) (j : Fin 768) (i : Fin 10000) (hi : i.val = 1000 * t.val + p.val) :
    bpre (iblk7 V c 1 t) (iblk7 V c 3 t) (iblk7 V c 5 t) p j = Cert.Spec.pre (V c main_v58) (V c main_v5) (V c main_v7) i j := by
  unfold bpre Cert.Spec.pre
  rw [blk7_5 V c t 0 j]
  refine congrArg (· + (V c main_v7 : FVec Ideal ⟨2, ![1, 768]⟩ .f32) (ix2 (0 : Fin 1) j)) (Finset.sum_congr rfl fun k _ => ?_)
  rw [blk7_1 V c t p k i hi, blk7_3 V c t k j]

/-- What point `t` writes back is block `t` of the updated state array: at `(r, q)` of the block, the gated update of row
    `1000·t + r`, feature `q`. -/
theorem flushed7_eq (t : Fin cfg7.N) :
    (dat7 (F := Ideal) V c).flushed 6 t
      = ((cfg7.win 6).blk t).view.read (Elt Ideal)
          (Cert.Spec.gruG (V c main_v74) (V c main_v58) (V c main_v4) (V c main_v5) (V c main_v6) (V c main_v7)) := by
  show (cfg7.win 6).cut (grid7.coords t) ((dat7 V c).after 6 t) = _
  rw [after7_6]
  unfold out7_6
  rw [View.canon_unit_zero hzGru]
  simp only [View.ld_unit_zero (S := S1000x256) hzGru, View.ld_unit_zero (S := S256x768) hzGru, View.ld_unit_zero (S := S1x768) hzGru]
  refine Cert.Spec.ext2 (n0 := 1000) (n1 := 256) (α := EReal) _ _ fun p q => ?_
  obtain ⟨-, -, -, -, -, -, -, -, -, -, -, -, e4, e5⟩ := idx7 t
  have hN : cfg7.N = 10 := N_7
  have ht : t.val < 10 := hN ▸ t.isLt
  have hx : (cfg7.win 6).xinj (grid7.coords t) (ix2 p q) = ix2 p q :=
    funext fun a => by match a with | ⟨0, _⟩ => rfl | ⟨1, _⟩ => rfl
  have he : ((cfg7.win 6).blk t).view.emb (ix2 p q) = ix2 (⟨1000 * t.val + p.val, by omega⟩ : Fin 10000) q := by
    funext a
    apply Fin.ext
    match a with
    | ⟨0, _⟩ => show win7_6.index t 0 * 1000 + 1 * p.val = 1000 * t.val + p.val; rw [e4]; omega
    | ⟨1, _⟩ => show win7_6.index t 1 * 256 + 1 * q.val = q.val; rw [e5]; omega
  show k7_pay1 (F := Ideal) (iblk7 V c 0 t) (iblk7 V c 1 t) (iblk7 V c 2 t) (iblk7 V c 3 t) (iblk7 V c 4 t) (iblk7 V c 5 t) (iblk7 V c 1 t)
      ((cfg7.win 6).xinj (grid7.coords t) (ix2 p q))
    = Cert.Spec.gruG (V c main_v74) (V c main_v58) (V c main_v4) (V c main_v5) (V c main_v6) (V c main_v7) (((cfg7.win 6).blk t).view.emb (ix2 p q))
  rw [hx, he]
  refine (pay_gru7 _ _ _ _ _ _ _ p q).trans ?_
  rw [Cert.Spec.gruG_ix2]
  unfold Cert.Spec.gruAt
  rw [bpre7_i V c t p _ ⟨1000 * t.val + p.val, by omega⟩ rfl, bpre7_i V c t p _ ⟨1000 * t.val + p.val, by omega⟩ rfl,
    bpre7_i V c t p _ ⟨1000 * t.val + p.val, by omega⟩ rfl, bpre7_h V c t p _ ⟨1000 * t.val + p.val, by omega⟩ rfl,
    bpre7_h V c t p _ ⟨1000 * t.val + p.val, by omega⟩ rfl, bpre7_h V c t p _ ⟨1000 * t.val + p.val, by omega⟩ rfl,
    blk7_1 V c t p q ⟨1000 * t.val + p.val, by omega⟩ rfl]

/-- An entry of the output lies in point `t`'s block iff each coordinate lies in the block's range on its axis. -/
theorem mem_blk7 (t : Fin cfg7.N) (i : (⟨2, ![10000, 256]⟩ : Shape).Idx) :
    i ∈ ((cfg7.win 6).blk t).view.set ↔ ∀ a : Fin 2, win7_6.index t a * S1000x256.size a ≤ (i a).val ∧ (i a).val < win7_6.index t a * S1000x256.size a + S1000x256.size a := by
  show i ∈ ((View.whole main_v75).slice (win7_6.rect t)).set ↔ _
  rw [View.set_slice_whole, Rect.mem_set_unit]
  exact Iff.rfl

/-- Every entry `(p, q)` of the output lies in the block of the point `p / 1000`. -/
theorem cover7 (i : (⟨2, ![10000, 256]⟩ : Shape).Idx) :
    ∃ t : Fin cfg7.N, (cfg7.win 6).flush t = true ∧ i ∈ ((cfg7.win 6).blk t).view.set := by
  have hi0 : (i 0).val < 10000 := (i 0).isLt
  have hi1 : (i 1).val < 256 := (i 1).isLt
  have hN : cfg7.N = 10 := N_7
  refine ⟨⟨(i 0).val / 1000, by rw [hN]; omega⟩, flush7_6 _, ?_⟩
  rw [mem_blk7]
  obtain ⟨-, -, -, -, -, -, -, -, -, -, -, -, e4, e5⟩ := idx7 ⟨(i 0).val / 1000, by rw [hN]; omega⟩
  intro a
  match a with
  | ⟨0, _⟩ => show win7_6.index _ (0 : Fin 2) * 1000 ≤ (i 0).val ∧ (i 0).val < win7_6.index _ (0 : Fin 2) * 1000 + 1000; rw [e4]; show (i 0).val / 1000 * 1000 ≤ _ ∧ _ < (i 0).val / 1000 * 1000 + 1000; omega
  | ⟨1, _⟩ => show win7_6.index _ (1 : Fin 2) * 256 ≤ (i 1).val ∧ (i 1).val < win7_6.index _ (1 : Fin 2) * 256 + 256; rw [e5]; omega

/-- The output array after the last point is the updated state array. -/
theorem gru7_final : (Gen.dat7 (F := Ideal) V c).arrAt 6 cfg7.N
    = Cert.Spec.gruG (V c main_v74) (V c main_v58) (V c main_v4) (V c main_v5) (V c main_v6) (V c main_v7) :=
  (dat7 (F := Ideal) V c).arrAt_eq_of_cover 6
    (Cert.Spec.gruG (V c main_v74) (V c main_v58) (V c main_v4) (V c main_v5) (V c main_v6) (V c main_v7))
    (fun t _ => flushed7_eq V c t) (cover7)

/-! ## Gated update of region 9: aggregated `main_v91`, state `main_v75` -/

/-- The body's value at entry `(p, q)` of the block: the gated update from the six gate pre-activations of the block's rows. -/
theorem pay_gru9 (x0 x1 : Vec Ideal S1000x256 .f32) (x2 x3 : Vec Ideal S256x768 .f32) (x4 x5 : Vec Ideal S1x768 .f32)
    (x6 : Vec Ideal S1000x256 .f32) (p : Fin 1000) (q : Fin 256) :
    k9_pay1 (F := Ideal) x0 x1 x2 x3 x4 x5 x6 (ix2 p q)
      = Cert.Spec.cell (bpre x0 x2 x4 p (Cert.Spec.gateCol 0 (by omega) q)) (bpre x1 x3 x5 p (Cert.Spec.gateCol 0 (by omega) q))
        (bpre x0 x2 x4 p (Cert.Spec.gateCol 256 (by omega) q)) (bpre x1 x3 x5 p (Cert.Spec.gateCol 256 (by omega) q))
        (bpre x0 x2 x4 p (Cert.Spec.gateCol 512 (by omega) q)) (bpre x1 x3 x5 p (Cert.Spec.gateCol 512 (by omega) q))
        (x6 (ix2 p q)) := by
  unfold k9_pay1
  simp only [shapeCast_self]
  exact cell_block x0 x1 x2 x3 x4 x5 x6 p q

/-- The index maps over the 10 points: the row-block index of the two row inputs and of the output is the point's number,
    every column-block index and every block index of the two weights and the two bias rows is 0. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- The block of aggregated rows at point `t`, read at `(r, k)`, is the aggregated array at row `1000·t + r`, column `k`. -/
theorem blk9_0 (t : Fin cfg9.N) (r : Fin 1000) (k : Fin 256) (i : Fin 10000) (hi : i.val = 1000 * t.val + r.val) :
    (iblk9 V c 0 t : Vec Ideal S1000x256 .f32) (ix2 r k) = (V c main_v91 : FVec Ideal ⟨2, ![10000, 256]⟩ .f32) (ix2 i k) := by
  obtain ⟨e0, e1, -⟩ := idx9 t
  unfold iblk9
  rw [View.read_apply]
  show V c main_v91 _ = V c main_v91 _
  congr 1
  funext a
  apply Fin.ext
  match a with
  | ⟨0, _⟩ => show win9_0.index t 0 * 1000 + 1 * r.val = i.val; rw [e0, hi]; omega
  | ⟨1, _⟩ => show win9_0.index t 1 * 256 + 1 * k.val = k.val; rw [e1]; omega

/-- The block of state rows at point `t`, read at `(r, k)`, is the state array at row `1000·t + r`, column `k`. -/
theorem blk9_1 (t : Fin cfg9.N) (r : Fin 1000) (k : Fin 256) (i : Fin 10000) (hi : i.val = 1000 * t.val + r.val) :
    (iblk9 V c 1 t : Vec Ideal S1000x256 .f32) (ix2 r k) = (V c main_v75 : FVec Ideal ⟨2, ![10000, 256]⟩ .f32) (ix2 i k) := by
  obtain ⟨-, -, e0, e1, -⟩ := idx9 t
  unfold iblk9
  rw [View.read_apply]
  show V c main_v75 _ = V c main_v75 _
  congr 1
  funext a
  apply Fin.ext
  match a with
  | ⟨0, _⟩ => show win9_1.index t 0 * 1000 + 1 * r.val = i.val; rw [e0, hi]; omega
  | ⟨1, _⟩ => show win9_1.index t 1 * 256 + 1 * k.val = k.val; rw [e1]; omega

/-- The input gate weight's one block is the weight. -/
theorem blk9_2 (t : Fin cfg9.N) (k : Fin 256) (j : Fin 768) :
    (iblk9 V c 2 t : Vec Ideal S256x768 .f32) (ix2 k j) = (V c main_v4 : FVec Ideal ⟨2, ![256, 768]⟩ .f32) (ix2 k j) := by
  obtain ⟨-, -, -, -, e0, e1, -⟩ := idx9 t
  unfold iblk9
  rw [View.read_apply]
  show V c main_v4 _ = V c main_v4 _
  congr 1
  funext a
  apply Fin.ext
  match a with
  | ⟨0, _⟩ => show win9_2.index t 0 * 256 + 1 * k.val = k.val; rw [e0]; omega
  | ⟨1, _⟩ => show win9_2.index t 1 * 768 + 1 * j.val = j.val; rw [e1]; omega

/-- The state gate weight's one block is the weight. -/
theorem blk9_3 (t : Fin cfg9.N) (k : Fin 256) (j : Fin 768) :
    (iblk9 V c 3 t : Vec Ideal S256x768 .f32) (ix2 k j) = (V c main_v5 : FVec Ideal ⟨2, ![256, 768]⟩ .f32) (ix2 k j) := by
  obtain ⟨-, -, -, -, -, -, e0, e1, -⟩ := idx9 t
  unfold iblk9
  rw [View.read_apply]
  show V c main_v5 _ = V c main_v5 _
  congr 1
  funext a
  apply Fin.ext
  match a with
  | ⟨0, _⟩ => show win9_3.index t 0 * 256 + 1 * k.val = k.val; rw [e0]; omega
  | ⟨1, _⟩ => show win9_3.index t 1 * 768 + 1 * j.val = j.val; rw [e1]; omega

/-- The input gate bias's one block is the bias row. -/
theorem blk9_4 (t : Fin cfg9.N) (z : Fin 1) (j : Fin 768) :
    (iblk9 V c 4 t : Vec Ideal S1x768 .f32) (ix2 z j) = (V c main_v6 : FVec Ideal ⟨2, ![1, 768]⟩ .f32) (ix2 z j) := by
  obtain ⟨-, -, -, -, -, -, -, -, e0, e1, -⟩ := idx9 t
  unfold iblk9
  rw [View.read_apply]
  show V c main_v6 _ = V c main_v6 _
  congr 1
  funext a
  apply Fin.ext
  match a with
  | ⟨0, _⟩ => show win9_4.index t 0 * 1 + 1 * z.val = z.val; rw [e0]; omega
  | ⟨1, _⟩ => show win9_4.index t 1 * 768 + 1 * j.val = j.val; rw [e1]; omega

/-- The state gate bias's one block is the bias row. -/
theorem blk9_5 (t : Fin cfg9.N) (z : Fin 1) (j : Fin 768) :
    (iblk9 V c 5 t : Vec Ideal S1x768 .f32) (ix2 z j) = (V c main_v7 : FVec Ideal ⟨2, ![1, 768]⟩ .f32) (ix2 z j) := by
  obtain ⟨-, -, -, -, -, -, -, -, -, -, e0, e1, -⟩ := idx9 t
  unfold iblk9
  rw [View.read_apply]
  show V c main_v7 _ = V c main_v7 _
  congr 1
  funext a
  apply Fin.ext
  match a with
  | ⟨0, _⟩ => show win9_5.index t 0 * 1 + 1 * z.val = z.val; rw [e0]; omega
  | ⟨1, _⟩ => show win9_5.index t 1 * 768 + 1 * j.val = j.val; rw [e1]; omega

/-- A gate pre-activation of the aggregated block at point `t` is the array's pre-activation at row `1000·t + p`. -/
theorem bpre9_i (t : Fin cfg9.N) (p : Fin 1000) (j : Fin 768) (i : Fin 10000) (hi : i.val = 1000 * t.val + p.val) :
    bpre (iblk9 V c 0 t) (iblk9 V c 2 t) (iblk9 V c 4 t) p j = Cert.Spec.pre (V c main_v91) (V c main_v4) (V c main_v6) i j := by
  unfold bpre Cert.Spec.pre
  rw [blk9_4 V c t 0 j]
  refine congrArg (· + (V c main_v6 : FVec Ideal ⟨2, ![1, 768]⟩ .f32) (ix2 (0 : Fin 1) j)) (Finset.sum_congr rfl fun k _ => ?_)
  rw [blk9_0 V c t p k i hi, blk9_2 V c t k j]

/-- A gate pre-activation of the state block at point `t` is the array's pre-activation at row `1000·t + p`. -/
theorem bpre9_h (t : Fin cfg9.N) (p : Fin 1000) (j : Fin 768) (i : Fin 10000) (hi : i.val = 1000 * t.val + p.val) :
    bpre (iblk9 V c 1 t) (iblk9 V c 3 t) (iblk9 V c 5 t) p j = Cert.Spec.pre (V c main_v75) (V c main_v5) (V c main_v7) i j := by
  unfold bpre Cert.Spec.pre
  rw [blk9_5 V c t 0 j]
  refine congrArg (· + (V c main_v7 : FVec Ideal ⟨2, ![1, 768]⟩ .f32) (ix2 (0 : Fin 1) j)) (Finset.sum_congr rfl fun k _ => ?_)
  rw [blk9_1 V c t p k i hi, blk9_3 V c t k j]

/-- What point `t` writes back is block `t` of the updated state array: at `(r, q)` of the block, the gated update of row
    `1000·t + r`, feature `q`. -/
theorem flushed9_eq (t : Fin cfg9.N) :
    (dat9 (F := Ideal) V c).flushed 6 t
      = ((cfg9.win 6).blk t).view.read (Elt Ideal)
          (Cert.Spec.gruG (V c main_v91) (V c main_v75) (V c main_v4) (V c main_v5) (V c main_v6) (V c main_v7)) := by
  show (cfg9.win 6).cut (grid9.coords t) ((dat9 V c).after 6 t) = _
  rw [after9_6]
  unfold out9_6
  rw [View.canon_unit_zero hzGru]
  simp only [View.ld_unit_zero (S := S1000x256) hzGru, View.ld_unit_zero (S := S256x768) hzGru, View.ld_unit_zero (S := S1x768) hzGru]
  refine Cert.Spec.ext2 (n0 := 1000) (n1 := 256) (α := EReal) _ _ fun p q => ?_
  obtain ⟨-, -, -, -, -, -, -, -, -, -, -, -, e4, e5⟩ := idx9 t
  have hN : cfg9.N = 10 := N_9
  have ht : t.val < 10 := hN ▸ t.isLt
  have hx : (cfg9.win 6).xinj (grid9.coords t) (ix2 p q) = ix2 p q :=
    funext fun a => by match a with | ⟨0, _⟩ => rfl | ⟨1, _⟩ => rfl
  have he : ((cfg9.win 6).blk t).view.emb (ix2 p q) = ix2 (⟨1000 * t.val + p.val, by omega⟩ : Fin 10000) q := by
    funext a
    apply Fin.ext
    match a with
    | ⟨0, _⟩ => show win9_6.index t 0 * 1000 + 1 * p.val = 1000 * t.val + p.val; rw [e4]; omega
    | ⟨1, _⟩ => show win9_6.index t 1 * 256 + 1 * q.val = q.val; rw [e5]; omega
  show k9_pay1 (F := Ideal) (iblk9 V c 0 t) (iblk9 V c 1 t) (iblk9 V c 2 t) (iblk9 V c 3 t) (iblk9 V c 4 t) (iblk9 V c 5 t) (iblk9 V c 1 t)
      ((cfg9.win 6).xinj (grid9.coords t) (ix2 p q))
    = Cert.Spec.gruG (V c main_v91) (V c main_v75) (V c main_v4) (V c main_v5) (V c main_v6) (V c main_v7) (((cfg9.win 6).blk t).view.emb (ix2 p q))
  rw [hx, he]
  refine (pay_gru9 _ _ _ _ _ _ _ p q).trans ?_
  rw [Cert.Spec.gruG_ix2]
  unfold Cert.Spec.gruAt
  rw [bpre9_i V c t p _ ⟨1000 * t.val + p.val, by omega⟩ rfl, bpre9_i V c t p _ ⟨1000 * t.val + p.val, by omega⟩ rfl,
    bpre9_i V c t p _ ⟨1000 * t.val + p.val, by omega⟩ rfl, bpre9_h V c t p _ ⟨1000 * t.val + p.val, by omega⟩ rfl,
    bpre9_h V c t p _ ⟨1000 * t.val + p.val, by omega⟩ rfl, bpre9_h V c t p _ ⟨1000 * t.val + p.val, by omega⟩ rfl,
    blk9_1 V c t p q ⟨1000 * t.val + p.val, by omega⟩ rfl]

/-- An entry of the output lies in point `t`'s block iff each coordinate lies in the block's range on its axis. -/
theorem mem_blk9 (t : Fin cfg9.N) (i : (⟨2, ![10000, 256]⟩ : Shape).Idx) :
    i ∈ ((cfg9.win 6).blk t).view.set ↔ ∀ a : Fin 2, win9_6.index t a * S1000x256.size a ≤ (i a).val ∧ (i a).val < win9_6.index t a * S1000x256.size a + S1000x256.size a := by
  show i ∈ ((View.whole main_v92).slice (win9_6.rect t)).set ↔ _
  rw [View.set_slice_whole, Rect.mem_set_unit]
  exact Iff.rfl

/-- Every entry `(p, q)` of the output lies in the block of the point `p / 1000`. -/
theorem cover9 (i : (⟨2, ![10000, 256]⟩ : Shape).Idx) :
    ∃ t : Fin cfg9.N, (cfg9.win 6).flush t = true ∧ i ∈ ((cfg9.win 6).blk t).view.set := by
  have hi0 : (i 0).val < 10000 := (i 0).isLt
  have hi1 : (i 1).val < 256 := (i 1).isLt
  have hN : cfg9.N = 10 := N_9
  refine ⟨⟨(i 0).val / 1000, by rw [hN]; omega⟩, flush9_6 _, ?_⟩
  rw [mem_blk9]
  obtain ⟨-, -, -, -, -, -, -, -, -, -, -, -, e4, e5⟩ := idx9 ⟨(i 0).val / 1000, by rw [hN]; omega⟩
  intro a
  match a with
  | ⟨0, _⟩ => show win9_6.index _ (0 : Fin 2) * 1000 ≤ (i 0).val ∧ (i 0).val < win9_6.index _ (0 : Fin 2) * 1000 + 1000; rw [e4]; show (i 0).val / 1000 * 1000 ≤ _ ∧ _ < (i 0).val / 1000 * 1000 + 1000; omega
  | ⟨1, _⟩ => show win9_6.index _ (1 : Fin 2) * 256 ≤ (i 1).val ∧ (i 1).val < win9_6.index _ (1 : Fin 2) * 256 + 256; rw [e5]; omega

/-- The output array after the last point is the updated state array. -/
theorem gru9_final : (Gen.dat9 (F := Ideal) V c).arrAt 6 cfg9.N
    = Cert.Spec.gruG (V c main_v91) (V c main_v75) (V c main_v4) (V c main_v5) (V c main_v6) (V c main_v7) :=
  (dat9 (F := Ideal) V c).arrAt_eq_of_cover 6
    (Cert.Spec.gruG (V c main_v91) (V c main_v75) (V c main_v4) (V c main_v5) (V c main_v6) (V c main_v7))
    (fun t _ => flushed9_eq V c t) (cover9)

end Cert.KernelIdeal.Val
end
-- ==== Proof.Chain.lean ====
/-
  The idealized kernel's result as five layers of the specification.

  Write h₀ for the node states at launch and, for l = 0 … 4,  h_{l+1} = layer_l(h_l): transform by layer l's weight, gather
  at the edges' sources, scale, sum into the destinations, and update through the gates.  Walking the fold of the
  buffers' contents through @main's twenty segments: the first stretch leaves the edge endpoints, the transposed gate
  weights, the bias rows and layer 0's weight; each linear launch leaves h_l · W_l in its output array (its ten blocks of
  1000 rows tile the array); the next stretch leaves the aggregated messages; each gated launch leaves h_{l+1}; and
  nothing in between disturbs what a later segment reads.  So the last launch's output array holds h₅.
-/
import proofs.«155903_j60266981097696_1_alg».proof.Proof.Keep
import proofs.«155903_j60266981097696_1_alg».proof.Proof.HostReads
import proofs.«155903_j60266981097696_1_alg».proof.Proof.KerTerm
import proofs.«155903_j60266981097696_1_alg».proof.Proof.KLin
import proofs.«155903_j60266981097696_1_alg».proof.Proof.KGru
import proofs.«155903_j60266981097696_1_alg».proof.Proof.Spec

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays at launch, by the names the layers use. -/
abbrev aX := m ((c : Thread nD τ).loc main_arg0)
abbrev aEI := m ((c : Thread nD τ).loc main_arg1)
abbrev aEA := m ((c : Thread nD τ).loc main_arg2)
abbrev aW := m ((c : Thread nD τ).loc main_arg3)
abbrev aWih := m ((c : Thread nD τ).loc main_arg4)
abbrev aWhh := m ((c : Thread nD τ).loc main_arg5)
abbrev aBih := m ((c : Thread nD τ).loc main_arg6)
abbrev aBhh := m ((c : Thread nD τ).loc main_arg7)

/-- The node states after l layers. -/
def st0 : (⟨S10000x256, .f32⟩ : BufTy).Contents (Elt Ideal) := aX m c
def st1 : (⟨S10000x256, .f32⟩ : BufTy).Contents (Elt Ideal) :=
  kerLayer (aEI m c) (aEA m c) (wOfK0 (aW m c)) (aWih m c) (aWhh m c) (aBih m c) (aBhh m c) (st0 m c)
def st2 : (⟨S10000x256, .f32⟩ : BufTy).Contents (Elt Ideal) :=
  kerLayer (aEI m c) (aEA m c) (wOfK1 (aW m c)) (aWih m c) (aWhh m c) (aBih m c) (aBhh m c) (st1 m c)
def st3 : (⟨S10000x256, .f32⟩ : BufTy).Contents (Elt Ideal) :=
  kerLayer (aEI m c) (aEA m c) (wOfK2 (aW m c)) (aWih m c) (aWhh m c) (aBih m c) (aBhh m c) (st2 m c)
def st4 : (⟨S10000x256, .f32⟩ : BufTy).Contents (Elt Ideal) :=
  kerLayer (aEI m c) (aEA m c) (wOfK3 (aW m c)) (aWih m c) (aWhh m c) (aBih m c) (aBhh m c) (st3 m c)
def st5 : (⟨S10000x256, .f32⟩ : BufTy).Contents (Elt Ideal) :=
  kerLayer (aEI m c) (aEA m c) (wOfK4 (aW m c)) (aWih m c) (aWhh m c) (aBih m c) (aBhh m c) (st4 m c)

/-! ## The fixed buffers' contents, at the boundaries where a segment reads them -/

theorem base_arg0 : W1 m ρ c (Proc.devRef .tc main_arg0) = aX m c := keepH0 (W0 m ρ c) main_arg0 (by decide)
theorem base_arg2 : W1 m ρ c (Proc.devRef .tc main_arg2) = aEA m c := keepH0 (W0 m ρ c) main_arg2 (by decide)
theorem base_arg3 : W1 m ρ c (Proc.devRef .tc main_arg3) = aW m c := keepH0 (W0 m ρ c) main_arg3 (by decide)
theorem base_v1 : W1 m ρ c (Proc.devRef .tc main_v1) = srcK (aEI m c) := read_v1 (W0 m ρ c)
theorem base_v3 : W1 m ρ c (Proc.devRef .tc main_v3) = dstK (aEI m c) := read_v3 (W0 m ρ c)
theorem base_v4 : W1 m ρ c (Proc.devRef .tc main_v4) = wTK (aWih m c) := read_v4 (W0 m ρ c)
theorem base_v5 : W1 m ρ c (Proc.devRef .tc main_v5) = wTK (aWhh m c) := read_v5 (W0 m ρ c)
theorem base_v6 : W1 m ρ c (Proc.devRef .tc main_v6) = bRowK (aBih m c) := read_v6 (W0 m ρ c)
theorem base_v7 : W1 m ρ c (Proc.devRef .tc main_v7) = bRowK (aBhh m c) := read_v7 (W0 m ρ c)

/-! ## Layer 0 -/

theorem at2_v1 : W2 m ρ c (Proc.devRef .tc main_v1) = srcK (aEI m c) := (fixed2 m ρ c main_v1 (by decide)).trans (base_v1 m ρ c)
theorem at2_v3 : W2 m ρ c (Proc.devRef .tc main_v3) = dstK (aEI m c) := (fixed2 m ρ c main_v3 (by decide)).trans (base_v3 m ρ c)
theorem at2_arg2 : W2 m ρ c (Proc.devRef .tc main_arg2) = aEA m c := (fixed2 m ρ c main_arg2 (by decide)).trans (base_arg2 m ρ c)
theorem at3_v4 : W3 m ρ c (Proc.devRef .tc main_v4) = wTK (aWih m c) := (fixed3 m ρ c main_v4 (by decide)).trans (base_v4 m ρ c)
theorem at3_v5 : W3 m ρ c (Proc.devRef .tc main_v5) = wTK (aWhh m c) := (fixed3 m ρ c main_v5 (by decide)).trans (base_v5 m ρ c)
theorem at3_v6 : W3 m ρ c (Proc.devRef .tc main_v6) = bRowK (aBih m c) := (fixed3 m ρ c main_v6 (by decide)).trans (base_v6 m ρ c)
theorem at3_v7 : W3 m ρ c (Proc.devRef .tc main_v7) = bRowK (aBhh m c) := (fixed3 m ρ c main_v7 (by decide)).trans (base_v7 m ρ c)
theorem h_at1 : W1 m ρ c (Proc.devRef .tc main_arg0) = st0 m c := base_arg0 m ρ c
theorem w_at1 : W1 m ρ c (Proc.devRef .tc main_v9) = wOfK0 (aW m c) := read_v9 (W0 m ρ c)
theorem m_at2 : W2 m ρ c (Proc.devRef .tc main_v10) = Cert.Spec.linG (st0 m c) (wOfK0 (aW m c)) :=
  (W2_arr m ρ c 2).trans ((lin0_final (V1 m ρ) c).trans (congrArg₂ Cert.Spec.linG (h_at1 m ρ c) (w_at1 m ρ c)))
theorem h_at3 : W3 m ρ c (Proc.devRef .tc main_arg0) = st0 m c := (fixed3 m ρ c main_arg0 (by decide)).trans (base_arg0 m ρ c)
theorem agg_at3 : W3 m ρ c (Proc.devRef .tc main_v23) = aggOfK (srcK (aEI m c)) (dstK (aEI m c)) (aEA m c) (Cert.Spec.linG (st0 m c) (wOfK0 (aW m c))) :=
  (read_v23 (W2 m ρ c)).trans (aggOfK_congr (at2_v1 m ρ c) (at2_v3 m ρ c) (at2_arg2 m ρ c) (m_at2 m ρ c))
theorem st_at4 : W4 m ρ c (Proc.devRef .tc main_v24) = st1 m c :=
  (W4_arr m ρ c 6).trans ((gru1_final (V3 m ρ) c).trans
    (gruG_congr (agg_at3 m ρ c) (h_at3 m ρ c) (at3_v4 m ρ c) (at3_v5 m ρ c) (at3_v6 m ρ c) (at3_v7 m ρ c)))

/-! ## Layer 1 -/

theorem at4_arg3 : W4 m ρ c (Proc.devRef .tc main_arg3) = aW m c := (fixed4 m ρ c main_arg3 (by decide)).trans (base_arg3 m ρ c)
theorem at6_v1 : W6 m ρ c (Proc.devRef .tc main_v1) = srcK (aEI m c) := (fixed6 m ρ c main_v1 (by decide)).trans (base_v1 m ρ c)
theorem at6_v3 : W6 m ρ c (Proc.devRef .tc main_v3) = dstK (aEI m c) := (fixed6 m ρ c main_v3 (by decide)).trans (base_v3 m ρ c)
theorem at6_arg2 : W6 m ρ c (Proc.devRef .tc main_arg2) = aEA m c := (fixed6 m ρ c main_arg2 (by decide)).trans (base_arg2 m ρ c)
theorem at7_v4 : W7 m ρ c (Proc.devRef .tc main_v4) = wTK (aWih m c) := (fixed7 m ρ c main_v4 (by decide)).trans (base_v4 m ρ c)
theorem at7_v5 : W7 m ρ c (Proc.devRef .tc main_v5) = wTK (aWhh m c) := (fixed7 m ρ c main_v5 (by decide)).trans (base_v5 m ρ c)
theorem at7_v6 : W7 m ρ c (Proc.devRef .tc main_v6) = bRowK (aBih m c) := (fixed7 m ρ c main_v6 (by decide)).trans (base_v6 m ρ c)
theorem at7_v7 : W7 m ρ c (Proc.devRef .tc main_v7) = bRowK (aBhh m c) := (fixed7 m ρ c main_v7 (by decide)).trans (base_v7 m ρ c)
theorem h_at5 : W5 m ρ c (Proc.devRef .tc main_v24) = st1 m c :=
  (keepH2 (W4 m ρ c) main_v24 (by decide)).trans (st_at4 m ρ c)
theorem w_at5 : W5 m ρ c (Proc.devRef .tc main_v26) = wOfK1 (aW m c) :=
  (read_v26 (W4 m ρ c)).trans (congrArg wOfK1 (at4_arg3 m ρ c))
theorem m_at6 : W6 m ρ c (Proc.devRef .tc main_v27) = Cert.Spec.linG (st1 m c) (wOfK1 (aW m c)) :=
  (W6_arr m ρ c 2).trans ((lin2_final (V5 m ρ) c).trans (congrArg₂ Cert.Spec.linG (h_at5 m ρ c) (w_at5 m ρ c)))
theorem h_at6 : W6 m ρ c (Proc.devRef .tc main_v24) = st1 m c := (keepR2 m ρ c main_v24 (by decide)).trans (h_at5 m ρ c)
theorem h_at7 : W7 m ρ c (Proc.devRef .tc main_v24) = st1 m c := (keepH3 (W6 m ρ c) main_v24 (by decide)).trans (h_at6 m ρ c)
theorem agg_at7 : W7 m ρ c (Proc.devRef .tc main_v40) = aggOfK (srcK (aEI m c)) (dstK (aEI m c)) (aEA m c) (Cert.Spec.linG (st1 m c) (wOfK1 (aW m c))) :=
  (read_v40 (W6 m ρ c)).trans (aggOfK_congr (at6_v1 m ρ c) (at6_v3 m ρ c) (at6_arg2 m ρ c) (m_at6 m ρ c))
theorem st_at8 : W8 m ρ c (Proc.devRef .tc main_v41) = st2 m c :=
  (W8_arr m ρ c 6).trans ((gru3_final (V7 m ρ) c).trans
    (gruG_congr (agg_at7 m ρ c) (h_at7 m ρ c) (at7_v4 m ρ c) (at7_v5 m ρ c) (at7_v6 m ρ c) (at7_v7 m ρ c)))

/-! ## Layer 2 -/

theorem at8_arg3 : W8 m ρ c (Proc.devRef .tc main_arg3) = aW m c := (fixed8 m ρ c main_arg3 (by decide)).trans (base_arg3 m ρ c)
theorem at10_v1 : W10 m ρ c (Proc.devRef .tc main_v1) = srcK (aEI m c) := (fixed10 m ρ c main_v1 (by decide)).trans (base_v1 m ρ c)
theorem at10_v3 : W10 m ρ c (Proc.devRef .tc main_v3) = dstK (aEI m c) := (fixed10 m ρ c main_v3 (by decide)).trans (base_v3 m ρ c)
theorem at10_arg2 : W10 m ρ c (Proc.devRef .tc main_arg2) = aEA m c := (fixed10 m ρ c main_arg2 (by decide)).trans (base_arg2 m ρ c)
theorem at11_v4 : W11 m ρ c (Proc.devRef .tc main_v4) = wTK (aWih m c) := (fixed11 m ρ c main_v4 (by decide)).trans (base_v4 m ρ c)
theorem at11_v5 : W11 m ρ c (Proc.devRef .tc main_v5) = wTK (aWhh m c) := (fixed11 m ρ c main_v5 (by decide)).trans (base_v5 m ρ c)
theorem at11_v6 : W11 m ρ c (Proc.devRef .tc main_v6) = bRowK (aBih m c) := (fixed11 m ρ c main_v6 (by decide)).trans (base_v6 m ρ c)
theorem at11_v7 : W11 m ρ c (Proc.devRef .tc main_v7) = bRowK (aBhh m c) := (fixed11 m ρ c main_v7 (by decide)).trans (base_v7 m ρ c)
theorem h_at9 : W9 m ρ c (Proc.devRef .tc main_v41) = st2 m c :=
  (keepH4 (W8 m ρ c) main_v41 (by decide)).trans (st_at8 m ρ c)
theorem w_at9 : W9 m ρ c (Proc.devRef .tc main_v43) = wOfK2 (aW m c) :=
  (read_v43 (W8 m ρ c)).trans (congrArg wOfK2 (at8_arg3 m ρ c))
theorem m_at10 : W10 m ρ c (Proc.devRef .tc main_v44) = Cert.Spec.linG (st2 m c) (wOfK2 (aW m c)) :=
  (W10_arr m ρ c 2).trans ((lin4_final (V9 m ρ) c).trans (congrArg₂ Cert.Spec.linG (h_at9 m ρ c) (w_at9 m ρ c)))
theorem h_at10 : W10 m ρ c (Proc.devRef .tc main_v41) = st2 m c := (keepR4 m ρ c main_v41 (by decide)).trans (h_at9 m ρ c)
theorem h_at11 : W11 m ρ c (Proc.devRef .tc main_v41) = st2 m c := (keepH5 (W10 m ρ c) main_v41 (by decide)).trans (h_at10 m ρ c)
theorem agg_at11 : W11 m ρ c (Proc.devRef .tc main_v57) = aggOfK (srcK (aEI m c)) (dstK (aEI m c)) (aEA m c) (Cert.Spec.linG (st2 m c) (wOfK2 (aW m c))) :=
  (read_v57 (W10 m ρ c)).trans (aggOfK_congr (at10_v1 m ρ c) (at10_v3 m ρ c) (at10_arg2 m ρ c) (m_at10 m ρ c))
theorem st_at12 : W12 m ρ c (Proc.devRef .tc main_v58) = st3 m c :=
  (W12_arr m ρ c 6).trans ((gru5_final (V11 m ρ) c).trans
    (gruG_congr (agg_at11 m ρ c) (h_at11 m ρ c) (at11_v4 m ρ c) (at11_v5 m ρ c) (at11_v6 m ρ c) (at11_v7 m ρ c)))

/-! ## Layer 3 -/

theorem at12_arg3 : W12 m ρ c (Proc.devRef .tc main_arg3) = aW m c := (fixed12 m ρ c main_arg3 (by decide)).trans (base_arg3 m ρ c)
theorem at14_v1 : W14 m ρ c (Proc.devRef .tc main_v1) = srcK (aEI m c) := (fixed14 m ρ c main_v1 (by decide)).trans (base_v1 m ρ c)
theorem at14_v3 : W14 m ρ c (Proc.devRef .tc main_v3) = dstK (aEI m c) := (fixed14 m ρ c main_v3 (by decide)).trans (base_v3 m ρ c)
theorem at14_arg2 : W14 m ρ c (Proc.devRef .tc main_arg2) = aEA m c := (fixed14 m ρ c main_arg2 (by decide)).trans (base_arg2 m ρ c)
theorem at15_v4 : W15 m ρ c (Proc.devRef .tc main_v4) = wTK (aWih m c) := (fixed15 m ρ c main_v4 (by decide)).trans (base_v4 m ρ c)
theorem at15_v5 : W15 m ρ c (Proc.devRef .tc main_v5) = wTK (aWhh m c) := (fixed15 m ρ c main_v5 (by decide)).trans (base_v5 m ρ c)
theorem at15_v6 : W15 m ρ c (Proc.devRef .tc main_v6) = bRowK (aBih m c) := (fixed15 m ρ c main_v6 (by decide)).trans (base_v6 m ρ c)
theorem at15_v7 : W15 m ρ c (Proc.devRef .tc main_v7) = bRowK (aBhh m c) := (fixed15 m ρ c main_v7 (by decide)).trans (base_v7 m ρ c)
theorem h_at13 : W13 m ρ c (Proc.devRef .tc main_v58) = st3 m c :=
  (keepH6 (W12 m ρ c) main_v58 (by decide)).trans (st_at12 m ρ c)
theorem w_at13 : W13 m ρ c (Proc.devRef .tc main_v60) = wOfK3 (aW m c) :=
  (read_v60 (W12 m ρ c)).trans (congrArg wOfK3 (at12_arg3 m ρ c))
theorem m_at14 : W14 m ρ c (Proc.devRef .tc main_v61) = Cert.Spec.linG (st3 m c) (wOfK3 (aW m c)) :=
  (W14_arr m ρ c 2).trans ((lin6_final (V13 m ρ) c).trans (congrArg₂ Cert.Spec.linG (h_at13 m ρ c) (w_at13 m ρ c)))
theorem h_at14 : W14 m ρ c (Proc.devRef .tc main_v58) = st3 m c := (keepR6 m ρ c main_v58 (by decide)).trans (h_at13 m ρ c)
theorem h_at15 : W15 m ρ c (Proc.devRef .tc main_v58) = st3 m c := (keepH7 (W14 m ρ c) main_v58 (by decide)).trans (h_at14 m ρ c)
theorem agg_at15 : W15 m ρ c (Proc.devRef .tc main_v74) = aggOfK (srcK (aEI m c)) (dstK (aEI m c)) (aEA m c) (Cert.Spec.linG (st3 m c) (wOfK3 (aW m c))) :=
  (read_v74 (W14 m ρ c)).trans (aggOfK_congr (at14_v1 m ρ c) (at14_v3 m ρ c) (at14_arg2 m ρ c) (m_at14 m ρ c))
theorem st_at16 : W16 m ρ c (Proc.devRef .tc main_v75) = st4 m c :=
  (W16_arr m ρ c 6).trans ((gru7_final (V15 m ρ) c).trans
    (gruG_congr (agg_at15 m ρ c) (h_at15 m ρ c) (at15_v4 m ρ c) (at15_v5 m ρ c) (at15_v6 m ρ c) (at15_v7 m ρ c)))

/-! ## Layer 4 -/

theorem at16_arg3 : W16 m ρ c (Proc.devRef .tc main_arg3) = aW m c := (fixed16 m ρ c main_arg3 (by decide)).trans (base_arg3 m ρ c)
theorem at18_v1 : W18 m ρ c (Proc.devRef .tc main_v1) = srcK (aEI m c) := (fixed18 m ρ c main_v1 (by decide)).trans (base_v1 m ρ c)
theorem at18_v3 : W18 m ρ c (Proc.devRef .tc main_v3) = dstK (aEI m c) := (fixed18 m ρ c main_v3 (by decide)).trans (base_v3 m ρ c)
theorem at18_arg2 : W18 m ρ c (Proc.devRef .tc main_arg2) = aEA m c := (fixed18 m ρ c main_arg2 (by decide)).trans (base_arg2 m ρ c)
theorem at19_v4 : W19 m ρ c (Proc.devRef .tc main_v4) = wTK (aWih m c) := (fixed19 m ρ c main_v4 (by decide)).trans (base_v4 m ρ c)
theorem at19_v5 : W19 m ρ c (Proc.devRef .tc main_v5) = wTK (aWhh m c) := (fixed19 m ρ c main_v5 (by decide)).trans (base_v5 m ρ c)
theorem at19_v6 : W19 m ρ c (Proc.devRef .tc main_v6) = bRowK (aBih m c) := (fixed19 m ρ c main_v6 (by decide)).trans (base_v6 m ρ c)
theorem at19_v7 : W19 m ρ c (Proc.devRef .tc main_v7) = bRowK (aBhh m c) := (fixed19 m ρ c main_v7 (by decide)).trans (base_v7 m ρ c)
theorem h_at17 : W17 m ρ c (Proc.devRef .tc main_v75) = st4 m c :=
  (keepH8 (W16 m ρ c) main_v75 (by decide)).trans (st_at16 m ρ c)
theorem w_at17 : W17 m ρ c (Proc.devRef .tc main_v77) = wOfK4 (aW m c) :=
  (read_v77 (W16 m ρ c)).trans (congrArg wOfK4 (at16_arg3 m ρ c))
theorem m_at18 : W18 m ρ c (Proc.devRef .tc main_v78) = Cert.Spec.linG (st4 m c) (wOfK4 (aW m c)) :=
  (W18_arr m ρ c 2).trans ((lin8_final (V17 m ρ) c).trans (congrArg₂ Cert.Spec.linG (h_at17 m ρ c) (w_at17 m ρ c)))
theorem h_at18 : W18 m ρ c (Proc.devRef .tc main_v75) = st4 m c := (keepR8 m ρ c main_v75 (by decide)).trans (h_at17 m ρ c)
theorem h_at19 : W19 m ρ c (Proc.devRef .tc main_v75) = st4 m c := (keepH9 (W18 m ρ c) main_v75 (by decide)).trans (h_at18 m ρ c)
theorem agg_at19 : W19 m ρ c (Proc.devRef .tc main_v91) = aggOfK (srcK (aEI m c)) (dstK (aEI m c)) (aEA m c) (Cert.Spec.linG (st4 m c) (wOfK4 (aW m c))) :=
  (read_v91 (W18 m ρ c)).trans (aggOfK_congr (at18_v1 m ρ c) (at18_v3 m ρ c) (at18_arg2 m ρ c) (m_at18 m ρ c))
theorem st_at20 : W20 m ρ c (Proc.devRef .tc main_v92) = st5 m c :=
  (W20_arr m ρ c 6).trans ((gru9_final (V19 m ρ) c).trans
    (gruG_congr (agg_at19 m ρ c) (h_at19 m ρ c) (at19_v4 m ρ c) (at19_v5 m ρ c) (at19_v6 m ρ c) (at19_v7 m ρ c)))

/-- The last boundary's contents of the result buffer: the node states after five layers. -/
theorem kernel_value : W20 m ρ c (Proc.devRef .tc main_v92)
    = kerOut (aX m c) (aEI m c) (aEA m c) (aW m c) (aWih m c) (aWhh m c) (aBih m c) (aBhh m c) := st_at20 m ρ c

end Cert.KernelIdeal.Val

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.RefValue.lean ====
/-
  The reference program's result, through the specification's layer function.

  The reference is five message-passing layers over the node states x (10000 × 256), written in host operations.  With
  src, dst the two rows of the edge index array, W_l the l-th 256 × 256 slab of the weight stack, WiT, WhT the gate
  weights transposed and bi, bh the gate biases as single rows, one layer sends a state h to

      m   = h · W_l                                  (host dot product)
      a   = scatter-add over dst of  m[src] · edge_attr      (the aggregation A, kept as the host spells it)
      gi  = a · WiT + bi,   gh = h · WhT + bh
      r   = 1 / (1 + e^(−(gi[:, 0:256] + gh[:, 0:256])))
      z   = 1 / (1 + e^(−(gi[:, 256:512] + gh[:, 256:512])))
      n   = tanh(gi[:, 512:768] + r · gh[:, 512:768])
      h'  = (1 − z) · n + z · h.

  Read at an entry (p, q): the dot products are finite sums of products, the bias row repeated down the rows reads the
  row, a column slice starting at o reads column o + q, the array of ones reads 1, and 1 / (1 + e^(−x)) is the logistic
  function by definition.  So h' is the specification's gated update of (A (h · W_l), h), that is the specification's
  layer; the run's result is the five layers composed, and the arguments are unchanged.
-/
import proofs.«155903_j60266981097696_1_alg».proof.Proof.Gen.ReferenceIdeal.Run
import proofs.«155903_j60266981097696_1_alg».proof.Proof.Spec
import proofs.«155903_j60266981097696_1_alg».proof.Proof.LibDotNN
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe Idealize.ShloMosaic.ValueIdx Idealize.SL.Sem

/-! ## The pieces of the reference's program, named -/

/-- Row 0 of the 2×320000 edge index array: the source node of every edge. -/
def srcOf (ei : IVec S2x320000 32) : IVec S320000 32 :=
  shapeCast _ (extractStridedSlice S1x320000 ![0, 0] ei slices_S2x320000_S1x320000_0_0) shapeCasts_S1x320000_S320000

/-- Row 1 of the edge index array: the destination node of every edge. -/
def dstOf (ei : IVec S2x320000 32) : IVec S320000 32 :=
  shapeCast _ (extractStridedSlice S1x320000 ![1, 0] ei slices_S2x320000_S1x320000_1_0) shapeCasts_S1x320000_S320000

/-- Layer 0's 256×256 weight out of the stack of five. -/
def wOf0 (w : FVec Ideal S5x256x256 .f32) : FVec Ideal S256x256 .f32 :=
  shapeCast _ (extractStridedSlice S1x256x256 ![0, 0, 0] w slices_S5x256x256_S1x256x256_0_0_0) shapeCasts_S1x256x256_S256x256
/-- Layer 1's weight. -/
def wOf1 (w : FVec Ideal S5x256x256 .f32) : FVec Ideal S256x256 .f32 :=
  shapeCast _ (extractStridedSlice S1x256x256 ![1, 0, 0] w slices_S5x256x256_S1x256x256_1_0_0) shapeCasts_S1x256x256_S256x256
/-- Layer 2's weight. -/
def wOf2 (w : FVec Ideal S5x256x256 .f32) : FVec Ideal S256x256 .f32 :=
  shapeCast _ (extractStridedSlice S1x256x256 ![2, 0, 0] w slices_S5x256x256_S1x256x256_2_0_0) shapeCasts_S1x256x256_S256x256
/-- Layer 3's weight. -/
def wOf3 (w : FVec Ideal S5x256x256 .f32) : FVec Ideal S256x256 .f32 :=
  shapeCast _ (extractStridedSlice S1x256x256 ![3, 0, 0] w slices_S5x256x256_S1x256x256_3_0_0) shapeCasts_S1x256x256_S256x256
/-- Layer 4's weight. -/
def wOf4 (w : FVec Ideal S5x256x256 .f32) : FVec Ideal S256x256 .f32 :=
  shapeCast _ (extractStridedSlice S1x256x256 ![4, 0, 0] w slices_S5x256x256_S1x256x256_4_0_0) shapeCasts_S1x256x256_S256x256

/-- The aggregation of a node array along the edges: gather the rows at the edges' sources (a negative index wrapped
    by the node count), scale each gathered row by its edge's attribute, and sum the rows into their edges'
    destinations, starting from zero. -/
def aggR (ei : IVec S2x320000 32) (ea : FVec Ideal S320000 .f32) (M : FVec Ideal S10000x256 .f32) : FVec Ideal S10000x256 .f32 :=
  Host.scatterAdd scatter_S10000x256_S320000x1_S320000x256_1_0_0_1 (broadcastInDim S10000x256 ![] bcast_S_S10000x256 (constant (F := Ideal) S_ .f32 0x00000000#32)) (broadcastInDim S320000x1 ![0] bcast_S320000_S320000x1_0 (dstOf ei)) (mulf (Host.gather gather_S10000x256_S320000x1_S320000x256_1_0_n_n_0_1_1256 M (broadcastInDim S320000x1 ![0] bcast_S320000_S320000x1_0 (select (cmpi .slt (srcOf ei) (broadcastInDim S320000 ![] bcast_S_S320000 (constantI S_ 32 0#32))) (addi (srcOf ei) (broadcastInDim S320000 ![] bcast_S_S320000 (constantI S_ 32 10000#32))) (srcOf ei)))) (broadcastInDim S320000x256 ![0, 1] bcast_S320000x1_S320000x256_0_1 (broadcastInDim S320000x1 ![0] bcast_S320000_S320000x1_0 ea)))

/-- A 768×256 gate weight, transposed. -/
def wT (w : FVec Ideal S768x256 .f32) : FVec Ideal S256x768 .f32 := transpose S256x768 [1, 0] w transposes_S768x256_S256x768_1_0

/-- A gate bias as a single row. -/
def bRow (b : FVec Ideal S768 .f32) : FVec Ideal S1x768 .f32 := broadcastInDim S1x768 ![1] bcast_S768_S1x768_1 b

/-- One layer of the reference, through the specification's layer function. -/
def refLayer (ei : IVec S2x320000 32) (ea : FVec Ideal S320000 .f32) (wl : FVec Ideal S256x256 .f32)
    (wih whh : FVec Ideal S768x256 .f32) (bih bhh : FVec Ideal S768 .f32) (H : FVec Ideal S10000x256 .f32) : FVec Ideal S10000x256 .f32 :=
  Cert.Spec.layerG (aggR ei ea) H wl (wT wih) (wT whh) (bRow bih) (bRow bhh)

/-- The five layers, one after the other. -/
def refOut (x : FVec Ideal S10000x256 .f32) (ei : IVec S2x320000 32) (ea : FVec Ideal S320000 .f32) (w : FVec Ideal S5x256x256 .f32)
    (wih whh : FVec Ideal S768x256 .f32) (bih bhh : FVec Ideal S768 .f32) : FVec Ideal S10000x256 .f32 :=
  refLayer ei ea (wOf4 w) wih whh bih bhh (refLayer ei ea (wOf3 w) wih whh bih bhh (refLayer ei ea (wOf2 w) wih whh bih bhh
    (refLayer ei ea (wOf1 w) wih whh bih bhh (refLayer ei ea (wOf0 w) wih whh bih bhh x))))

/-! ## The host's matrix product against a layer weight -/

/-- The host product against a 256×256 weight is the specification's linear transform. -/
theorem host_lin (H : FVec Ideal S10000x256 .f32) (W : FVec Ideal S256x256 .f32) :
    Host.dotGeneral (F := Ideal) dot_S10000x256_S256x256_S10000x256_1_0_0_1_n_n none H W = Cert.Spec.linG H W :=
  Cert.Spec.ext2 _ _ fun p n =>
    (Cert.LibDotNN.dotGeneral_apply dot_S10000x256_S256x256_S10000x256_1_0_0_1_n_n rfl none H W p n).trans rfl

/-! ## The host's gated update, entry by entry -/

/-- The array of ones the host's sigmoid and update are spelt with. -/
def oneA : FVec Ideal S10000x256 .f32 := broadcastInDim S10000x256 ![] bcast_S_S10000x256 (constant (F := Ideal) S_ .f32 0x3F800000#32)

/-- Every entry of the array of ones is the extended real one. -/
theorem oneA_apply (i : S10000x256.Idx) : oneA i = (1 : EReal) :=
  (broadcastInDim_scalar_apply bcast_S_S10000x256 _ i).trans ((constant_apply _ _).trans Ideal.ofBits_one_f32)

/-- The host's sigmoid of an array: one over one plus the exponential of the negation. -/
def sigA (x : FVec Ideal S10000x256 .f32) : FVec Ideal S10000x256 .f32 :=
  Host.divf (F := Ideal) oneA (addf oneA (Host.exp (F := Ideal) (Host.negf (F := Ideal) x)))

/-- The host's sigmoid at an entry is the logistic function of the entry. -/
theorem sigA_apply (x : FVec Ideal S10000x256 .f32) (i : S10000x256.Idx) : sigA x i = Ideal.logistic (x i) := by
  show Ideal.div (oneA i) (oneA i + Ideal.exp (-(x i))) = Ideal.div 1 (1 + Ideal.exp (-(x i)))
  rw [oneA_apply]

/-- A gate pre-activation array as the host computes it: the product with the transposed weight plus the bias row
    repeated down the rows. -/
def gate (X : FVec Ideal S10000x256 .f32) (wt : FVec Ideal S256x768 .f32) (b : FVec Ideal S1x768 .f32) : FVec Ideal S10000x768 .f32 :=
  addf (Host.dotGeneral (F := Ideal) dot_S10000x256_S256x768_S10000x768_1_0_0_1_n_n none X wt) (broadcastInDim S10000x768 ![0, 1] bcast_S1x768_S10000x768_0_1 b)

/-- A single row repeated down 10000 rows reads, at `(p, j)`, the row at `j`. -/
theorem bias_apply (b : FVec Ideal S1x768 .f32) (p : Fin 10000) (j : Fin 768) :
    broadcastInDim S10000x768 ![0, 1] bcast_S1x768_S10000x768_0_1 b (ix2 p j) = b (ix2 (0 : Fin 1) j) :=
  broadcastInDim_apply _ _ b _ _ (fun a => by
    match a with
    | ⟨0, _⟩ => rfl
    | ⟨1, _⟩ => rfl)

/-- The host's gate pre-activation at `(p, j)` is the specification's. -/
theorem gate_apply (X : FVec Ideal S10000x256 .f32) (wt : FVec Ideal S256x768 .f32) (b : FVec Ideal S1x768 .f32) (p : Fin 10000) (j : Fin 768) :
    gate X wt b (ix2 p j) = Cert.Spec.pre X wt b p j := by
  show Host.dotGeneral (F := Ideal) dot_S10000x256_S256x768_S10000x768_1_0_0_1_n_n none X wt (ix2 p j)
      + broadcastInDim S10000x768 ![0, 1] bcast_S1x768_S10000x768_0_1 b (ix2 p j) = _
  rw [Cert.LibDotNN.dotGeneral_apply dot_S10000x256_S256x768_S10000x768_1_0_0_1_n_n rfl none X wt p j, bias_apply]
  rfl

/-- The host's new state from the two gate pre-activation arrays and the old state: the update gate `z` and the
    reset gate `r` are sigmoids of sums of column slices, the candidate is the hyperbolic tangent of the third slices
    combined through `r`, and the result is `(1 − z) · candidate + z · old`. -/
def hostGru (GI GH : FVec Ideal S10000x768 .f32) (H : FVec Ideal S10000x256 .f32) : FVec Ideal S10000x256 .f32 :=
  addf (mulf (subf oneA (sigA (addf (extractStridedSlice S10000x256 ![0, 256] GI slices_S10000x768_S10000x256_0_256) (extractStridedSlice S10000x256 ![0, 256] GH slices_S10000x768_S10000x256_0_256)))) (Host.tanh (F := Ideal) (addf (extractStridedSlice S10000x256 ![0, 512] GI slices_S10000x768_S10000x256_0_512) (mulf (sigA (addf (extractStridedSlice S10000x256 ![0, 0] GI slices_S10000x768_S10000x256_0_0) (extractStridedSlice S10000x256 ![0, 0] GH slices_S10000x768_S10000x256_0_0))) (extractStridedSlice S10000x256 ![0, 512] GH slices_S10000x768_S10000x256_0_512))))) (mulf (sigA (addf (extractStridedSlice S10000x256 ![0, 256] GI slices_S10000x768_S10000x256_0_256) (extractStridedSlice S10000x256 ![0, 256] GH slices_S10000x768_S10000x256_0_256))) H)

/-- A 256-column slice of a 768-column array starting at column `o` reads, at `(p, q)`, the array at `(p, o + q)`. -/
theorem slice_apply (o : Nat) (ho : o + 256 ≤ 768) (G : FVec Ideal S10000x768 .f32) (h : S10000x768.Slices ![0, o] S10000x256)
    (p : Fin 10000) (q : Fin 256) :
    extractStridedSlice S10000x256 ![0, o] G h (ix2 p q) = G (ix2 p (Cert.Spec.gateCol o ho q)) :=
  slice2_axis1_apply o G h p q (Cert.Spec.gateCol o ho q) rfl

/-- The host's new state at `(p, q)` is the specification's cell of the six pre-activation entries and the old entry. -/
theorem hostGru_apply (GI GH : FVec Ideal S10000x768 .f32) (H : FVec Ideal S10000x256 .f32) (p : Fin 10000) (q : Fin 256) :
    hostGru GI GH H (ix2 p q)
      = Cert.Spec.cell (GI (ix2 p (Cert.Spec.gateCol 0 (by omega) q))) (GH (ix2 p (Cert.Spec.gateCol 0 (by omega) q)))
          (GI (ix2 p (Cert.Spec.gateCol 256 (by omega) q))) (GH (ix2 p (Cert.Spec.gateCol 256 (by omega) q)))
          (GI (ix2 p (Cert.Spec.gateCol 512 (by omega) q))) (GH (ix2 p (Cert.Spec.gateCol 512 (by omega) q)))
          (H (ix2 p q)) := by
  show (oneA (ix2 p q) - sigA (addf (extractStridedSlice S10000x256 ![0, 256] GI slices_S10000x768_S10000x256_0_256) (extractStridedSlice S10000x256 ![0, 256] GH slices_S10000x768_S10000x256_0_256)) (ix2 p q))
        * Ideal.tanh (extractStridedSlice S10000x256 ![0, 512] GI slices_S10000x768_S10000x256_0_512 (ix2 p q)
            + sigA (addf (extractStridedSlice S10000x256 ![0, 0] GI slices_S10000x768_S10000x256_0_0) (extractStridedSlice S10000x256 ![0, 0] GH slices_S10000x768_S10000x256_0_0)) (ix2 p q)
              * extractStridedSlice S10000x256 ![0, 512] GH slices_S10000x768_S10000x256_0_512 (ix2 p q))
      + sigA (addf (extractStridedSlice S10000x256 ![0, 256] GI slices_S10000x768_S10000x256_0_256) (extractStridedSlice S10000x256 ![0, 256] GH slices_S10000x768_S10000x256_0_256)) (ix2 p q) * H (ix2 p q) = _
  simp only [oneA_apply, sigA_apply, addf_apply, slice_apply _ (by omega : 0 + 256 ≤ 768), slice_apply _ (by omega : 256 + 256 ≤ 768), slice_apply _ (by omega : 512 + 256 ≤ 768), Cert.Spec.cell]

/-- The host's gated update of the two gate arrays is the specification's gated update. -/
theorem host_gru (A H : FVec Ideal S10000x256 .f32) (wiT whT : FVec Ideal S256x768 .f32) (bi bh : FVec Ideal S1x768 .f32) :
    hostGru (gate A wiT bi) (gate H whT bh) H = Cert.Spec.gruG A H wiT whT bi bh :=
  Cert.Spec.ext2 _ _ fun p q => by
    rw [hostGru_apply]
    simp only [gate_apply]
    rfl

/-- One layer as the host spells it is one layer of the specification. -/
theorem layer_eq (ei : IVec S2x320000 32) (ea : FVec Ideal S320000 .f32) (wl : FVec Ideal S256x256 .f32)
    (wih whh : FVec Ideal S768x256 .f32) (bih bhh : FVec Ideal S768 .f32) (H : FVec Ideal S10000x256 .f32) :
    hostGru (gate (aggR ei ea (Host.dotGeneral (F := Ideal) dot_S10000x256_S256x256_S10000x256_1_0_0_1_n_n none H wl)) (wT wih) (bRow bih))
        (gate H (wT whh) (bRow bhh)) H
      = refLayer ei ea wl wih whh bih bhh H := by
  rw [host_gru, host_lin]
  rfl

/-! ## The five layers of the run

Each layer's new state, as the run composes it from the arguments, is the specification's layer applied to the
previous state: the run's term and the host spelling above are one term, and the host spelling is the specification's
layer by the two lemmas above. -/

section Layers

variable (V0 : Valuation τ sig (Elt Ideal))

/-- The run's state after the first layer. -/
theorem layer0 : res_main_v57 (F := Ideal) V0 = refLayer (V0 (Proc.devRef .tc main_arg1)) (V0 (Proc.devRef .tc main_arg2)) (wOf0 (V0 (Proc.devRef .tc main_arg3))) (V0 (Proc.devRef .tc main_arg4)) (V0 (Proc.devRef .tc main_arg5)) (V0 (Proc.devRef .tc main_arg6)) (V0 (Proc.devRef .tc main_arg7)) (V0 (Proc.devRef .tc main_arg0)) := by
  refine Eq.trans ?_ (layer_eq _ _ _ _ _ _ _ _)
  rfl

/-- The run's state after the second layer. -/
theorem layer1 : res_main_v111 (F := Ideal) V0 = refLayer (V0 (Proc.devRef .tc main_arg1)) (V0 (Proc.devRef .tc main_arg2)) (wOf1 (V0 (Proc.devRef .tc main_arg3))) (V0 (Proc.devRef .tc main_arg4)) (V0 (Proc.devRef .tc main_arg5)) (V0 (Proc.devRef .tc main_arg6)) (V0 (Proc.devRef .tc main_arg7)) (res_main_v57 (F := Ideal) V0) := by
  refine Eq.trans ?_ (layer_eq _ _ _ _ _ _ _ _)
  rfl

/-- The run's state after the third layer. -/
theorem layer2 : res_main_v165 (F := Ideal) V0 = refLayer (V0 (Proc.devRef .tc main_arg1)) (V0 (Proc.devRef .tc main_arg2)) (wOf2 (V0 (Proc.devRef .tc main_arg3))) (V0 (Proc.devRef .tc main_arg4)) (V0 (Proc.devRef .tc main_arg5)) (V0 (Proc.devRef .tc main_arg6)) (V0 (Proc.devRef .tc main_arg7)) (res_main_v111 (F := Ideal) V0) := by
  refine Eq.trans ?_ (layer_eq _ _ _ _ _ _ _ _)
  rfl

/-- The run's state after the fourth layer. -/
theorem layer3 : res_main_v219 (F := Ideal) V0 = refLayer (V0 (Proc.devRef .tc main_arg1)) (V0 (Proc.devRef .tc main_arg2)) (wOf3 (V0 (Proc.devRef .tc main_arg3))) (V0 (Proc.devRef .tc main_arg4)) (V0 (Proc.devRef .tc main_arg5)) (V0 (Proc.devRef .tc main_arg6)) (V0 (Proc.devRef .tc main_arg7)) (res_main_v165 (F := Ideal) V0) := by
  refine Eq.trans ?_ (layer_eq _ _ _ _ _ _ _ _)
  rfl

/-- The run's result, the state after the fifth layer. -/
theorem layer4 : addf (mulf (subf (broadcastInDim S10000x256 ![] bcast_S_S10000x256 (constant (F := Ideal) S_ .f32 0x3F800000#32)) (res_main_v265 V0)) (Host.tanh (F := Ideal) (addf (extractStridedSlice S10000x256 ![0, 512] (res_main_v240 V0) slices_S10000x768_S10000x256_0_512) (mulf (Host.divf (F := Ideal) (broadcastInDim S10000x256 ![] bcast_S_S10000x256 (constant (F := Ideal) S_ .f32 0x3F800000#32)) (addf (broadcastInDim S10000x256 ![] bcast_S_S10000x256 (constant (F := Ideal) S_ .f32 0x3F800000#32)) (Host.exp (F := Ideal) (Host.negf (F := Ideal) (addf (extractStridedSlice S10000x256 ![0, 0] (res_main_v240 V0) slices_S10000x768_S10000x256_0_0) (extractStridedSlice S10000x256 ![0, 0] (res_main_v245 V0) slices_S10000x768_S10000x256_0_0)))))) (extractStridedSlice S10000x256 ![0, 512] (res_main_v245 V0) slices_S10000x768_S10000x256_0_512))))) (mulf (res_main_v265 V0) (res_main_v219 V0))
      = refLayer (V0 (Proc.devRef .tc main_arg1)) (V0 (Proc.devRef .tc main_arg2)) (wOf4 (V0 (Proc.devRef .tc main_arg3))) (V0 (Proc.devRef .tc main_arg4)) (V0 (Proc.devRef .tc main_arg5)) (V0 (Proc.devRef .tc main_arg6)) (V0 (Proc.devRef .tc main_arg7)) (res_main_v219 (F := Ideal) V0) := by
  refine Eq.trans ?_ (layer_eq _ _ _ _ _ _ _ _)
  rfl

/-- The run's result is the five layers of the specification, one after the other, from the first argument. -/
theorem out_eq : addf (mulf (subf (broadcastInDim S10000x256 ![] bcast_S_S10000x256 (constant (F := Ideal) S_ .f32 0x3F800000#32)) (res_main_v265 V0)) (Host.tanh (F := Ideal) (addf (extractStridedSlice S10000x256 ![0, 512] (res_main_v240 V0) slices_S10000x768_S10000x256_0_512) (mulf (Host.divf (F := Ideal) (broadcastInDim S10000x256 ![] bcast_S_S10000x256 (constant (F := Ideal) S_ .f32 0x3F800000#32)) (addf (broadcastInDim S10000x256 ![] bcast_S_S10000x256 (constant (F := Ideal) S_ .f32 0x3F800000#32)) (Host.exp (F := Ideal) (Host.negf (F := Ideal) (addf (extractStridedSlice S10000x256 ![0, 0] (res_main_v240 V0) slices_S10000x768_S10000x256_0_0) (extractStridedSlice S10000x256 ![0, 0] (res_main_v245 V0) slices_S10000x768_S10000x256_0_0)))))) (extractStridedSlice S10000x256 ![0, 512] (res_main_v245 V0) slices_S10000x768_S10000x256_0_512))))) (mulf (res_main_v265 V0) (res_main_v219 V0))
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [layer4, layer3, layer2, layer1, layer0]
  rfl

end Layers

/-! ## The run -/

/-- Every weakly fair execution of the reference terminates with the result buffer at the five layers of the
    specification applied to the launch contents of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v273)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (out_eq (StableHlo.launchContents m c)), (h c).2⟩)
    (Cert.ReferenceIdeal.Value.run (F := Ideal) m ρ)

end Cert.ReferenceIdeal.RefValue

end
-- ==== Proof.Bridge.lean ====
/-
  The two programs' five layers are one function of the arguments.

  Both programs cut the same two rows out of the edge index array and the same five matrices out of the weight stack,
  transpose the same two gate weights, and aggregate with the same host operations (gather at the sources, scale by the
  edge attribute, sum into the destinations): these terms differ only in which program's shape records they cite, and
  the records say the same thing.  The one operation that differs is how a gate bias b (768 entries) becomes a single
  row: the kernel's program casts the 768-vector to 1 × 768, the reference broadcasts it along a new leading axis.
  Either way entry (0, j) of the row is b[j], so the two rows are one array.  Hence each layer of the kernel's program is
  the same layer of the reference, and so are the five layers composed.
-/
import proofs.«155903_j60266981097696_1_alg».proof.Proof.KerTerm
import proofs.«155903_j60266981097696_1_alg».proof.Proof.RefValue
import Idealize.ShloMosaic.Lib.ValueLayout
import Idealize.ShloMosaic.Lib.Pipeline.Value

set_option maxRecDepth 16384

noncomputable section

namespace Cert.Proof.Bridge

open Idealize.ShloMosaic Idealize.ShloMosaic.ValueIdx Cert.KernelIdeal.Val
open Cert.ReferenceIdeal.RefValue (srcOf dstOf wOf0 wOf1 wOf2 wOf3 wOf4 aggR wT bRow refLayer refOut)

/-- A bias as one row: the cast of the 768-vector to 1 × 768 and its broadcast along a new leading axis both read, at
    `(u, j)`, the vector at `j`. -/
theorem bRow_eq (b : FVec Ideal ⟨1, ![768]⟩ .f32) : bRowK (F := Ideal) b = bRow b := by
  refine Cert.Spec.ext2 (n0 := 1) (n1 := 768) _ _ fun u j => ?_
  unfold bRowK bRow
  refine (shapeCast_a_1a_apply b _ u j).trans (broadcastInDim_apply _ _ b (ix2 u j) (ix1 j) (fun a => ?_)).symm
  match a with
  | ⟨0, _⟩ =>
    show j.val = if (768 : ℕ) = 1 then 0 else j.val
    exact (if_neg (by decide)).symm

/-- The sources' row is cut the same way. -/
theorem src_eq (ei : IVec ⟨2, ![2, 320000]⟩ 32) : srcK (F := Ideal) ei = srcOf ei := rfl

/-- The destinations' row is cut the same way. -/
theorem dst_eq (ei : IVec ⟨2, ![2, 320000]⟩ 32) : dstK (F := Ideal) ei = dstOf ei := rfl

/-- A gate weight is transposed the same way. -/
theorem wT_eq (w : FVec Ideal ⟨2, ![768, 256]⟩ .f32) : wTK (F := Ideal) w = wT w := rfl

/-- The aggregation along the edges is the same host operations on the same rows. -/
theorem agg_eq (ei : IVec ⟨2, ![2, 320000]⟩ 32) (ea : FVec Ideal ⟨1, ![320000]⟩ .f32) (M : FVec Ideal ⟨2, ![10000, 256]⟩ .f32) :
    aggOfK (F := Ideal) (srcK (F := Ideal) ei) (dstK (F := Ideal) ei) ea M = aggR ei ea M := rfl

/-- One layer of the kernel's program is one layer of the reference. -/
theorem layer_eq (ei : (⟨Cert.KernelIdeal.S2x320000, .i32⟩ : BufTy).Contents (Elt Ideal))
    (ea : (⟨Cert.KernelIdeal.S320000, .f32⟩ : BufTy).Contents (Elt Ideal))
    (wl : (⟨Cert.KernelIdeal.S256x256, .f32⟩ : BufTy).Contents (Elt Ideal))
    (wih whh : (⟨Cert.KernelIdeal.S768x256, .f32⟩ : BufTy).Contents (Elt Ideal))
    (bih bhh : (⟨Cert.KernelIdeal.S768, .f32⟩ : BufTy).Contents (Elt Ideal))
    (H : (⟨Cert.KernelIdeal.S10000x256, .f32⟩ : BufTy).Contents (Elt Ideal)) :
    kerLayer ei ea wl wih whh bih bhh H = refLayer ei ea wl wih whh bih bhh H := by
  unfold kerLayer refLayer
  rw [bRow_eq, bRow_eq]
  exact congrArg (fun A => Cert.Spec.layerG A H wl (wT wih) (wT whh) (bRow bih) (bRow bhh)) (funext fun M => agg_eq ei ea M)

/-- The five layers of the kernel's program are the five layers of the reference. -/
theorem out_eq (x : (⟨Cert.KernelIdeal.S10000x256, .f32⟩ : BufTy).Contents (Elt Ideal))
    (ei : (⟨Cert.KernelIdeal.S2x320000, .i32⟩ : BufTy).Contents (Elt Ideal))
    (ea : (⟨Cert.KernelIdeal.S320000, .f32⟩ : BufTy).Contents (Elt Ideal))
    (w : (⟨Cert.KernelIdeal.S5x256x256, .f32⟩ : BufTy).Contents (Elt Ideal))
    (wih whh : (⟨Cert.KernelIdeal.S768x256, .f32⟩ : BufTy).Contents (Elt Ideal))
    (bih bhh : (⟨Cert.KernelIdeal.S768, .f32⟩ : BufTy).Contents (Elt Ideal)) :
    Cert.KernelIdeal.Val.kerOut x ei ea w wih whh bih bhh = Cert.ReferenceIdeal.RefValue.refOut x ei ea w wih whh bih bhh := by
  unfold kerOut refOut
  rw [layer_eq, layer_eq, layer_eq, layer_eq, layer_eq]
  rfl

end Cert.Proof.Bridge

end
-- ==== Proof.lean ====
/-
  The certificate: the idealized kernel and the idealized reference compute one function of the arguments.

  The program is five layers of message passing on a graph of 10000 nodes and 320000 edges with 256 features.  A layer
  transforms the node states by its weight (a kernel launch over ten blocks of 1000 rows in the kernel's program, one
  matrix product in the reference), gathers the transformed rows at the edges' sources, scales them by the edge
  weights and sums them into their destinations (the same host operations in both programs), and updates every state
  through a gated recurrent cell (a second launch over ten blocks of rows; two matrix products, three column bands,
  two sigmoids and a hyperbolic tangent in either program).  Over the extended reals a change of float format is the
  identity and a matrix product is a plain sum, whatever its blocking, so block t of a launch's output is rows
  1000·t … 1000·t + 999 of the layer's specification, and the ten blocks tile the array.  The sigmoid is
  1 / (1 + e^(−x)) in both programs by definition.  Hence after every layer the two programs hold the same states, and
  after the fifth the same result.  No law of arithmetic that fails at an infinity is used, so the precondition is
  never opened.

  The three frames: the kernel's two are its run over @main's twenty segments; the reference has no launch, and its
  frame is its run with the result dropped.  The ideal pass rewrote nothing, so there is nothing to preserve.
-/
import proofs.«155903_j60266981097696_1_alg».proof.Defs
import proofs.«155903_j60266981097696_1_alg».proof.Proof.Gen.Kernel
import proofs.«155903_j60266981097696_1_alg».proof.Proof.Gen.Kernel.Skeleton
import proofs.«155903_j60266981097696_1_alg».proof.Proof.Gen.Kernel.Launch
import proofs.«155903_j60266981097696_1_alg».proof.Proof.Gen.Kernel.Points
import proofs.«155903_j60266981097696_1_alg».proof.Proof.Gen.Kernel.Frame
import proofs.«155903_j60266981097696_1_alg».proof.Proof.Gen.KernelIdeal
import proofs.«155903_j60266981097696_1_alg».proof.Proof.Gen.KernelIdeal.Skeleton
import proofs.«155903_j60266981097696_1_alg».proof.Proof.Gen.KernelIdeal.Launch
import proofs.«155903_j60266981097696_1_alg».proof.Proof.Gen.KernelIdeal.Points
import proofs.«155903_j60266981097696_1_alg».proof.Proof.Gen.KernelIdeal.Frame
import proofs.«155903_j60266981097696_1_alg».proof.Proof.Gen.ReferenceIdeal
import proofs.«155903_j60266981097696_1_alg».proof.Proof.Gen.ReferenceIdeal.Run
import proofs.«155903_j60266981097696_1_alg».proof.Proof.Gen.Pre_finite_inputs
import proofs.«155903_j60266981097696_1_alg».proof.Proof.RunValue
import proofs.«155903_j60266981097696_1_alg».proof.Proof.Chain
import proofs.«155903_j60266981097696_1_alg».proof.Proof.RefValue
import proofs.«155903_j60266981097696_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the eight arguments both idealized programs run, and both end with the node states
    after five layers: the kernel's last launch leaves them in its output array (the walk through the twenty segments),
    the reference's last operation computes them (its run read back), and the two five-layer terms are one function. -/
theorem algebraic : Cert.algebraic_KernelIdeal_ReferenceIdeal := by
  intro m ρ m' ρ' _ hagree
  refine ⟨fun c => Cert.KernelIdeal.Val.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.kernel_value m ρ c), (h c).2⟩)
      (Cert.KernelIdeal.GenP.run_value (F := Ideal) m ρ)
  · refine (θ_run Cert.ReferenceIdeal.defs _ _).mono (fun r h c => ⟨(h c).1.trans ?_, (h c).2⟩)
      (Cert.ReferenceIdeal.RefValue.ref_run m' ρ')
    obtain ⟨e0, e1, e2, e3, e4, e5, e6, e7⟩ := hagree c
    rw [e0, e1, e2, e3, e4, e5, e6, e7]
    exact (Cert.Proof.Bridge.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
